-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S64x192 : Shape := ⟨2, ![64, 192]⟩
abbrev S64 : Shape := ⟨1, ![64]⟩
abbrev S800000x2 : Shape := ⟨2, ![800000, 2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x192 : S_.BroadcastsInDim S64x192 (![] : Fin 0 → Fin S64x192.rank)
  reducesTo_S64x192_S_d0_1 : S64x192.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S64 .f32) (main_arg9 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S64 .f32) (main_arg5 : FVec F S64 .f32) (main_arg6 : FVec F S64x192 .f32) (main_arg7 : FVec F S64 .f32) (main_arg8 : FVec F S64 .f32) (main_arg9 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x192 .f32 := Host.absf main_arg6
  let main_cst_10 : FVec F S_ .f32 := constant S_ .f32 0x7F800000#32
  let main_v30 : FVec F S64x192 .f32 := broadcastInDim S64x192 ![] bcast_S_S64x192 main_cst_10
  let main_v31 : IVec S64x192 1 := cmpf .olt main_v29 main_v30
  let main_c_11 : IVec S_ 1 := constantI S_ 1 1#1
  let main_v32 : IVec S_ 1 := (fun x v => Host.reduce IntOp.andi x v reducesTo_S64x192_S_d0_1 h_S_) main_v31 main_c_11
  let main_v33 : IVec S_ 1 := andi main_v28 main_v32
  fn_part2 (F := F) main_arg7 main_arg8 main_arg9 main_v33

def fn {F : FTy → Type} [FloatOps F] (main_arg0 : FVec F S50000x64 .f32) (main_arg1 : FVec F S800000x64 .f32) (main_arg2 : FVec F S64x192 .f32) (main_arg3 : FVec F S64 .f32) (main_arg4 : FVec F S64 .f32) (main_arg5 : FVec F S64 .f32) (main_arg6 : FVec F S64x192 .f32) (main_arg7 : FVec F S64 .f32) (main_arg8 : FVec F S64 .f32) (main_arg9 : FVec F S64 .f32) (main_arg10 : IVec S800000x2 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x192 .f32 := Host.absf main_arg2
  let main_cst_2 : FVec F S_ .f32 := constant S_ .f32 0x7F800000#32
  let main_v10 : FVec F S64x192 .f32 := broadcastInDim S64x192 ![] bcast_S_S64x192 main_cst_2
  let main_v11 : IVec S64x192 1 := cmpf .olt main_v9 main_v10
  let main_c_3 : IVec S_ 1 := constantI S_ 1 1#1
  let main_v12 : IVec S_ 1 := (fun x v => Host.reduce IntOp.andi x v reducesTo_S64x192_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S50000x64 : Shape := ⟨2, ![50000, 64]⟩
abbrev S800000x64 : Shape := ⟨2, ![800000, 64]⟩
abbrev S64x192 : Shape := ⟨2, ![64, 192]⟩
abbrev S64 : Shape := ⟨1, ![64]⟩
abbrev S800000x2 : Shape := ⟨2, ![800000, 2]⟩
abbrev S800000x1 : Shape := ⟨2, ![800000, 1]⟩
abbrev S800000 : Shape := ⟨1, ![800000]⟩
abbrev S_ : Shape := ⟨0, ![]⟩
abbrev S800000x192 : Shape := ⟨2, ![800000, 192]⟩
abbrev S192x64 : Shape := ⟨2, ![192, 64]⟩
abbrev S192x128 : Shape := ⟨2, ![192, 128]⟩
abbrev S128 : Shape := ⟨1, ![128]⟩
abbrev S1x128 : Shape := ⟨2, ![1, 128]⟩
abbrev S50x1x128 : Shape := ⟨3, ![50, 1, 128]⟩
abbrev S16000x192 : Shape := ⟨2, ![16000, 192]⟩
abbrev S1x1x128 : Shape := ⟨3, ![1, 1, 128]⟩
abbrev S16000x128 : Shape := ⟨2, ![16000, 128]⟩
abbrev S6400x192 : Shape := ⟨2, ![6400, 192]⟩
abbrev S6400x64 : Shape := ⟨2, ![6400, 64]⟩
abbrev S6400x128 : Shape := ⟨2, ![6400, 128]⟩

abbrev nBuf : Space → Nat
  | .hbm => 69
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S64x192, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x192, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S800000x2, .i32⟩
  | .hbm, ⟨11, _⟩ => ⟨S800000x1, .i32⟩
  | .hbm, ⟨12, _⟩ => ⟨S800000, .i32⟩
  | .hbm, ⟨13, _⟩ => ⟨S800000x1, .i32⟩
  | .hbm, ⟨14, _⟩ => ⟨S800000, .i32⟩
  | .hbm, ⟨15, _⟩ => ⟨S50000x64, .bf16⟩
  | .hbm, ⟨16, _⟩ => ⟨S800000x64, .bf16⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .bf16⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x64, .bf16⟩
  | .hbm, ⟨35, _⟩ => ⟨S800000x192, .bf16⟩
  | .hbm, ⟨36, _⟩ => ⟨S192x64, .f32⟩
  | .hbm, ⟨37, _⟩ => ⟨S192x64, .f32⟩
  | .hbm, ⟨38, _⟩ => ⟨S192x128, .f32⟩
  | .hbm, ⟨39, _⟩ => ⟨S192x128, .bf16⟩
  | .hbm, ⟨40, _⟩ => ⟨S128, .f32⟩
  | .hbm, ⟨41, _⟩ => ⟨S1x128, .f32⟩
  | .hbm, ⟨42, _⟩ => ⟨S128, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S50x1x128, .f32⟩
  | .hbm, ⟨47, _⟩ => ⟨S50x1x128, .f32⟩
  | .hbm, ⟨48, _⟩ => ⟨S_, .f32⟩
  | .hbm, ⟨49, _⟩ => ⟨S1x128, .f32⟩
  | .hbm, ⟨50, _⟩ => ⟨S_, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S_, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S_, .f32⟩
  | .hbm, ⟨61, _⟩ => ⟨S1x128, .f32⟩
  | .hbm, ⟨62, _⟩ => ⟨S1x128, .f32⟩
  | .hbm, ⟨63, _⟩ => ⟨S800000x64, .f32⟩
  | .hbm, ⟨64, _⟩ => ⟨S_, .f32⟩
  | .hbm, ⟨65, _⟩ => ⟨S50000x64, .f32⟩
  | .hbm, ⟨66, _⟩ => ⟨S800000x1, .i32⟩
  | .hbm, ⟨67, _⟩ => ⟨S50000x64, .f32⟩
  | .hbm, ⟨68, _⟩ => ⟨S50000x64, .f32⟩
  | .local _ .vmem, ⟨0, _⟩ => ⟨S16000x192, .bf16⟩
  | .local _ .vmem, ⟨1, _⟩ => ⟨S16000x192, .bf16⟩
  | .local _ .vmem, ⟨2, _⟩ => ⟨S192x128, .bf16⟩
  | .local _ .vmem, ⟨3, _⟩ => ⟨S1x128, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S6400x192, .bf16⟩
  | .local _ .vmem, ⟨9, _⟩ => ⟨S6400x192, .bf16⟩
  | .local _ .vmem, ⟨10, _⟩ => ⟨S192x128, .bf16⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S6400x64, .f32⟩
  | .local _ .vmem, ⟨17, _⟩ => ⟨S6400x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31_0 : Ref sig .tc := ⟨.hbm, 46, rfl⟩
abbrev main_v31_1 : Ref sig .tc := ⟨.hbm, 47, rfl⟩
abbrev main_cst : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16000x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S192x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S6400x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  transposes_S64x192_S192x64_1_0 : S64x192.Transposes [1, 0] S192x64
  concatenates_S192x64_S192x64_S192x128_d1 : Shape.Concatenates [S192x64, S192x64] S192x128 1
  concatenates_S64_S64_S128_d0 : Shape.Concatenates [S64, S64] S128 0
  bcast_S128_S1x128_1 : S128.BroadcastsInDim S1x128 (![1] : Fin 1 → Fin S1x128.rank)
  inb_S16000x192_S16000x192_0_0 : ∀ a, (![0, 0] : Fin 2 → Nat) a + S16000x192.size a ≤ S16000x192.size a
  h_S16000x192 : 0 < S16000x192.numel
  shapeCasts_S16000x192_S16000x192 : S16000x192.ShapeCasts S16000x192
  inb_S192x128_S192x128_0_0 : ∀ a, (![0, 0] : Fin 2 → Nat) a + S192x128.size a ≤ S192x128.size a
  h_S192x128 : 0 < S192x128.numel
  shapeCasts_S192x128_S192x128 : S192x128.ShapeCasts S192x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  reduces_S16000x128_S128 : S16000x128.Reduces [0] S128
  shapeCasts_S128_S1x128 : S128.ShapeCasts S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S50x1x128_S1x128_d0 : S50x1x128.ReducesTo [0] S1x128
  h_S_ : 0 < S_.numel
  bcast_S_S1x128 : S_.BroadcastsInDim S1x128 (![] : Fin 0 → Fin S1x128.rank)
  inb_S6400x192_S6400x192_0_0 : ∀ a, (![0, 0] : Fin 2 → Nat) a + S6400x192.size a ≤ S6400x192.size a
  h_S6400x192 : 0 < S6400x192.numel
  shapeCasts_S6400x192_S6400x192 : S6400x192.ShapeCasts S6400x192
  broadcasts_S1x128_S6400x128 : S1x128.Broadcasts S6400x128
  slices_S6400x128_o0_0_S6400x64 : S6400x128.Slices ![0, 0] S6400x64
  slices_S6400x128_o0_64_S6400x64 : S6400x128.Slices ![0, 64] S6400x64
  inb_S6400x64_S6400x64_0_0 : ∀ a, (![0, 0] : Fin 2 → Nat) a + S6400x64.size a ≤ S6400x64.size a
  h_S6400x64 : 0 < S6400x64.numel
  bcast_S_S50000x64 : S_.BroadcastsInDim S50000x64 (![] : Fin 0 → Fin S50000x64.rank)
  gather_S50000x64_S800000x1_S800000x64_1_0_n_n_0_1_164_wf : GatherDims.WF S50000x64 S800000x1 S800000x64 [1] [0] [] [0] [] 1 ![1, 64]
  dot_S16000x192_S192x128_S16000x128_1_0_0_1_n_n_wf : DotDims.WF S16000x192 S192x128 S16000x128 [1] [0] [0] [1] [] []
  dot_S6400x192_S192x128_S6400x128_1_0_0_1_n_n_wf : DotDims.WF S6400x192 S192x128 S6400x128 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x192.size a ≤ S800000x192.size a
  hwx0_0 : ∀ i : grid0.Coords, EltTy.bits .bf16 = 32 ∨ (Rect.block (s := S800000x192) S16000x192.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x128.size a ≤ S192x128.size a
  hwx0_1 : ∀ i : grid0.Coords, EltTy.bits .bf16 = 32 ∨ (Rect.block (s := S192x128) S192x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S50x1x128.size a
  hwx0_3 : ∀ i : grid0.Coords, EltTy.bits .f32 = 32 ∨ (Rect.block (s := S50x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S50x1x128.size a
  hwx0_4 : ∀ i : grid0.Coords, EltTy.bits .f32 = 32 ∨ (Rect.block (s := S50x1x128) S1x1x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x192.size a ≤ S800000x192.size a
  hwx1_0 : ∀ i : grid1.Coords, EltTy.bits .bf16 = 32 ∨ (Rect.block (s := S800000x192) S6400x192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S192x128.size a ≤ S192x128.size a
  hwx1_1 : ∀ i : grid1.Coords, EltTy.bits .bf16 = 32 ∨ (Rect.block (s := S192x128) S192x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S6400x64.size a ≤ S800000x64.size a
  hwx1_7 : ∀ i : grid1.Coords, EltTy.bits .f32 = 32 ∨ (Rect.block (s := S800000x64) S6400x64.size (cc1_transform_7 i) (hinb1_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S16000x192_S192x128_S16000x128_1_0_0_1_n_n : DotDims S16000x192 S192x128 S16000x128 where
  lhsContracting := [1]
  rhsContracting := [0]
  lhsNonContracting := [0]
  rhsNonContracting := [1]
  lhsBatch := []
  rhsBatch := []
  wf := dot_S16000x192_S192x128_S16000x128_1_0_0_1_n_n_wf
def dot_S6400x192_S192x128_S6400x128_1_0_0_1_n_n : DotDims S6400x192 S192x128 S6400x128 where
  lhsContracting := [1]
  rhsContracting := [0]
  lhsNonContracting := [0]
  rhsNonContracting := [1]
  lhsBatch := []
  rhsBatch := []
  wf := dot_S6400x192_S192x128_S6400x128_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v20) S16000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31_0) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31_1) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v20) S6400x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S6400x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S64x192 : Shape := ⟨2, ![64, 192]⟩
abbrev S64 : Shape := ⟨1, ![64]⟩
abbrev S800000x2 : Shape := ⟨2, ![800000, 2]⟩
abbrev S800000x1 : Shape := ⟨2, ![800000, 1]⟩
abbrev S800000 : Shape := ⟨1, ![800000]⟩
abbrev S_ : Shape := ⟨0, ![]⟩
abbrev S800000x192 : Shape := ⟨2, ![800000, 192]⟩
abbrev S192x64 : Shape := ⟨2, ![192, 64]⟩
abbrev S1x64 : Shape := ⟨2, ![1, 64]⟩

abbrev nBuf : Space → Nat
  | .hbm => 132
  | .vmem => 0
  | .smem => 0
  | _ => 0

abbrev hbmTy0_0 (i : Nat) : BufTy := match i % 128 with
  | 0 => ⟨S50000x64, .f32⟩
  | 1 => ⟨S800000x64, .f32⟩
  | 2 => ⟨S64x192, .f32⟩
  | 3 => ⟨S64, .f32⟩
  | 4 => ⟨S64, .f32⟩
  | 5 => ⟨S64, .f32⟩
  | 6 => ⟨S64x192, .f32⟩
  | 7 => ⟨S64, .f32⟩
  | 8 => ⟨S64, .f32⟩
  | 9 => ⟨S64, .f32⟩
  | 10 => ⟨S800000x2, .i32⟩
  | 11 => ⟨S800000x1, .i32⟩
  | 12 => ⟨S800000, .i32⟩
  | 13 => ⟨S800000x1, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x64, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x64, .f32⟩
  | 33 => ⟨S800000x192, .f32⟩
  | 34 => ⟨S192x64, .f32⟩
  | 35 => ⟨S800000x64, .f32⟩
  | 36 => ⟨S1x64, .f32⟩
  | 37 => ⟨S800000x64, .f32⟩
  | 38 => ⟨S800000x64, .f32⟩
  | 39 => ⟨S_, .f32⟩
  | 40 => ⟨S64, .f32⟩
  | 41 => ⟨S_, .f32⟩
  | 42 => ⟨S64, .f32⟩
  | 43 => ⟨S64, .f32⟩
  | 44 => ⟨S1x64, .f32⟩
  | 45 => ⟨S800000x64, .f32⟩
  | 46 => ⟨S800000x64, .f32⟩
  | 47 => ⟨S800000x64, .f32⟩
  | 48 => ⟨S_, .f32⟩
  | 49 => ⟨S64, .f32⟩
  | 50 => ⟨S_, .f32⟩
  | 51 => ⟨S64, .f32⟩
  | 52 => ⟨S64, .f32⟩
  | 53 => ⟨S1x64, .f32⟩
  | 54 => ⟨S800000x64, .f32⟩
  | 55 => ⟨S800000x64, .f32⟩
  | 56 => ⟨S_, .f32⟩
  | 57 => ⟨S64, .f32⟩
  | 58 => ⟨S64, .f32⟩
  | 59 => ⟨S64, .f32⟩
  | 60 => ⟨S1x64, .f32⟩
  | 61 => ⟨S800000x64, .f32⟩
  | 62 => ⟨S800000x64, .f32⟩
  | 63 => ⟨S1x64, .f32⟩
  | 64 => ⟨S800000x64, .f32⟩
  | 65 => ⟨S800000x64, .f32⟩
  | 66 => ⟨S1x64, .f32⟩
  | 67 => ⟨S800000x64, .f32⟩
  | 68 => ⟨S800000x64, .f32⟩
  | 69 => ⟨S_, .f32⟩
  | 70 => ⟨S800000x64, .f32⟩
  | 71 => ⟨S800000x64, .f32⟩
  | 72 => ⟨S800000x64, .f32⟩
  | 73 => ⟨S800000x64, .f32⟩
  | 74 => ⟨S800000x64, .i1⟩
  | 75 => ⟨S800000x64, .f32⟩
  | 76 => ⟨S800000x64, .f32⟩
  | 77 => ⟨S800000x64, .f32⟩
  | 78 => ⟨S800000x64, .f32⟩
  | 79 => ⟨S800000x64, .f32⟩
  | 80 => ⟨S800000x64, .f32⟩
  | 81 => ⟨S800000x64, .f32⟩
  | 82 => ⟨S800000x64, .f32⟩
  | 83 => ⟨S192x64, .f32⟩
  | 84 => ⟨S800000x64, .f32⟩
  | 85 => ⟨S1x64, .f32⟩
  | 86 => ⟨S800000x64, .f32⟩
  | 87 => ⟨S800000x64, .f32⟩
  | 88 => ⟨S_, .f32⟩
  | 89 => ⟨S64, .f32⟩
  | 90 => ⟨S_, .f32⟩
  | 91 => ⟨S64, .f32⟩
  | 92 => ⟨S64, .f32⟩
  | 93 => ⟨S1x64, .f32⟩
  | 94 => ⟨S800000x64, .f32⟩
  | 95 => ⟨S800000x64, .f32⟩
  | 96 => ⟨S800000x64, .f32⟩
  | 97 => ⟨S_, .f32⟩
  | 98 => ⟨S64, .f32⟩
  | 99 => ⟨S_, .f32⟩
  | 100 => ⟨S64, .f32⟩
  | 101 => ⟨S64, .f32⟩
  | 102 => ⟨S1x64, .f32⟩
  | 103 => ⟨S800000x64, .f32⟩
  | 104 => ⟨S800000x64, .f32⟩
  | 105 => ⟨S_, .f32⟩
  | 106 => ⟨S64, .f32⟩
  | 107 => ⟨S64, .f32⟩
  | 108 => ⟨S64, .f32⟩
  | 109 => ⟨S1x64, .f32⟩
  | 110 => ⟨S800000x64, .f32⟩
  | 111 => ⟨S800000x64, .f32⟩
  | 112 => ⟨S1x64, .f32⟩
  | 113 => ⟨S800000x64, .f32⟩
  | 114 => ⟨S800000x64, .f32⟩
  | 115 => ⟨S1x64, .f32⟩
  | 116 => ⟨S800000x64, .f32⟩
  | 117 => ⟨S800000x64, .f32⟩
  | 118 => ⟨S800000x64, .f32⟩
  | 119 => ⟨S800000x64, .f32⟩
  | 120 => ⟨S_, .f32⟩
  | 121 => ⟨S800000x64, .f32⟩
  | 122 => ⟨S800000x64, .f32⟩
  | 123 => ⟨S_, .f32⟩
  | 124 => ⟨S800000x64, .f32⟩
  | 125 => ⟨S800000x64, .f32⟩
  | 126 => ⟨S800000x64, .f32⟩
  | 127 => ⟨S_, .f32⟩
  | _ => ⟨S50000x64, .f32⟩

abbrev hbmTy0_1 (i : Nat) : BufTy := match i % 128 with
  | 0 => ⟨S50000x64, .f32⟩
  | 1 => ⟨S800000x1, .i32⟩
  | 2 => ⟨S50000x64, .f32⟩
  | 3 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call0_cst : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_v8 : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_7 : Ref sig .tc := ⟨.hbm, 88, rfl⟩
abbrev main_v55 : Ref sig .tc := ⟨.hbm, 89, rfl⟩
abbrev main_cst_8 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_9 : Ref sig .tc := ⟨.hbm, 97, rfl⟩
abbrev main_v62 : Ref sig .tc := ⟨.hbm, 98, rfl⟩
abbrev main_cst_10 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_11 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_12 : Ref sig .tc := ⟨.hbm, 120, rfl⟩
abbrev main_v82 : Ref sig .tc := ⟨.hbm, 121, rfl⟩
abbrev main_v83 : Ref sig .tc := ⟨.hbm, 122, rfl⟩
abbrev main_cst_13 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_14 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  transposes_S64x192_S192x64_1_0 : S64x192.Transposes [1, 0] S192x64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  reducesTo_S800000x64_S64_d0 : S800000x64.ReducesTo [0] S64
  h_S_ : 0 < S_.numel
  bcast_S_S64 : S_.BroadcastsInDim S64 (![] : Fin 0 → Fin S64.rank)
  bcast_S_S800000x64 : S_.BroadcastsInDim S800000x64 (![] : Fin 0 → Fin S800000x64.rank)
  bcast_S_S50000x64 : S_.BroadcastsInDim S50000x64 (![] : Fin 0 → Fin S50000x64.rank)
  gather_S50000x64_S800000x1_S800000x64_1_0_n_n_0_1_164_wf : GatherDims.WF S50000x64 S800000x1 S800000x64 [1] [0] [] [0] [] 1 ![1, 64]
  dot_S800000x192_S192x64_S800000x64_1_0_0_1_n_n_wf : DotDims.WF S800000x192 S192x64 S800000x64 [1] [0] [0] [1] [] []
  scatter_S50000x64_S800000x1_S800000x64_1_0_0_1_wf : ScatterDims.WF S50000x64 S800000x1 S800000x64 [1] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x64_S800000x64_1_0_0_1_n_n : DotDims S800000x192 S192x64 S800000x64 where
  lhsContracting := [1]
  rhsContracting := [0]
  lhsNonContracting := [0]
  rhsNonContracting := [1]
  lhsBatch := []
  rhsBatch := []
  wf := dot_S800000x192_S192x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.BitsStats.lean ====
/-
  The statistics call (the first of the program's two kernel calls), at any float instance: what one grid point
  of it does to its five staging buffers, and the proof data of its pipeline, both stated over the
  contents `V` the unscoped buffers hold when the call is entered.

  A grid point t (of 50) sees rows 16000·t … 16000·t+15999 of the edge matrix z (window 0), the whole
  weight matrix (window 1) and the whole bias row (window 2); it leaves in its two one-row output blocks
  (windows 3 and 4) the column sums of z·W + b over those rows and the column sums of its squares. The
  body loads its three inputs whole, and stores each output whole, once; so each output buffer after the
  body is one stored piece read back, a function of the three input blocks alone.
-/
import proofs.«117771_j63462436766119_2_alg».proof.Proof.Gen.Kernel.Launch
import proofs.«117771_j63462436766119_2_alg».proof.Proof.Gen.Kernel.Skeleton
import proofs.«117771_j63462436766119_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: a block that is
    not fetched again has not moved (the weight and bias windows sit at block 0 throughout). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's accesses: every load and store is of a whole buffer -/

abbrev r0_0 : Rect S16000x192 := Rect.unit (s := S16000x192) ![0, 0] S16000x192.size inb_S16000x192_S16000x192_0_0
abbrev r0_1 : Rect S192x128 := Rect.unit (s := S192x128) ![0, 0] S192x128.size inb_S192x128_S192x128_0_0
abbrev r0_2 : Rect S1x128 := Rect.unit (s := S1x128) ![0, 0] S1x128.size inb_S1x128_S1x128_0_0
abbrev r0_3 : Rect S1x1x128 := Rect.unit (s := S1x1x128) ![0, 0, 0] S1x1x128.size inb_S1x1x128_S1x1x128_0_0_0

/-! ## What the body leaves in each output buffer -/

/-- The column sums' buffer after the body: its one store read back. -/
def out0_3 (x0 : Vec F S16000x192 .bf16) (x1 : Vec F S192x128 .bf16) (x2 : Vec F S1x128 .f32) : Vec F S1x1x128 .f32 :=
  View.canon [⟨r0_3, k0_pay2 (View.ld x0 r0_0) (View.ld x1 r0_1) (View.ld x2 r0_2)⟩]
/-- The buffer of the column sums of squares after the body: its one store read back. -/
def out0_4 (x0 : Vec F S16000x192 .bf16) (x1 : Vec F S192x128 .bf16) (x2 : Vec F S1x128 .f32) : Vec F S1x1x128 .f32 :=
  View.canon [⟨r0_3, k0_pay3 (View.ld x0 r0_0) (View.ld x1 r0_1) (View.ld x2 r0_2)⟩]

/-- One whole-buffer store covers the buffer. -/
theorem cover0_3 (p0 : Vec F S1x1x128 .f32) (y : S1x1x128.Idx) :
    ∃ pc ∈ ([⟨r0_3, p0⟩] : List (View.Piece (Elt F) S1x1x128 .f32)), y ∈ pc.1.set :=
  View.cover_of_tiled [⟨r0_3, p0⟩] S1x1x128.size (by rfl) y

/-! ## The body's triple -/

set_option maxHeartbeats 4000000 in
/-- The body on whole staging buffers — the inputs' at known contents, the outputs' at anything — runs to the end,
    leaves the inputs as they were and each output at its stored piece read back. -/
theorem sound_kernel0 (c : Dev nD) (E : Set ℕ) (i : grid0.Coords) (arg1 : Memref sig .tc .vmem S16000x192 .bf16) (harg1 : arg1.IsWhole) (arg2 : Memref sig .tc .vmem S192x128 .bf16) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole)
    (x0 : Vec F S16000x192 .bf16) (x1 : Vec F S192x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__stats_kernel i arg1 harg1 arg2 harg2 arg3 harg3 arg4 harg4 arg5 harg5) K := by
  simp only [cc0__stats_kernel_eq_skeleton]; unfold cc0__stats_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_3 _)

section
variable (V : (c : Dev nD) → (b : Ref sig .tc) → Buf (Elt F) ((c : Thread nD τ).loc b))

/-! ## The pipeline's proof data -/

/-- The proof data of the statistics call on core `c`: the arrays as the call finds them; after the body at point
    `t` each input's buffer at its block and each output's at its stored piece over the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Regions

end
-- ==== Proof.BitsMessage.lean ====
/-
  The message call (the second of the program's two kernel calls), at any float instance: what one grid point of
  it does to its eight staging buffers, and the proof data of its pipeline, both stated over the contents `V` the
  unscoped buffers hold when the call is entered.

  A grid point t (of 125) sees rows 6400·t … 6400·t+6399 of the edge matrix z (window 0) and, whole, the weight
  matrix (window 1) and five rows of 128 numbers: the bias (2), the column means (3), the column variances (4),
  the scale (5) and the shift (6). It leaves in its output block (window 7), for each of its 6400 rows, the 64
  gated messages: the logistic of the normalised columns 64…127 times the softplus of the normalised columns
  0…63. The body loads its seven inputs whole and stores the output whole, once; so the output buffer after the
  body is one stored piece read back, a function of the seven input blocks alone.
-/
import proofs.«117771_j63462436766119_2_alg».proof.Proof.Gen.Kernel.Launch
import proofs.«117771_j63462436766119_2_alg».proof.Proof.Gen.Kernel.Skeleton
import proofs.«117771_j63462436766119_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: a block that is
    not fetched again has not moved (the six one-block windows sit at block 0 throughout). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's accesses: every load and store is of a whole buffer -/

abbrev r1_0 : Rect S6400x192 := Rect.unit (s := S6400x192) ![0, 0] S6400x192.size inb_S6400x192_S6400x192_0_0
abbrev r1_1 : Rect S192x128 := Rect.unit (s := S192x128) ![0, 0] S192x128.size inb_S192x128_S192x128_0_0
abbrev r1_2 : Rect S1x128 := Rect.unit (s := S1x128) ![0, 0] S1x128.size inb_S1x128_S1x128_0_0
abbrev r1_7 : Rect S6400x64 := Rect.unit (s := S6400x64) ![0, 0] S6400x64.size inb_S6400x64_S6400x64_0_0

/-! ## What the body leaves in the output buffer -/

/-- The message block after the body: its one store read back. (The body reads the variance row, window 4, before
    the mean row, window 3.) -/
def out1_7 (x0 : Vec F S6400x192 .bf16) (x1 : Vec F S192x128 .bf16) (x2 x3 x4 x5 x6 : Vec F S1x128 .f32) : Vec F S6400x64 .f32 :=
  View.canon [⟨r1_7, k1_pay1
    (k1_pay4 (View.ld x0 r1_0) (View.ld x1 r1_1) (View.ld x2 r1_2) (View.ld x4 r1_2) (View.ld x3 r1_2) (View.ld x5 r1_2) (View.ld x6 r1_2))
    (k1_pay5 (View.ld x0 r1_0) (View.ld x1 r1_1) (View.ld x2 r1_2) (View.ld x4 r1_2) (View.ld x3 r1_2) (View.ld x5 r1_2) (View.ld x6 r1_2))
    (k1_pay7 (View.ld x0 r1_0) (View.ld x1 r1_1) (View.ld x2 r1_2) (View.ld x4 r1_2) (View.ld x3 r1_2) (View.ld x5 r1_2) (View.ld x6 r1_2))
    (k1_pay8 (View.ld x0 r1_0) (View.ld x1 r1_1) (View.ld x2 r1_2) (View.ld x4 r1_2) (View.ld x3 r1_2) (View.ld x5 r1_2) (View.ld x6 r1_2))
    (k1_pay9 (View.ld x0 r1_0) (View.ld x1 r1_1) (View.ld x2 r1_2) (View.ld x4 r1_2) (View.ld x3 r1_2) (View.ld x5 r1_2) (View.ld x6 r1_2))⟩]

/-- One whole-buffer store covers the buffer. -/
theorem cover1_7 (p0 : Vec F S6400x64 .f32) (y : S6400x64.Idx) :
    ∃ pc ∈ ([⟨r1_7, p0⟩] : List (View.Piece (Elt F) S6400x64 .f32)), y ∈ pc.1.set :=
  View.cover_of_tiled [⟨r1_7, p0⟩] S6400x64.size (by rfl) y

/-! ## The body's triple -/

set_option maxHeartbeats 4000000 in
/-- The body on whole staging buffers — the inputs' at known contents, the output's at anything — runs to the end,
    leaves the inputs as they were and the output at its stored piece read back. -/
theorem sound_kernel1 (c : Dev nD) (E : Set ℕ) (i : grid1.Coords) (arg1 : Memref sig .tc .vmem S6400x192 .bf16) (harg1 : arg1.IsWhole) (arg2 : Memref sig .tc .vmem S192x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S6400x64 .f32) (harg8 : arg8.IsWhole)
    (x0 : Vec F S6400x192 .bf16) (x1 : Vec F S192x128 .bf16) (x2 x3 x4 x5 x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__message_kernel i arg1 harg1 arg2 harg2 arg3 harg3 arg4 harg4 arg5 harg5 arg6 harg6 arg7 harg7 arg8 harg8) K := by
  simp only [cc1__message_kernel_eq_skeleton]; unfold cc1__message_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

section
variable (V : (c : Dev nD) → (b : Ref sig .tc) → Buf (Elt F) ((c : Thread nD τ).loc b))

/-! ## The pipeline's proof data -/

/-- The proof data of the message call on core `c`: the arrays as the call finds them; after the body at point `t`
    each input's buffer at its block and the output's at its stored piece over the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Regions

end
-- ==== Proof.BitsRun.lean ====
/-
  The whole run of the program, at any float instance: @main is three stretches of host operations with the two
  kernel calls between them. The contents of every unscoped buffer are named at each of the six boundaries —
  at launch; after the first stretch (which builds the edge matrix z, the joint weight matrix and the joint
  bias, scale and shift rows); after the statistics call (its two output arrays at what its fifty write-backs
  leave); after the second stretch (means and variances); after the message call (its output array at what its
  125 write-backs leave); and after the last stretch (the scatter of the messages onto the atoms and the sum with
  the atom features). Every weakly fair execution terminates, faulting nowhere, with every unscoped buffer at
  the last of these. No stretch writes an argument array and no call has one among its windows' arrays, so each
  argument array ends as launched.
-/
import proofs.«117771_j63462436766119_2_alg».proof.Proof.BitsStats
import proofs.«117771_j63462436766119_2_alg».proof.Proof.BitsMessage
import proofs.«117771_j63462436766119_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations (where the statistics call is entered). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the statistics call: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (where the message call is entered). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the message call: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last stretch: the end of @main. -/
abbrev W5 : Dev nD → Valuation τ sig (Elt F) := fun c => StableHlo.after hostOps2 (W4 m ρ c)

/-- A buffer that no stretch writes and that is no window's array of either call ends as launched. -/
theorem W5_untouched (c : Dev nD) (r : Ref sig .tc) (h0 : r ∉ hostOps0_W) (h1 : r ∉ hostOps1_W) (h2 : r ∉ hostOps2_W)
    (ha0 : ∀ w, Pipeline.arrRef spec0 w ≠ r) (ha1 : ∀ w, Pipeline.arrRef spec1 w ≠ r) :
    W5 m ρ c (Proc.devRef .tc r) = m ((c : Thread nD τ).loc r) :=
  calc W5 m ρ c (Proc.devRef .tc r)
    _ = W4 m ρ c (Proc.devRef .tc r) := StableHlo.after_of_writes_sub hostOps2 _ hostOps2_writes h2
    _ = W3 m ρ c (Proc.devRef .tc r) := W4_of_ne m ρ c r ha1
    _ = W2 m ρ c (Proc.devRef .tc r) := StableHlo.after_of_writes_sub hostOps1 _ hostOps1_writes h1
    _ = W1 m ρ c (Proc.devRef .tc r) := W2_of_ne m ρ c r ha0
    _ = W0 m ρ c (Proc.devRef .tc r) := StableHlo.after_of_writes_sub hostOps0 _ hostOps0_writes h0
    _ = m ((c : Thread nD τ).loc r) := rfl

theorem W5_main_arg0 (c : Dev nD) : W5 m ρ c (Proc.devRef .tc main_arg0) = m ((c : Thread nD τ).loc main_arg0) :=
  W5_untouched m ρ c main_arg0 (by decide) (by decide) (by decide) (by decide) (by decide)
theorem W5_main_arg1 (c : Dev nD) : W5 m ρ c (Proc.devRef .tc main_arg1) = m ((c : Thread nD τ).loc main_arg1) :=
  W5_untouched m ρ c main_arg1 (by decide) (by decide) (by decide) (by decide) (by decide)
theorem W5_main_arg2 (c : Dev nD) : W5 m ρ c (Proc.devRef .tc main_arg2) = m ((c : Thread nD τ).loc main_arg2) :=
  W5_untouched m ρ c main_arg2 (by decide) (by decide) (by decide) (by decide) (by decide)
theorem W5_main_arg3 (c : Dev nD) : W5 m ρ c (Proc.devRef .tc main_arg3) = m ((c : Thread nD τ).loc main_arg3) :=
  W5_untouched m ρ c main_arg3 (by decide) (by decide) (by decide) (by decide) (by decide)
theorem W5_main_arg4 (c : Dev nD) : W5 m ρ c (Proc.devRef .tc main_arg4) = m ((c : Thread nD τ).loc main_arg4) :=
  W5_untouched m ρ c main_arg4 (by decide) (by decide) (by decide) (by decide) (by decide)
theorem W5_main_arg5 (c : Dev nD) : W5 m ρ c (Proc.devRef .tc main_arg5) = m ((c : Thread nD τ).loc main_arg5) :=
  W5_untouched m ρ c main_arg5 (by decide) (by decide) (by decide) (by decide) (by decide)
theorem W5_main_arg6 (c : Dev nD) : W5 m ρ c (Proc.devRef .tc main_arg6) = m ((c : Thread nD τ).loc main_arg6) :=
  W5_untouched m ρ c main_arg6 (by decide) (by decide) (by decide) (by decide) (by decide)
theorem W5_main_arg7 (c : Dev nD) : W5 m ρ c (Proc.devRef .tc main_arg7) = m ((c : Thread nD τ).loc main_arg7) :=
  W5_untouched m ρ c main_arg7 (by decide) (by decide) (by decide) (by decide) (by decide)
theorem W5_main_arg8 (c : Dev nD) : W5 m ρ c (Proc.devRef .tc main_arg8) = m ((c : Thread nD τ).loc main_arg8) :=
  W5_untouched m ρ c main_arg8 (by decide) (by decide) (by decide) (by decide) (by decide)
theorem W5_main_arg9 (c : Dev nD) : W5 m ρ c (Proc.devRef .tc main_arg9) = m ((c : Thread nD τ).loc main_arg9) :=
  W5_untouched m ρ c main_arg9 (by decide) (by decide) (by decide) (by decide) (by decide)
theorem W5_main_arg10 (c : Dev nD) : W5 m ρ c (Proc.devRef .tc main_arg10) = m ((c : Thread nD τ).loc main_arg10) :=
  W5_untouched m ρ c main_arg10 (by decide) (by decide) (by decide) (by decide) (by decide)

/-! ## The proof data family and the thread state -/

/-- No pipeline has a prefetched table. -/
abbrev adm : (p : Fin 2) → (pcfgs (F := F) p).Adm := fun p => (cfgs p).toPCfg_adm
/-- Each pipeline's proof data at the contents its call is entered from. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core's dues, at
    nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the end's contents, the generator register at some
    state. -/
abbrev Tₙ (c : Dev nD) : sProp 𝕄 := iprop(StableHlo.held (c : Thread nD τ) (Pipeline.ucRefs τ sig) (W5 m ρ c) ∗ ∃ r, prngReg c r)

/-! ## The two kernel calls as segments -/

-- a library lemma stated over the pinned configuration unifies with the printed one only when unification may unfold
-- plain definitions in a metavariable's type
set_option backward.isDefEq.respectTransparency.types false in
/-- Kernel call 0 as a segment: entered from every unscoped buffer at `W1`, left at `W2`. Its arrays are split
    out of the unscoped buffers and put back at what the pipeline leaves; the generator register goes into the
    pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Kernel call 1 as a segment: entered from every unscoped buffer at `W3`, left at `W4`. Its arrays are split
    out of the unscoped buffers and put back at what the pipeline leaves; the generator register goes into the
    pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main is the run of these segments. -/
theorem main_run (c : Dev nD) : main (F := F) c = Pipeline.Seg.run (segs m ρ) := (main_chain c).trans (by chain_rfl)

set_option backward.isDefEq.respectTransparency.types false in
/-- THE RUN. From any memory with zero counters, every weakly fair execution of @main terminates, nothing faulting, and
    in every final state every unscoped buffer holds the end's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c)⟩) (run_all m ρ)

end Cert.Kernel.Regions

end
-- ==== Proof.IdealStats.lean ====
/-
  The statistics call (the first of the program's two kernel calls), at any float instance: what one grid point
  of it does to its five staging buffers, and the proof data of its pipeline, both stated over the
  contents `V` the unscoped buffers hold when the call is entered.

  A grid point t (of 50) sees rows 16000·t … 16000·t+15999 of the edge matrix z (window 0), the whole
  weight matrix (window 1) and the whole bias row (window 2); it leaves in its two one-row output blocks
  (windows 3 and 4) the column sums of z·W + b over those rows and the column sums of its squares. The
  body loads its three inputs whole, and stores each output whole, once; so each output buffer after the
  body is one stored piece read back, a function of the three input blocks alone.
-/
import proofs.«117771_j63462436766119_2_alg».proof.Proof.Gen.KernelIdeal.Launch
import proofs.«117771_j63462436766119_2_alg».proof.Proof.Gen.KernelIdeal.Skeleton
import proofs.«117771_j63462436766119_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: a block that is
    not fetched again has not moved (the weight and bias windows sit at block 0 throughout). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's accesses: every load and store is of a whole buffer -/

abbrev r0_0 : Rect S16000x192 := Rect.unit (s := S16000x192) ![0, 0] S16000x192.size inb_S16000x192_S16000x192_0_0
abbrev r0_1 : Rect S192x128 := Rect.unit (s := S192x128) ![0, 0] S192x128.size inb_S192x128_S192x128_0_0
abbrev r0_2 : Rect S1x128 := Rect.unit (s := S1x128) ![0, 0] S1x128.size inb_S1x128_S1x128_0_0
abbrev r0_3 : Rect S1x1x128 := Rect.unit (s := S1x1x128) ![0, 0, 0] S1x1x128.size inb_S1x1x128_S1x1x128_0_0_0

/-! ## What the body leaves in each output buffer -/

/-- The column sums' buffer after the body: its one store read back. -/
def out0_3 (x0 : Vec F S16000x192 .bf16) (x1 : Vec F S192x128 .bf16) (x2 : Vec F S1x128 .f32) : Vec F S1x1x128 .f32 :=
  View.canon [⟨r0_3, k0_pay2 (View.ld x0 r0_0) (View.ld x1 r0_1) (View.ld x2 r0_2)⟩]
/-- The buffer of the column sums of squares after the body: its one store read back. -/
def out0_4 (x0 : Vec F S16000x192 .bf16) (x1 : Vec F S192x128 .bf16) (x2 : Vec F S1x128 .f32) : Vec F S1x1x128 .f32 :=
  View.canon [⟨r0_3, k0_pay3 (View.ld x0 r0_0) (View.ld x1 r0_1) (View.ld x2 r0_2)⟩]

/-- One whole-buffer store covers the buffer. -/
theorem cover0_3 (p0 : Vec F S1x1x128 .f32) (y : S1x1x128.Idx) :
    ∃ pc ∈ ([⟨r0_3, p0⟩] : List (View.Piece (Elt F) S1x1x128 .f32)), y ∈ pc.1.set :=
  View.cover_of_tiled [⟨r0_3, p0⟩] S1x1x128.size (by rfl) y

/-! ## The body's triple -/

set_option maxHeartbeats 4000000 in
/-- The body on whole staging buffers — the inputs' at known contents, the outputs' at anything — runs to the end,
    leaves the inputs as they were and each output at its stored piece read back. -/
theorem sound_kernel0 (c : Dev nD) (E : Set ℕ) (i : grid0.Coords) (arg1 : Memref sig .tc .vmem S16000x192 .bf16) (harg1 : arg1.IsWhole) (arg2 : Memref sig .tc .vmem S192x128 .bf16) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole)
    (x0 : Vec F S16000x192 .bf16) (x1 : Vec F S192x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__stats_kernel i arg1 harg1 arg2 harg2 arg3 harg3 arg4 harg4 arg5 harg5) K := by
  simp only [cc0__stats_kernel_eq_skeleton]; unfold cc0__stats_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_3 _)

section
variable (V : (c : Dev nD) → (b : Ref sig .tc) → Buf (Elt F) ((c : Thread nD τ).loc b))

/-! ## The pipeline's proof data -/

/-- The proof data of the statistics call on core `c`: the arrays as the call finds them; after the body at point
    `t` each input's buffer at its block and each output's at its stored piece over the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Regions

end
-- ==== Proof.IdealMessage.lean ====
/-
  The message call (the second of the program's two kernel calls), at any float instance: what one grid point of
  it does to its eight staging buffers, and the proof data of its pipeline, both stated over the contents `V` the
  unscoped buffers hold when the call is entered.

  A grid point t (of 125) sees rows 6400·t … 6400·t+6399 of the edge matrix z (window 0) and, whole, the weight
  matrix (window 1) and five rows of 128 numbers: the bias (2), the column means (3), the column variances (4),
  the scale (5) and the shift (6). It leaves in its output block (window 7), for each of its 6400 rows, the 64
  gated messages: the logistic of the normalised columns 64…127 times the softplus of the normalised columns
  0…63. The body loads its seven inputs whole and stores the output whole, once; so the output buffer after the
  body is one stored piece read back, a function of the seven input blocks alone.
-/
import proofs.«117771_j63462436766119_2_alg».proof.Proof.Gen.KernelIdeal.Launch
import proofs.«117771_j63462436766119_2_alg».proof.Proof.Gen.KernelIdeal.Skeleton
import proofs.«117771_j63462436766119_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: a block that is
    not fetched again has not moved (the six one-block windows sit at block 0 throughout). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's accesses: every load and store is of a whole buffer -/

abbrev r1_0 : Rect S6400x192 := Rect.unit (s := S6400x192) ![0, 0] S6400x192.size inb_S6400x192_S6400x192_0_0
abbrev r1_1 : Rect S192x128 := Rect.unit (s := S192x128) ![0, 0] S192x128.size inb_S192x128_S192x128_0_0
abbrev r1_2 : Rect S1x128 := Rect.unit (s := S1x128) ![0, 0] S1x128.size inb_S1x128_S1x128_0_0
abbrev r1_7 : Rect S6400x64 := Rect.unit (s := S6400x64) ![0, 0] S6400x64.size inb_S6400x64_S6400x64_0_0

/-! ## What the body leaves in the output buffer -/

/-- The message block after the body: its one store read back. (The body reads the variance row, window 4, before
    the mean row, window 3.) -/
def out1_7 (x0 : Vec F S6400x192 .bf16) (x1 : Vec F S192x128 .bf16) (x2 x3 x4 x5 x6 : Vec F S1x128 .f32) : Vec F S6400x64 .f32 :=
  View.canon [⟨r1_7, k1_pay1
    (k1_pay4 (View.ld x0 r1_0) (View.ld x1 r1_1) (View.ld x2 r1_2) (View.ld x4 r1_2) (View.ld x3 r1_2) (View.ld x5 r1_2) (View.ld x6 r1_2))
    (k1_pay5 (View.ld x0 r1_0) (View.ld x1 r1_1) (View.ld x2 r1_2) (View.ld x4 r1_2) (View.ld x3 r1_2) (View.ld x5 r1_2) (View.ld x6 r1_2))
    (k1_pay7 (View.ld x0 r1_0) (View.ld x1 r1_1) (View.ld x2 r1_2) (View.ld x4 r1_2) (View.ld x3 r1_2) (View.ld x5 r1_2) (View.ld x6 r1_2))
    (k1_pay8 (View.ld x0 r1_0) (View.ld x1 r1_1) (View.ld x2 r1_2) (View.ld x4 r1_2) (View.ld x3 r1_2) (View.ld x5 r1_2) (View.ld x6 r1_2))
    (k1_pay9 (View.ld x0 r1_0) (View.ld x1 r1_1) (View.ld x2 r1_2) (View.ld x4 r1_2) (View.ld x3 r1_2) (View.ld x5 r1_2) (View.ld x6 r1_2))⟩]

/-- One whole-buffer store covers the buffer. -/
theorem cover1_7 (p0 : Vec F S6400x64 .f32) (y : S6400x64.Idx) :
    ∃ pc ∈ ([⟨r1_7, p0⟩] : List (View.Piece (Elt F) S6400x64 .f32)), y ∈ pc.1.set :=
  View.cover_of_tiled [⟨r1_7, p0⟩] S6400x64.size (by rfl) y

/-! ## The body's triple -/

set_option maxHeartbeats 4000000 in
/-- The body on whole staging buffers — the inputs' at known contents, the output's at anything — runs to the end,
    leaves the inputs as they were and the output at its stored piece read back. -/
theorem sound_kernel1 (c : Dev nD) (E : Set ℕ) (i : grid1.Coords) (arg1 : Memref sig .tc .vmem S6400x192 .bf16) (harg1 : arg1.IsWhole) (arg2 : Memref sig .tc .vmem S192x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S6400x64 .f32) (harg8 : arg8.IsWhole)
    (x0 : Vec F S6400x192 .bf16) (x1 : Vec F S192x128 .bf16) (x2 x3 x4 x5 x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__message_kernel i arg1 harg1 arg2 harg2 arg3 harg3 arg4 harg4 arg5 harg5 arg6 harg6 arg7 harg7 arg8 harg8) K := by
  simp only [cc1__message_kernel_eq_skeleton]; unfold cc1__message_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

section
variable (V : (c : Dev nD) → (b : Ref sig .tc) → Buf (Elt F) ((c : Thread nD τ).loc b))

/-! ## The pipeline's proof data -/

/-- The proof data of the message call on core `c`: the arrays as the call finds them; after the body at point `t`
    each input's buffer at its block and the output's at its stored piece over the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Regions

end
-- ==== Proof.IdealRun.lean ====
/-
  The whole run of the program, at any float instance: @main is three stretches of host operations with the two
  kernel calls between them. The contents of every unscoped buffer are named at each of the six boundaries —
  at launch; after the first stretch (which builds the edge matrix z, the joint weight matrix and the joint
  bias, scale and shift rows); after the statistics call (its two output arrays at what its fifty write-backs
  leave); after the second stretch (means and variances); after the message call (its output array at what its
  125 write-backs leave); and after the last stretch (the scatter of the messages onto the atoms and the sum with
  the atom features). Every weakly fair execution terminates, faulting nowhere, with every unscoped buffer at
  the last of these. No stretch writes an argument array and no call has one among its windows' arrays, so each
  argument array ends as launched.
-/
import proofs.«117771_j63462436766119_2_alg».proof.Proof.IdealStats
import proofs.«117771_j63462436766119_2_alg».proof.Proof.IdealMessage
import proofs.«117771_j63462436766119_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations (where the statistics call is entered). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the statistics call: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (where the message call is entered). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the message call: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last stretch: the end of @main. -/
abbrev W5 : Dev nD → Valuation τ sig (Elt F) := fun c => StableHlo.after hostOps2 (W4 m ρ c)

/-- A buffer that no stretch writes and that is no window's array of either call ends as launched. -/
theorem W5_untouched (c : Dev nD) (r : Ref sig .tc) (h0 : r ∉ hostOps0_W) (h1 : r ∉ hostOps1_W) (h2 : r ∉ hostOps2_W)
    (ha0 : ∀ w, Pipeline.arrRef spec0 w ≠ r) (ha1 : ∀ w, Pipeline.arrRef spec1 w ≠ r) :
    W5 m ρ c (Proc.devRef .tc r) = m ((c : Thread nD τ).loc r) :=
  calc W5 m ρ c (Proc.devRef .tc r)
    _ = W4 m ρ c (Proc.devRef .tc r) := StableHlo.after_of_writes_sub hostOps2 _ hostOps2_writes h2
    _ = W3 m ρ c (Proc.devRef .tc r) := W4_of_ne m ρ c r ha1
    _ = W2 m ρ c (Proc.devRef .tc r) := StableHlo.after_of_writes_sub hostOps1 _ hostOps1_writes h1
    _ = W1 m ρ c (Proc.devRef .tc r) := W2_of_ne m ρ c r ha0
    _ = W0 m ρ c (Proc.devRef .tc r) := StableHlo.after_of_writes_sub hostOps0 _ hostOps0_writes h0
    _ = m ((c : Thread nD τ).loc r) := rfl

theorem W5_main_arg0 (c : Dev nD) : W5 m ρ c (Proc.devRef .tc main_arg0) = m ((c : Thread nD τ).loc main_arg0) :=
  W5_untouched m ρ c main_arg0 (by decide) (by decide) (by decide) (by decide) (by decide)
theorem W5_main_arg1 (c : Dev nD) : W5 m ρ c (Proc.devRef .tc main_arg1) = m ((c : Thread nD τ).loc main_arg1) :=
  W5_untouched m ρ c main_arg1 (by decide) (by decide) (by decide) (by decide) (by decide)
theorem W5_main_arg2 (c : Dev nD) : W5 m ρ c (Proc.devRef .tc main_arg2) = m ((c : Thread nD τ).loc main_arg2) :=
  W5_untouched m ρ c main_arg2 (by decide) (by decide) (by decide) (by decide) (by decide)
theorem W5_main_arg3 (c : Dev nD) : W5 m ρ c (Proc.devRef .tc main_arg3) = m ((c : Thread nD τ).loc main_arg3) :=
  W5_untouched m ρ c main_arg3 (by decide) (by decide) (by decide) (by decide) (by decide)
theorem W5_main_arg4 (c : Dev nD) : W5 m ρ c (Proc.devRef .tc main_arg4) = m ((c : Thread nD τ).loc main_arg4) :=
  W5_untouched m ρ c main_arg4 (by decide) (by decide) (by decide) (by decide) (by decide)
theorem W5_main_arg5 (c : Dev nD) : W5 m ρ c (Proc.devRef .tc main_arg5) = m ((c : Thread nD τ).loc main_arg5) :=
  W5_untouched m ρ c main_arg5 (by decide) (by decide) (by decide) (by decide) (by decide)
theorem W5_main_arg6 (c : Dev nD) : W5 m ρ c (Proc.devRef .tc main_arg6) = m ((c : Thread nD τ).loc main_arg6) :=
  W5_untouched m ρ c main_arg6 (by decide) (by decide) (by decide) (by decide) (by decide)
theorem W5_main_arg7 (c : Dev nD) : W5 m ρ c (Proc.devRef .tc main_arg7) = m ((c : Thread nD τ).loc main_arg7) :=
  W5_untouched m ρ c main_arg7 (by decide) (by decide) (by decide) (by decide) (by decide)
theorem W5_main_arg8 (c : Dev nD) : W5 m ρ c (Proc.devRef .tc main_arg8) = m ((c : Thread nD τ).loc main_arg8) :=
  W5_untouched m ρ c main_arg8 (by decide) (by decide) (by decide) (by decide) (by decide)
theorem W5_main_arg9 (c : Dev nD) : W5 m ρ c (Proc.devRef .tc main_arg9) = m ((c : Thread nD τ).loc main_arg9) :=
  W5_untouched m ρ c main_arg9 (by decide) (by decide) (by decide) (by decide) (by decide)
theorem W5_main_arg10 (c : Dev nD) : W5 m ρ c (Proc.devRef .tc main_arg10) = m ((c : Thread nD τ).loc main_arg10) :=
  W5_untouched m ρ c main_arg10 (by decide) (by decide) (by decide) (by decide) (by decide)

/-! ## The proof data family and the thread state -/

/-- No pipeline has a prefetched table. -/
abbrev adm : (p : Fin 2) → (pcfgs (F := F) p).Adm := fun p => (cfgs p).toPCfg_adm
/-- Each pipeline's proof data at the contents its call is entered from. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core's dues, at
    nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the end's contents, the generator register at some
    state. -/
abbrev Tₙ (c : Dev nD) : sProp 𝕄 := iprop(StableHlo.held (c : Thread nD τ) (Pipeline.ucRefs τ sig) (W5 m ρ c) ∗ ∃ r, prngReg c r)

/-! ## The two kernel calls as segments -/

-- a library lemma stated over the pinned configuration unifies with the printed one only when unification may unfold
-- plain definitions in a metavariable's type
set_option backward.isDefEq.respectTransparency.types false in
/-- Kernel call 0 as a segment: entered from every unscoped buffer at `W1`, left at `W2`. Its arrays are split
    out of the unscoped buffers and put back at what the pipeline leaves; the generator register goes into the
    pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Kernel call 1 as a segment: entered from every unscoped buffer at `W3`, left at `W4`. Its arrays are split
    out of the unscoped buffers and put back at what the pipeline leaves; the generator register goes into the
    pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main is the run of these segments. -/
theorem main_run (c : Dev nD) : main (F := F) c = Pipeline.Seg.run (segs m ρ) := (main_chain c).trans (by chain_rfl)

set_option backward.isDefEq.respectTransparency.types false in
/-- THE RUN. From any memory with zero counters, every weakly fair execution of @main terminates, nothing faulting, and
    in every final state every unscoped buffer holds the end's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c)⟩) (run_all m ρ)

end Cert.KernelIdeal.Regions

end
-- ==== Proof.LibNary.lean ====
import Idealize.ShloMosaic.Lib.StableHlo.Run

noncomputable section

namespace Cert.LibNary

open Idealize.ShloMosaic Idealize.ShloMosaic.StableHlo

variable {τ : Topo} {sig : RefSig} {Val : EltTy → Type} {x a b c e y : Ref sig .tc}

/-- A host operation over a LITERAL family of three operand references (a concatenation of three arrays), at its own
    result reference: its function of each operand's contents at that operand's own reference, so that reading the
    contents after a list of host operations can go on into the operands. (The library states the same for four.) -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same for five operand references. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

/-- The two literal forms with the result reference un-indexed, for a one-pass `simp` (as the library restates its own). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F

/-- The contents after two lists of host operations run one after the other. -/
theorem after_append {Val' : EltTy → Type} {τ' : Topo} {sig' : RefSig} (l1 l2 : List (HloOp τ' sig' Val')) (V : Valuation τ' sig' Val') :
    after (l1 ++ l2) V = after l2 (after l1 V) := by
  induction l1 generalizing V with
  | nil => rfl
  | cons op ops ih => simp only [List.cons_append, after_cons, ih]

end Cert.LibNary

/-- Reads the contents of one reference after a literal list of host operations, as the library's `after_results` does, with
    the literal three- and five-operand forms tried before the general one. -/
macro "after_results_lit" : tactic =>
  `(tactic| (simp only [Idealize.ShloMosaic.StableHlo.after_cons, Idealize.ShloMosaic.StableHlo.after_nil]
             repeat (first
               | rw [Idealize.ShloMosaic.StableHlo.nullary_result] | rw [Idealize.ShloMosaic.StableHlo.unary_result]
               | rw [Idealize.ShloMosaic.StableHlo.binary_result] | rw [Idealize.ShloMosaic.StableHlo.ternary_result]
               | rw [Idealize.ShloMosaic.StableHlo.quaternary_result]
               | rw [Idealize.ShloMosaic.StableHlo.reshape_result] | rw [Idealize.ShloMosaic.StableHlo.binaryIndexed_result]
               | rw [Cert.LibNary.nary3_result] | rw [Idealize.ShloMosaic.StableHlo.nary4_result] | rw [Cert.LibNary.nary5_result]
               | rw [Idealize.ShloMosaic.StableHlo.nary_result] | rw [Idealize.ShloMosaic.StableHlo.unaryIndexed_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.ternary_result_ne]; rotate_left; decide)
               | (rw [Idealize.ShloMosaic.StableHlo.quaternary_result_ne]; rotate_left; decide)
               | (rw [Idealize.ShloMosaic.StableHlo.reshape_result_ne]; rotate_left; decide)
               | (rw [Idealize.ShloMosaic.StableHlo.binaryIndexed_result_ne]; rotate_left; decide)
               | (rw [Idealize.ShloMosaic.StableHlo.nary_result_ne]; rotate_left; decide)
               | (rw [Idealize.ShloMosaic.StableHlo.unaryIndexed_result_ne]; rotate_left; decide))))

/-- The same reading as ONE `simp` pass (each shared operand visited once), with the literal three-, four- and five-operand forms. -/
macro "after_results_simp_lit" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.LibNary.nary3_result', Idealize.ShloMosaic.StableHlo.nary4_result', Cert.LibNary.nary5_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

end
-- ==== Proof.Spec.lean ====
/-
  The two programs' message arrays as plain functions on the extended reals, over abstract arrays: an edge matrix
  z (800000 rows of 192 numbers), and per output column a weight column, a bias, a scale and a shift.

  The kernel works on 128 joint columns (the 64 "core" columns, then the 64 "filter" columns), takes each column's
  sum and sum of squares of z·W + b block by block (50 blocks of 16000 rows), and reads the variance off them as
  max(E[x²] − E[x]², 0). The reference works on the two groups of 64 columns apart, and takes the variance as the
  mean of (x − E[x])². The message of edge e at column j is, on both sides,
      logistic(filter column j, normalised) · softplus(core column j, normalised),
  where normalised means ((x − mean) · (var + ε)^(-1/2)) · scale + shift, and softplus x = max(x,0) + log(1 + e^(−|x|)).
-/
import Idealize.ShloMosaic.PureOps.Ideal

noncomputable section

namespace Cert.Spec

open Idealize.ShloMosaic
open scoped BigOperators

/-- The edge count 800000 as both programs spell it (one float word). -/
def nEdges : EReal := Ideal.ofBits .f32 0x49435000#32
/-- The batch-norm epsilon as both programs spell it (one float word, the float nearest 10⁻⁵). -/
def bnEps : EReal := Ideal.ofBits .f32 0x3727C5AC#32

/-- Softplus in the stable form both programs compute: max(x, 0) + log(1 + e^(−|x|)), |x| = max(x, −x). -/
def softplus (x : EReal) : EReal := max x 0 + Ideal.log1p (Ideal.exp (-(max x (-x))))

/-- Joint column j (< 64) of the core group, and of the filter group. -/
def lo (j : Fin 64) : Fin 128 := ⟨j.val, by omega⟩
def hi (j : Fin 64) : Fin 128 := ⟨64 + j.val, by omega⟩
/-- Row r of block t of the 50 blocks of 16000 rows. -/
def rowOf (t : Fin 50) (r : Fin 16000) : Fin 800000 := ⟨t.val * 16000 + r.val, by omega⟩

section Kernel
variable (Z : Fin 800000 → Fin 192 → EReal) (W : Fin 192 → Fin 128 → EReal) (B G H : Fin 128 → EReal)

/-- The linear layer: row e of z times column q of the weights, plus the bias. -/
def lin (e : Fin 800000) (q : Fin 128) : EReal := (∑ k : Fin 192, Z e k * W k q) + B q
/-- One block's column sum, and its column sum of squares. -/
def partSum (t : Fin 50) (q : Fin 128) : EReal := ∑ r : Fin 16000, lin Z W B (rowOf t r) q
def partSq (t : Fin 50) (q : Fin 128) : EReal := ∑ r : Fin 16000, lin Z W B (rowOf t r) q * lin Z W B (rowOf t r) q
/-- The kernel's column mean and variance: the blocks' partial sums added from zero, divided by the edge count. -/
def meanK (q : Fin 128) : EReal := Ideal.div (0 + ∑ t : Fin 50, partSum Z W B t q) nEdges
def varK (q : Fin 128) : EReal :=
  max (Ideal.div (0 + ∑ t : Fin 50, partSq Z W B t q) nEdges - meanK Z W B q * meanK Z W B q) 0
def normK (e : Fin 800000) (q : Fin 128) : EReal :=
  (lin Z W B e q - meanK Z W B q) * Ideal.rsqrt (varK Z W B q + bnEps) * G q + H q
/-- The kernel's message. -/
def msgK (e : Fin 800000) (j : Fin 64) : EReal :=
  Ideal.logistic (normK Z W B G H e (hi j)) * softplus (normK Z W B G H e (lo j))
end Kernel

section Reference
variable (Z : Fin 800000 → Fin 192 → EReal) (Wl : Fin 192 → Fin 64 → EReal) (bl gl hl : Fin 64 → EReal)

/-- One group's linear layer. -/
def linR (e : Fin 800000) (j : Fin 64) : EReal := (∑ k : Fin 192, Z e k * Wl k j) + bl j
/-- The reference's column mean, and its variance as the mean squared deviation. -/
def meanR (j : Fin 64) : EReal := Ideal.div (0 + ∑ e : Fin 800000, linR Z Wl bl e j) nEdges
def varR (j : Fin 64) : EReal :=
  Ideal.div (0 + ∑ e : Fin 800000, (linR Z Wl bl e j - meanR Z Wl bl j) * (linR Z Wl bl e j - meanR Z Wl bl j)) nEdges
def normR (e : Fin 800000) (j : Fin 64) : EReal :=
  (linR Z Wl bl e j - meanR Z Wl bl j) * Ideal.rsqrt (varR Z Wl bl j + bnEps) * gl j + hl j
end Reference

/-- The reference's message: the core group through softplus, the filter group through 1 / (1 + e^(−x)). -/
def msgR (Z : Fin 800000 → Fin 192 → EReal) (Wc : Fin 192 → Fin 64 → EReal) (bc gc hc : Fin 64 → EReal)
    (Wf : Fin 192 → Fin 64 → EReal) (bf gf hf : Fin 64 → EReal) (e : Fin 800000) (j : Fin 64) : EReal :=
  Ideal.div 1 (1 + Ideal.exp (-(normR Z Wf bf gf hf e j))) * softplus (normR Z Wc bc gc hc e j)

end Cert.Spec

end
-- ==== Proof.LibConcatCols.lean ====
/-
  Two matrices with the same number of rows laid side by side along the columns, read at an index.

  The concatenation of an R x A array and an R x B array along axis 1 is an R x C array with C = A + B. Entry (r, k)
  is the first array's entry (r, k) when k < A and the second's entry (r, k - A) otherwise. This is what
  jnp.concatenate([x, y], axis=-1) holds, for any element type, on a block of rows as on the whole arrays; two such
  rows agree entry by entry when their halves do.
-/
import Idealize.ShloMosaic.Lib.Pipeline.Value
import Idealize.ShloMosaic.Lib.ValueIdx

namespace Idealize.ShloMosaic.ConcatCols

open Idealize.ShloMosaic Idealize.ShloMosaic.ValueIdx

variable {α : Type} {R R' A B C : Nat}

/-- Entry k of row r of an R x A array and an R x B array laid side by side. -/
def catRow (hC : C = A + B) (x : (⟨2, ![R, A]⟩ : Shape).Idx → α) (y : (⟨2, ![R, B]⟩ : Shape).Idx → α)
    (r : Fin R) (k : Fin C) : α :=
  if h : k.val < A then x (ix2 r ⟨k.val, h⟩) else y (ix2 r ⟨k.val - A, by have := k.isLt; omega⟩)

/-- The concatenation along axis 1, read at (r, k). -/
theorem concat_cols_apply (hC : C = A + B) (x : (⟨2, ![R, A]⟩ : Shape).Idx → α) (y : (⟨2, ![R, B]⟩ : Shape).Idx → α)
    (h : Shape.Concatenates [(⟨2, ![R, A]⟩ : Shape), (⟨2, ![R, B]⟩ : Shape)] (⟨2, ![R, C]⟩ : Shape) 1)
    (r : Fin R) (k : Fin C) :
    concatenate (⟨2, ![R, C]⟩ : Shape) 1 [⟨(⟨2, ![R, A]⟩ : Shape), x⟩, ⟨(⟨2, ![R, B]⟩ : Shape), y⟩] h (ix2 r k)
      = catRow hC x y r k := by
  unfold catRow
  split
  · rename_i hk
    exact concatenate_pair_apply_left (1 : Fin 2) x y h (ix2 r k) rfl (ix2 r ⟨k.val, hk⟩)
      (fun b => match b with | ⟨0, _⟩ => rfl | ⟨1, _⟩ => rfl)
  · rename_i hk
    exact concatenate_pair_apply_right (1 : Fin 2) x y h (ix2 r k) rfl rfl (ix2 r ⟨k.val - A, by have := k.isLt; omega⟩)
      (fun b hb => match b, hb with
        | ⟨0, _⟩, _ => rfl
        | ⟨1, _⟩, hb => absurd rfl hb)
      (by show (k.val - A) + A = k.val; omega)

/-- Two side-by-side rows agree at every entry when their left halves agree and their right halves agree. -/
theorem catRow_congr (hC : C = A + B)
    {x : (⟨2, ![R, A]⟩ : Shape).Idx → α} {y : (⟨2, ![R, B]⟩ : Shape).Idx → α}
    {x' : (⟨2, ![R', A]⟩ : Shape).Idx → α} {y' : (⟨2, ![R', B]⟩ : Shape).Idx → α} {r : Fin R} {r' : Fin R'}
    (hx : ∀ k : Fin A, x (ix2 r k) = x' (ix2 r' k)) (hy : ∀ k : Fin B, y (ix2 r k) = y' (ix2 r' k)) (k : Fin C) :
    catRow hC x y r k = catRow hC x' y' r' k := by
  unfold catRow
  split
  · exact hx _
  · exact hy _

end Idealize.ShloMosaic.ConcatCols
-- ==== Proof.LibHostBroadcast.lean ====
/-
  The host's broadcast_in_dim in the few forms a dense layer uses, read at an index.

  A scalar spread over any shape; a length-b vector made a 1 by b row and the row repeated down a rows (a bias); a
  length-a vector made an a by 1 column and the column repeated across b columns (a per-row quantity kept as a column).
-/
import Idealize.ShloMosaic.Lib.Pipeline.Value
import Idealize.ShloMosaic.Lib.ValueIdx

namespace Idealize.ShloMosaic.HostBroadcast

open Idealize.ShloMosaic Idealize.ShloMosaic.ValueIdx Idealize.ShloMosaic.Pipeline

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A length-b vector as a 1 by b row. -/
theorem vec_row_apply {b : ℕ} (h : (⟨1, ![b]⟩ : Shape).BroadcastsInDim ⟨2, ![1, b]⟩ ![1])
    (x : (⟨1, ![b]⟩ : Shape).Idx → α) (j : (⟨2, ![1, b]⟩ : Shape).Idx) :
    broadcastInDim ⟨2, ![1, b]⟩ ![1] h x j = x (ix1 (j 1)) :=
  broadcastInDim_apply _ h x j (ix1 (j 1)) (fun a => match a with
    | ⟨0, _⟩ => by
      show (j 1).val = if b = 1 then 0 else (j 1).val
      split
      · have := (j 1).isLt; simp at this; omega
      · rfl)

/-- A 1 by b row repeated down a rows. -/
theorem row_rows_apply {a b : ℕ} (h : (⟨2, ![1, b]⟩ : Shape).BroadcastsInDim ⟨2, ![a, b]⟩ ![0, 1])
    (x : (⟨2, ![1, b]⟩ : Shape).Idx → α) (j : (⟨2, ![a, b]⟩ : Shape).Idx) :
    broadcastInDim ⟨2, ![a, b]⟩ ![0, 1] h x j = x (ix2 (0 : Fin 1) (j 1)) :=
  broadcastInDim_apply _ h x j (ix2 (0 : Fin 1) (j 1)) (fun ax => match ax with
    | ⟨0, _⟩ => by
      show 0 = if (1 : ℕ) = 1 then 0 else (j 0).val
      rw [if_pos rfl]
    | ⟨1, _⟩ => by
      show (j 1).val = if b = 1 then 0 else (j 1).val
      split
      · have := (j 1).isLt; simp at this; omega
      · rfl)

/-- A bias: the vector at the column, whatever the row. -/
theorem bias_apply {a b : ℕ} (h1 : (⟨1, ![b]⟩ : Shape).BroadcastsInDim ⟨2, ![1, b]⟩ ![1])
    (h2 : (⟨2, ![1, b]⟩ : Shape).BroadcastsInDim ⟨2, ![a, b]⟩ ![0, 1])
    (x : (⟨1, ![b]⟩ : Shape).Idx → α) (j : (⟨2, ![a, b]⟩ : Shape).Idx) :
    broadcastInDim ⟨2, ![a, b]⟩ ![0, 1] h2 (broadcastInDim ⟨2, ![1, b]⟩ ![1] h1 x) j = x (ix1 (j 1)) :=
  (row_rows_apply h2 _ j).trans (vec_row_apply h1 x _)

/-- A length-a vector as an a by 1 column. -/
theorem vec_col_apply {a : ℕ} (h : (⟨1, ![a]⟩ : Shape).BroadcastsInDim ⟨2, ![a, 1]⟩ ![0])
    (x : (⟨1, ![a]⟩ : Shape).Idx → α) (j : (⟨2, ![a, 1]⟩ : Shape).Idx) :
    broadcastInDim ⟨2, ![a, 1]⟩ ![0] h x j = x (ix1 (j 0)) :=
  broadcastInDim_apply _ h x j (ix1 (j 0)) (fun ax => match ax with
    | ⟨0, _⟩ => by
      show (j 0).val = if a = 1 then 0 else (j 0).val
      split
      · have := (j 0).isLt; simp at this; omega
      · rfl)

/-- An a by 1 column repeated across b columns. -/
theorem col_cols_apply {a b : ℕ} (h : (⟨2, ![a, 1]⟩ : Shape).BroadcastsInDim ⟨2, ![a, b]⟩ ![0, 1])
    (x : (⟨2, ![a, 1]⟩ : Shape).Idx → α) (j : (⟨2, ![a, b]⟩ : Shape).Idx) :
    broadcastInDim ⟨2, ![a, b]⟩ ![0, 1] h x j = x (ix2 (j 0) (0 : Fin 1)) :=
  broadcastInDim_apply _ h x j (ix2 (j 0) (0 : Fin 1)) (fun ax => match ax with
    | ⟨0, _⟩ => by
      show (j 0).val = if a = 1 then 0 else (j 0).val
      split
      · have := (j 0).isLt; simp at this; omega
      · rfl
    | ⟨1, _⟩ => by
      show 0 = if (1 : ℕ) = 1 then 0 else (j 1).val
      rw [if_pos rfl])

/-- A per-row quantity kept as a column and spread over the row. -/
theorem column_apply {a b : ℕ} (h1 : (⟨1, ![a]⟩ : Shape).BroadcastsInDim ⟨2, ![a, 1]⟩ ![0])
    (h2 : (⟨2, ![a, 1]⟩ : Shape).BroadcastsInDim ⟨2, ![a, b]⟩ ![0, 1])
    (x : (⟨1, ![a]⟩ : Shape).Idx → α) (j : (⟨2, ![a, b]⟩ : Shape).Idx) :
    broadcastInDim ⟨2, ![a, b]⟩ ![0, 1] h2 (broadcastInDim ⟨2, ![a, 1]⟩ ![0] h1 x) j = x (ix1 (j 0)) :=
  (col_cols_apply h2 _ j).trans (vec_col_apply h1 x _)

end Idealize.ShloMosaic.HostBroadcast
-- ==== Proof.IdealStretches.lean ====
/-
  What the three stretches of host operations compute, read off the run's boundary contents at the ideal instance.
  The first stretch builds, from the argument arrays alone: the edge matrix z (for each edge the destination atom's
  row, the source atom's row and the edge's own row, side by side: the reference's own z, a change of float format
  being the identity), the joint weight matrix (the two transposed weight matrices side by side), and the joint
  bias, scale and shift rows (core group first). The second stretch turns the statistics call's partial sums into
  the column means and variances. The third scatters the messages onto the destination atoms and adds the atom
  features. Buffers a stretch or a call does not write keep their contents.
-/
import proofs.«117771_j63462436766119_2_alg».proof.Proof.IdealRun
import proofs.«117771_j63462436766119_2_alg».proof.Proof.LibNary
import proofs.«117771_j63462436766119_2_alg».proof.Proof.Spec
import proofs.«117771_j63462436766119_2_alg».proof.Proof.LibConcatCols
import proofs.«117771_j63462436766119_2_alg».proof.Proof.LibHostBroadcast
import proofs.«117771_j63462436766119_2_alg».proof.Proof.Gen.ReferenceIdeal.Read
import Idealize.ShloMosaic.Lib.StableHlo.Run
import Idealize.ShloMosaic.Lib.ValueLayout
import Idealize.ShloMosaic.Lib.IdealHost

set_option maxRecDepth 16384

noncomputable section

namespace Cert.KernelIdeal.Stretches

open Idealize.ShloMosaic Idealize.ShloMosaic.TcCoe Idealize.ShloMosaic.StableHlo Idealize.ShloMosaic.ValueIdx
open Idealize.ShloMosaic.Pipeline
open Idealize.SL.Sem
open Cert.KernelIdeal Cert.KernelIdeal.Gen Cert.KernelIdeal.Regions
open scoped BigOperators

variable (m : (ℓ : Loc nD τ sig) → Buf (Elt Ideal) ℓ) (ρ : Dev nD → PrngReg) (c : Dev nD)

/-! ## The first stretch -/

set_option maxHeartbeats 8000000 in
/-- The edge matrix the calls read is the reference's edge matrix of the same argument arrays. -/
theorem z_eq :
    (W1 m ρ c (Proc.devRef .tc main_v20) : S800000x192.Idx → EReal)
      = Cert.ReferenceIdeal.Read.val_main_v18 (F := Ideal) (m ((c : Thread nD τ).loc main_arg0)) (m ((c : Thread nD τ).loc main_arg1))
          (m ((c : Thread nD τ).loc main_arg10)) := by
  dsimp only [W1, hostOps0]
  after_results_simp_lit <;> rfl

set_option maxHeartbeats 8000000 in
/-- The joint weight matrix: the core group's transposed weights, then the filter group's. -/
theorem w_eq :
    (W1 m ρ c (Proc.devRef .tc main_v24) : S192x128.Idx → EReal)
      = (truncf (F := Ideal) .bf16 (concatenate S192x128 1
          [⟨S192x64, transpose S192x64 [1, 0] (m ((c : Thread nD τ).loc main_arg6)) transposes_S64x192_S192x64_1_0⟩,
           ⟨S192x64, transpose S192x64 [1, 0] (m ((c : Thread nD τ).loc main_arg2)) transposes_S64x192_S192x64_1_0⟩]
          concatenates_S192x64_S192x64_S192x128_d1) bitsLt_bf16_f32 : S192x128.Idx → EReal) := by
  dsimp only [W1, hostOps0]
  after_results_simp_lit <;> rfl

/-- A joint row: a core-group vector then a filter-group vector, as one row of 128. -/
def jointRow (a b : S64.Idx → EReal) : S1x128.Idx → EReal :=
  broadcastInDim S1x128 ![1] bcast_S128_S1x128_1 (concatenate S128 0 [⟨S64, a⟩, ⟨S64, b⟩] concatenates_S64_S64_S128_d0)

set_option maxHeartbeats 8000000 in
theorem b_eq : (W1 m ρ c (Proc.devRef .tc main_v26) : S1x128.Idx → EReal)
    = jointRow (m ((c : Thread nD τ).loc main_arg7)) (m ((c : Thread nD τ).loc main_arg3)) := by
  dsimp only [W1, hostOps0, jointRow]
  after_results_simp_lit <;> rfl
set_option maxHeartbeats 8000000 in
theorem g_eq : (W1 m ρ c (Proc.devRef .tc main_v28) : S1x128.Idx → EReal)
    = jointRow (m ((c : Thread nD τ).loc main_arg8)) (m ((c : Thread nD τ).loc main_arg4)) := by
  dsimp only [W1, hostOps0, jointRow]
  after_results_simp_lit <;> rfl
set_option maxHeartbeats 8000000 in
theorem h_eq : (W1 m ρ c (Proc.devRef .tc main_v30) : S1x128.Idx → EReal)
    = jointRow (m ((c : Thread nD τ).loc main_arg9)) (m ((c : Thread nD τ).loc main_arg5)) := by
  dsimp only [W1, hostOps0, jointRow]
  after_results_simp_lit <;> rfl

set_option maxHeartbeats 8000000 in
/-- The destination atoms: column 1 of the edge index array. -/
theorem dst_eq : (W1 m ρ c (Proc.devRef .tc main_v3) : S800000.Idx → BitVec 32)
    = shapeCast S800000 (extractStridedSlice S800000x1 ![0, 1] (m ((c : Thread nD τ).loc main_arg10)) slices_S800000x2_S800000x1_0_1)
        shapeCasts_S800000x1_S800000 := by
  dsimp only [W1, hostOps0]
  after_results_simp_lit <;> rfl

/-! ### The joint arrays read at an entry -/

theorem lo_val (j : Fin 64) : (Cert.Spec.lo j).val = j.val := rfl
theorem hi_val (j : Fin 64) : (Cert.Spec.hi j).val = 64 + j.val := rfl

theorem w_lo (a6 a2 : S64x192.Idx → EReal) (k : Fin 192) (j : Fin 64) :
    (truncf (F := Ideal) .bf16 (concatenate S192x128 1
          [⟨S192x64, transpose S192x64 [1, 0] a6 transposes_S64x192_S192x64_1_0⟩,
           ⟨S192x64, transpose S192x64 [1, 0] a2 transposes_S64x192_S192x64_1_0⟩]
          concatenates_S192x64_S192x64_S192x128_d1) bitsLt_bf16_f32 : S192x128.Idx → EReal) (ix2 k (Cert.Spec.lo j))
      = a6 (ix2 j k) := by
  refine (ConcatCols.concat_cols_apply (α := EReal) (R := 192) (A := 64) (B := 64) (C := 128) rfl
    (transpose S192x64 [1, 0] a6 transposes_S64x192_S192x64_1_0) (transpose S192x64 [1, 0] a2 transposes_S64x192_S192x64_1_0)
    concatenates_S192x64_S192x64_S192x128_d1 k (Cert.Spec.lo j)).trans ?_
  unfold ConcatCols.catRow
  rw [dif_pos (show (Cert.Spec.lo j).val < 64 from j.isLt)]
  exact transpose_ix2_apply a6 transposes_S64x192_S192x64_1_0 k j

theorem w_hi (a6 a2 : S64x192.Idx → EReal) (k : Fin 192) (j : Fin 64) :
    (truncf (F := Ideal) .bf16 (concatenate S192x128 1
          [⟨S192x64, transpose S192x64 [1, 0] a6 transposes_S64x192_S192x64_1_0⟩,
           ⟨S192x64, transpose S192x64 [1, 0] a2 transposes_S64x192_S192x64_1_0⟩]
          concatenates_S192x64_S192x64_S192x128_d1) bitsLt_bf16_f32 : S192x128.Idx → EReal) (ix2 k (Cert.Spec.hi j))
      = a2 (ix2 j k) := by
  refine (ConcatCols.concat_cols_apply (α := EReal) (R := 192) (A := 64) (B := 64) (C := 128) rfl
    (transpose S192x64 [1, 0] a6 transposes_S64x192_S192x64_1_0) (transpose S192x64 [1, 0] a2 transposes_S64x192_S192x64_1_0)
    concatenates_S192x64_S192x64_S192x128_d1 k (Cert.Spec.hi j)).trans ?_
  unfold ConcatCols.catRow
  rw [dif_neg (show ¬ (Cert.Spec.hi j).val < 64 from by rw [hi_val]; omega)]
  have e : (⟨(Cert.Spec.hi j).val - 64, by have := j.isLt; show (64 + j.val) - 64 < 64; omega⟩ : Fin 64) = j :=
    Fin.ext (by show (64 + j.val) - 64 = j.val; omega)
  rw [e]
  exact transpose_ix2_apply a2 transposes_S64x192_S192x64_1_0 k j

theorem jointRow_lo (a b : S64.Idx → EReal) (j : Fin 64) : jointRow a b (ix2 (0 : Fin 1) (Cert.Spec.lo j)) = a (ix1 j) := by
  unfold jointRow
  refine (HostBroadcast.vec_row_apply (b := 128) bcast_S128_S1x128_1 _ _).trans ?_
  exact concatenate_pair_apply_left (t := S128) (s₁ := S64) (s₂ := S64) (0 : Fin 1) a b concatenates_S64_S64_S128_d0
    (ix1 (Cert.Spec.lo j)) rfl (ix1 j) (fun b => match b with | ⟨0, _⟩ => rfl)

theorem jointRow_hi (a b : S64.Idx → EReal) (j : Fin 64) : jointRow a b (ix2 (0 : Fin 1) (Cert.Spec.hi j)) = b (ix1 j) := by
  unfold jointRow
  refine (HostBroadcast.vec_row_apply (b := 128) bcast_S128_S1x128_1 _ _).trans ?_
  exact concatenate_pair_apply_right (t := S128) (s₁ := S64) (s₂ := S64) (0 : Fin 1) a b concatenates_S64_S64_S128_d0
    (ix1 (Cert.Spec.hi j)) rfl rfl (ix1 j)
    (fun b hb => match b, hb with | ⟨0, _⟩, hb => absurd rfl hb)
    (by show j.val + 64 = 64 + j.val; omega)

/-! ## Buffers that keep their contents -/

/-- An argument array is still the launch's when the message call has run. -/
theorem W4_arg (r : Ref sig .tc) (h0 : r ∉ hostOps0_W) (h1 : r ∉ hostOps1_W)
    (ha0 : ∀ w, Pipeline.arrRef spec0 w ≠ r) (ha1 : ∀ w, Pipeline.arrRef spec1 w ≠ r) :
    W4 m ρ c (Proc.devRef .tc r) = m ((c : Thread nD τ).loc r) :=
  calc W4 m ρ c (Proc.devRef .tc r)
    _ = W3 m ρ c (Proc.devRef .tc r) := W4_of_ne m ρ c r ha1
    _ = W2 m ρ c (Proc.devRef .tc r) := StableHlo.after_of_writes_sub hostOps1 _ hostOps1_writes h1
    _ = W1 m ρ c (Proc.devRef .tc r) := W2_of_ne m ρ c r ha0
    _ = W0 m ρ c (Proc.devRef .tc r) := StableHlo.after_of_writes_sub hostOps0 _ hostOps0_writes h0
    _ = m ((c : Thread nD τ).loc r) := rfl

/-- What the first stretch wrote, and neither call has among its arrays, is still there after the message call. -/
theorem W4_of_W1 (r : Ref sig .tc) (h1 : r ∉ hostOps1_W)
    (ha0 : ∀ w, Pipeline.arrRef spec0 w ≠ r) (ha1 : ∀ w, Pipeline.arrRef spec1 w ≠ r) :
    W4 m ρ c (Proc.devRef .tc r) = W1 m ρ c (Proc.devRef .tc r) :=
  calc W4 m ρ c (Proc.devRef .tc r)
    _ = W3 m ρ c (Proc.devRef .tc r) := W4_of_ne m ρ c r ha1
    _ = W2 m ρ c (Proc.devRef .tc r) := StableHlo.after_of_writes_sub hostOps1 _ hostOps1_writes h1
    _ = W1 m ρ c (Proc.devRef .tc r) := W2_of_ne m ρ c r ha0

/-- What the first stretch wrote, and the statistics call has not among its arrays, is there when the message call
    is entered. -/
theorem W3_of_W1 (r : Ref sig .tc) (h1 : r ∉ hostOps1_W) (ha0 : ∀ w, Pipeline.arrRef spec0 w ≠ r) :
    W3 m ρ c (Proc.devRef .tc r) = W1 m ρ c (Proc.devRef .tc r) :=
  (StableHlo.after_of_writes_sub hostOps1 _ hostOps1_writes h1).trans (W2_of_ne m ρ c r ha0)

/-- The statistics call's three input arrays come out as they went in, and the second stretch does not write them. -/
theorem W3_in0 (w : Fin cfg0.W) (hw : (cfg0.win w).isOut = false) (h1 : Pipeline.arrRef spec0 w ∉ hostOps1_W) :
    W3 m ρ c (Proc.devRef .tc (Pipeline.arrRef spec0 w)) = W1 m ρ c (Proc.devRef .tc (Pipeline.arrRef spec0 w)) :=
  (StableHlo.after_of_writes_sub hostOps1 _ hostOps1_writes h1).trans
    ((W2_arr m ρ c w).trans (((dat0 (V1 m ρ) c).arrAt_in w hw _).trans (A_eq0 (V1 m ρ) c w)))

/-! ## The second stretch: means and variances -/

/-- The host's sum over the 50 blocks, from the zero word: at column q, zero plus the 50 blocks' entries. -/
theorem blocks_sum (x : FVec Ideal S50x1x128 .f32) (q : Fin 128) :
    Host.reduceAdd (F := Ideal) x (constant (F := Ideal) S_ .f32 0x00000000#32) reducesTo_S50x1x128_S1x128_d0 h_S_ (ix2 (0 : Fin 1) q)
      = 0 + ∑ t : Fin 50, x (ix3 t (0 : Fin 1) q) := by
  have h : S50x1x128.Reduces [0] S1x128 := by decide
  show Ideal.hostReduceAdd reducesTo_S50x1x128_S1x128_d0 x (Ideal.ofBits .f32 0x00000000#32) (ix2 (0 : Fin 1) q) = _
  rw [Ideal.hostReduceAdd_single reducesTo_S50x1x128_S1x128_d0 h, Ideal.ofBits_zero_f32]
  refine congrArg (0 + ·) (Finset.sum_congr rfl fun t _ => congrArg x ?_)
  funext ax
  apply Fin.ext
  match ax with
  | ⟨0, _⟩ => rfl
  | ⟨1, _⟩ => rfl
  | ⟨2, _⟩ => rfl

/-- The mean row and the variance row as the second stretch computes them from the two arrays of partial sums. -/
def meanRow (s : FVec Ideal S50x1x128 .f32) : FVec Ideal S1x128 .f32 :=
  Host.divf (F := Ideal) (Host.reduceAdd (F := Ideal) s (constant (F := Ideal) S_ .f32 0x00000000#32) reducesTo_S50x1x128_S1x128_d0 h_S_)
    (broadcastInDim S1x128 ![] bcast_S_S1x128 (constant (F := Ideal) S_ .f32 0x49435000#32))
def varRow (s sq : FVec Ideal S50x1x128 .f32) : FVec Ideal S1x128 .f32 :=
  maximumf (subf (meanRow sq) (mulf (meanRow s) (meanRow s)))
    (broadcastInDim S1x128 ![] bcast_S_S1x128 (constant (F := Ideal) S_ .f32 0x00000000#32))

theorem mean_eq : (W3 m ρ c (Proc.devRef .tc main_v35) : S1x128.Idx → EReal) = meanRow (W2 m ρ c (Proc.devRef .tc main_v31_0)) := by
  dsimp only [W3, hostOps1, meanRow]
  after_results
theorem var_eq : (W3 m ρ c (Proc.devRef .tc main_v41) : S1x128.Idx → EReal)
    = varRow (W2 m ρ c (Proc.devRef .tc main_v31_0)) (W2 m ρ c (Proc.devRef .tc main_v31_1)) := by
  dsimp only [W3, hostOps1, varRow, meanRow]
  after_results

theorem meanRow_at (s : FVec Ideal S50x1x128 .f32) (q : Fin 128) :
    meanRow s (ix2 (0 : Fin 1) q) = Ideal.div (0 + ∑ t : Fin 50, s (ix3 t (0 : Fin 1) q)) Cert.Spec.nEdges := by
  unfold meanRow
  show Ideal.div (Host.reduceAdd (F := Ideal) s _ _ _ (ix2 (0 : Fin 1) q)) (broadcastInDim S1x128 ![] bcast_S_S1x128 (constant (F := Ideal) S_ .f32 0x49435000#32) (ix2 (0 : Fin 1) q)) = _
  rw [blocks_sum, broadcastInDim_scalar_apply]
  rfl
theorem varRow_at (s sq : FVec Ideal S50x1x128 .f32) (q : Fin 128) :
    varRow s sq (ix2 (0 : Fin 1) q)
      = max (Ideal.div (0 + ∑ t : Fin 50, sq (ix3 t (0 : Fin 1) q)) Cert.Spec.nEdges
              - Ideal.div (0 + ∑ t : Fin 50, s (ix3 t (0 : Fin 1) q)) Cert.Spec.nEdges
                * Ideal.div (0 + ∑ t : Fin 50, s (ix3 t (0 : Fin 1) q)) Cert.Spec.nEdges) 0 := by
  unfold varRow
  show max (meanRow sq (ix2 (0 : Fin 1) q) - meanRow s (ix2 (0 : Fin 1) q) * meanRow s (ix2 (0 : Fin 1) q))
    (broadcastInDim S1x128 ![] bcast_S_S1x128 (constant (F := Ideal) S_ .f32 0x00000000#32) (ix2 (0 : Fin 1) q)) = _
  rw [meanRow_at, meanRow_at, broadcastInDim_scalar_apply]
  show max _ (Ideal.ofBits .f32 0x00000000#32) = _
  rw [Ideal.ofBits_zero_f32]

/-! ## The third stretch: the scatter onto the atoms and the final sum -/

theorem out_eq : (W5 m ρ c (Proc.devRef .tc main_v46) : S50000x64.Idx → EReal)
    = addf (F := Ideal) (W4 m ρ c (Proc.devRef .tc main_arg0))
        (Host.scatterAdd (F := Ideal) scatter_S50000x64_S800000x1_S800000x64_1_0_0_1
          (broadcastInDim S50000x64 ![] bcast_S_S50000x64 (constant (F := Ideal) S_ .f32 0x00000000#32))
          (broadcastInDim S800000x1 ![0] bcast_S800000_S800000x1_0 (W4 m ρ c (Proc.devRef .tc main_v3)))
          (W4 m ρ c (Proc.devRef .tc main_v42))) := by
  dsimp only [W5, hostOps2]
  after_results

end Cert.KernelIdeal.Stretches

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.LibReduceAt.lean ====
/-
  Reductions over one axis read at an index of the result, at the ideal instance, with the reduced index named by
  its coordinates.

  For an a by b array: a row's sum, a row's minimum and a column's maximum (a kernel's vector reductions) are the sum,
  the fold of min and the fold of max over the coordinate that was reduced away, of the array's entries at (i, j).
  For an n by a by b array the host's one-operand reduce with a commutative associative operation, along the last axis
  or along the middle axis, is likewise the fold from its initial value over that coordinate of the entries at
  (n, i, j). The folds are over the whole finite type of the reduced coordinate, in no particular order.
-/
import Idealize.ShloMosaic.PureOps.Ideal.Laws
import Idealize.ShloMosaic.PureOps.Reduce
import Idealize.ShloMosaic.Lib.ValueIdx

noncomputable section

namespace Idealize.ShloMosaic.ReduceAt

open Idealize.ShloMosaic Idealize.ShloMosaic.ValueIdx

variable {a b n : ℕ} {φ : FTy}

/-! ### Rank 2: the index put back by a reduction along the columns' axis, or along the rows' axis -/

theorem lift_along_row (h : (⟨2, ![a, b]⟩ : Shape).Reduces [(1 : Fin 2)] ⟨1, ![a]⟩) (i : Fin a) (j : Fin b) :
    h.lift (ix1 i) j = ix2 i j := by
  funext ax
  apply Fin.ext
  match ax with
  | ⟨0, _⟩ => rfl
  | ⟨1, _⟩ => rfl

theorem lift_along_col (h : (⟨2, ![a, b]⟩ : Shape).Reduces [(0 : Fin 2)] ⟨1, ![b]⟩) (j : Fin b) (i : Fin a) :
    h.lift (ix1 j) i = ix2 i j := by
  funext ax
  apply Fin.ext
  match ax with
  | ⟨0, _⟩ => rfl
  | ⟨1, _⟩ => rfl

/-- A row's sum. -/
theorem row_sum_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.add.neutral φ hφ)
    (i : Fin a) :
    multiReduction .add [(1 : Fin 2)] ⟨1, ![a]⟩ v acc h hφ hacc (ix1 i) = ∑ j : Fin b, v (ix2 i j) :=
  (Ideal.multiReduction_add_single v acc h hφ hacc (ix1 i)).trans
    (Finset.sum_congr rfl fun j _ => congrArg v (lift_along_row h i j))

/-- A column's sum. -/
theorem col_sum_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.add.neutral φ hφ)
    (j : Fin b) :
    multiReduction .add [(0 : Fin 2)] ⟨1, ![b]⟩ v acc h hφ hacc (ix1 j) = ∑ i : Fin a, v (ix2 i j) :=
  (Ideal.multiReduction_add_single v acc h hφ hacc (ix1 j)).trans
    (Finset.sum_congr rfl fun i _ => congrArg v (lift_along_col h j i))

/-- A row's minimum, from the accumulator's value. -/
theorem row_min_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.minimumf.neutral φ hφ)
    (i : Fin a) :
    multiReduction .minimumf [(1 : Fin 2)] ⟨1, ![a]⟩ v acc h hφ hacc (ix1 i)
      = (Finset.univ : Finset (Fin b)).fold min (Ideal.ofBits φ acc) (fun j => v (ix2 i j)) := by
  rw [multiReduction_minimumf_eq_fold, h.fold_filter_drop_single]
  have e : (v ∘ h.lift (ix1 i)) = fun j : Fin b => v (ix2 i j) := funext fun j => congrArg v (lift_along_row h i j)
  rw [e]
  rfl

/-- A column's maximum, from the accumulator's value. -/
theorem col_max_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.maximumf.neutral φ hφ)
    (j : Fin b) :
    multiReduction .maximumf [(0 : Fin 2)] ⟨1, ![b]⟩ v acc h hφ hacc (ix1 j)
      = (Finset.univ : Finset (Fin a)).fold max (Ideal.ofBits φ acc) (fun i => v (ix2 i j)) := by
  rw [Ideal.multiReduction_maximumf_single]
  have e : (v ∘ h.lift (ix1 j)) = fun i : Fin a => v (ix2 i j) := funext fun i => congrArg v (lift_along_col h j i)
  rw [e]
  rfl

/-! ### Rank 3: the host's reduce along the last axis, or along the middle axis -/

theorem lift_along_last (h : (⟨3, ![n, a, b]⟩ : Shape).Reduces [(2 : Fin 3)] ⟨2, ![n, a]⟩) (p : Fin n) (i : Fin a) (j : Fin b) :
    h.lift (ix2 p i) j = ix3 p i j := by
  funext ax
  apply Fin.ext
  match ax with
  | ⟨0, _⟩ => rfl
  | ⟨1, _⟩ => rfl
  | ⟨2, _⟩ => rfl

theorem lift_along_middle (h : (⟨3, ![n, a, b]⟩ : Shape).Reduces [(1 : Fin 3)] ⟨2, ![n, b]⟩) (p : Fin n) (j : Fin b) (i : Fin a) :
    h.lift (ix2 p j) i = ix3 p i j := by
  funext ax
  apply Fin.ext
  match ax with
  | ⟨0, _⟩ => rfl
  | ⟨1, _⟩ => rfl
  | ⟨2, _⟩ => rfl

/-- The host's reduce along the last axis. -/
theorem host_reduce_last_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(2 : Fin 3)] ⟨2, ![n, a]⟩) (hu : 0 < u.numel)
    (h : (⟨3, ![n, a, b]⟩ : Shape).Reduces [(2 : Fin 3)] ⟨2, ![n, a]⟩) (p : Fin n) (i : Fin a) :
    Host.reduce f x init h' hu (ix2 p i)
      = (Finset.univ : Finset (Fin b)).fold f (init (Shape.Idx.first hu)) (fun j => x (ix3 p i j)) := by
  rw [Host.reduce_eq_fold, Shape.ReducesTo.drop_eq_drop h' h, h.fold_filter_drop_single]
  have e : (x ∘ h.lift (ix2 p i)) = fun j : Fin b => x (ix3 p i j) := funext fun j => congrArg x (lift_along_last h p i j)
  rw [e]
  rfl

/-- The host's reduce along the middle axis. -/
theorem host_reduce_middle_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(1 : Fin 3)] ⟨2, ![n, b]⟩) (hu : 0 < u.numel)
    (h : (⟨3, ![n, a, b]⟩ : Shape).Reduces [(1 : Fin 3)] ⟨2, ![n, b]⟩) (p : Fin n) (j : Fin b) :
    Host.reduce f x init h' hu (ix2 p j)
      = (Finset.univ : Finset (Fin a)).fold f (init (Shape.Idx.first hu)) (fun i => x (ix3 p i j)) := by
  rw [Host.reduce_eq_fold, Shape.ReducesTo.drop_eq_drop h' h, h.fold_filter_drop_single]
  have e : (x ∘ h.lift (ix2 p j)) = fun i : Fin a => x (ix3 p i j) := funext fun i => congrArg x (lift_along_middle h p j i)
  rw [e]
  rfl

end Idealize.ShloMosaic.ReduceAt

end
-- ==== Proof.LibVectorAsMatrix.lean ====
/-
  A length-n vector reshaped to a 1 × n row or to an n × 1 column, read at an index.

  A reshape keeps row-major positions. Entry (0, q) of the row has position q, and entry (r, 0) of the column has
  position r, so each reads the vector at its free coordinate. This is what a bias `b.reshape(1, n)` or a per-row
  scale `s.reshape(n, 1)` holds, for any element type.
-/
import Idealize.ShloMosaic.Lib.Pipeline.Value
import Idealize.ShloMosaic.Lib.ValueIdx

noncomputable section

namespace Idealize.ShloMosaic.VectorAsMatrix

open Idealize.ShloMosaic Idealize.ShloMosaic.ValueIdx

variable {α : Type} {n : Nat}

/-- [n] reshaped to [1, n]: entry (0, q) is the vector's entry q. -/
theorem row_apply (v : (⟨1, ![n]⟩ : Shape).Idx → α) (h : (⟨1, ![n]⟩ : Shape).ShapeCasts ⟨2, ![1, n]⟩) (p : Fin 1)
    (q : Fin n) : shapeCast ⟨2, ![1, n]⟩ v h (ix2 p q) = v (ix1 q) :=
  shapeCast_apply v h (ix2 p q) (ix1 q) (by
    rw [Shape.rowMajor_val_one, Shape.rowMajor_val_two]
    have hp : p = 0 := Fin.ext (by have := p.isLt; omega)
    subst hp
    show q.val = 0 * n + q.val
    omega)

/-- [n] reshaped to [n, 1]: entry (r, 0) is the vector's entry r. -/
theorem col_apply (v : (⟨1, ![n]⟩ : Shape).Idx → α) (h : (⟨1, ![n]⟩ : Shape).ShapeCasts ⟨2, ![n, 1]⟩) (r : Fin n)
    (q : Fin 1) : shapeCast ⟨2, ![n, 1]⟩ v h (ix2 r q) = v (ix1 r) :=
  shapeCast_apply v h (ix2 r q) (ix1 r) (by
    rw [Shape.rowMajor_val_one, Shape.rowMajor_val_two]
    have hq : q = 0 := Fin.ext (by have := q.isLt; omega)
    subst hq
    show r.val = r.val * 1 + 0
    omega)

end Idealize.ShloMosaic.VectorAsMatrix

end
-- ==== Proof.LibKeepdims3.lean ====
/-
  The "keepdims" forms at rank 3, and the sum along the last axis, read at an index.

  A sum along the last axis of an [a, b, c] array leaves an [a, b] array; "keepdims" puts a unit axis back in its
  place ([a, b] cast to [a, b, 1]) and a broadcast spreads the per-(i, j) quantity over the last axis again
  ([a, b, 1] to [a, b, c]). A block of rows [a, c] set against every middle coordinate goes [a, c] to [a, 1, c] to
  [a, b, c]; a block [b, c] set against every leading coordinate goes [b, c] to [1, b, c] to [a, b, c]. Each of these
  operations, read at coordinates, is its operand at the evident coordinates, whatever the extents. At the ideal
  instance the sum along the last axis of a matrix or of a rank-3 array, read at an index, is the finite sum over the
  last coordinate on the extended reals.
-/
import Idealize.ShloMosaic.Lib.Pipeline.Value
import Idealize.ShloMosaic.Lib.ValueIdx
import Idealize.ShloMosaic.PureOps.Ideal.Laws

open scoped BigOperators

namespace Idealize.ShloMosaic.Keepdims3

open Idealize.ShloMosaic Idealize.ShloMosaic.ValueIdx Idealize.ShloMosaic.Pipeline

section Layout
variable {α : Type}

/-- An `[a, c]` array cast to `[a, 1, c]` reads, at `(i, u, k)`, the operand at `(i, k)`, whatever the unit
    coordinate `u`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b]` array cast to `[a, b, 1]` reads, at `(i, j, u)`, the operand at `(i, j)`, whatever the unit
    coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A block of rows set against every middle coordinate: `[a, c]` to `[a, 1, c]` to `[a, b, c]` reads the row. -/
theorem rows_spread {a b c : ℕ} (x : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x h) h' (ix3 i j k) = x (ix2 i k) :=
  (broadcastTo_a1c_abc_apply _ h' i j k).trans (shapeCast_ac_a1c_apply x h i 0 k)

/-- A per-`(i, j)` quantity spread over the last axis: `[a, b]` to `[a, b, 1]` to `[a, b, c]`. -/
theorem lanes_spread {a b c : ℕ} (x : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x h) h' (ix3 i j k) = x (ix2 i j) :=
  (broadcastTo_ab1_abc_apply _ h' i j k).trans (shapeCast_ab_ab1_apply x h i j 0)

/-- A block set against every leading coordinate: `[b, c]` to `[1, b, c]` to `[a, b, c]` reads the block. -/
theorem block_spread {a b c : ℕ} (x : (⟨2, ![b, c]⟩ : Shape).Idx → α)
    (h : (⟨2, ![b, c]⟩ : Shape).ShapeCasts ⟨3, ![1, b, c]⟩) (h' : (⟨3, ![1, b, c]⟩ : Shape).Broadcasts ⟨3, ![a, b, c]⟩)
    (i : Fin a) (j : Fin b) (k : Fin c) :
    broadcastTo ⟨3, ![a, b, c]⟩ (shapeCast ⟨3, ![1, b, c]⟩ x h) h' (ix3 i j k) = x (ix2 j k) :=
  (broadcastTo_1bc_abc_apply _ h' i j k).trans (by
    refine shapeCast_apply x h _ _ ?_
    rw [Shape.rowMajor_val_three, Shape.rowMajor_val_two]
    show j.val * c + k.val = ((0 : Fin 1).val * b + j.val) * c + k.val
    rw [Fin.val_zero, Nat.zero_mul, Nat.zero_add])

end Layout

section LaneSum
variable {φ : FTy}

/-- The sum of a matrix along its last axis, at row `i`: the finite sum of the row's entries. -/
theorem laneSum2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = ∑ k : Fin b, src (ix2 i k)
  refine Finset.sum_congr rfl fun k _ => congrArg src (funext fun ax => ?_)
  match ax with
  | ⟨0, _⟩ => rfl
  | ⟨1, _⟩ => rfl

/-- The sum of a rank-3 array along its last axis, at `(i, j)`: the finite sum over the last coordinate. -/
theorem laneSum3_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  show ∑ k : Fin c, src (h.lift (ix2 i j) k) = ∑ k : Fin c, src (ix3 i j k)
  refine Finset.sum_congr rfl fun k _ => congrArg src (funext fun ax => ?_)
  match ax with
  | ⟨0, _⟩ => rfl
  | ⟨1, _⟩ => rfl
  | ⟨2, _⟩ => rfl

end LaneSum

end Idealize.ShloMosaic.Keepdims3
-- ==== Proof.IdealStatsValue.lean ====
/-
  What the statistics call leaves in its two output arrays, at the ideal instance, as plain sums.

  The call walks the 800000 rows of the edge matrix z in 50 blocks of 16000 rows. For block t and joint column q it
  leaves, in entry (t, 0, q) of its first output, the sum over the block's rows e of (z·W + b)(e, q), and in the same
  entry of its second output the sum over those rows of (z·W + b)(e, q) squared, where
  (z·W + b)(e, q) = (Σ k, z(e, k) · W(k, q)) + b(q).

  One grid point's stored row is that sum of its three input blocks; a block of z at point t is rows
  16000·t … 16000·t + 15999 of z, the weights' and the bias's block is the whole array; point t's output block is
  row t of the output, and the 50 rows cover it.
-/
import proofs.«117771_j63462436766119_2_alg».proof.Proof.IdealStats
import proofs.«117771_j63462436766119_2_alg».proof.Proof.Spec
import proofs.«117771_j63462436766119_2_alg».proof.Proof.LibMatmulRows
import proofs.«117771_j63462436766119_2_alg».proof.Proof.LibReduceAt
import proofs.«117771_j63462436766119_2_alg».proof.Proof.LibVectorAsMatrix
import proofs.«117771_j63462436766119_2_alg».proof.Proof.LibKeepdims3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.StatsValue

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Regions
open scoped BigOperators

/-! ## One grid point's stored rows, entry by entry -/

/-- The linear layer on one block: entry (r, q) is row r of the block times column q of the weights, plus the bias. -/
theorem lin_block_apply (x0 : FVec Ideal S16000x192 .bf16) (x1 : FVec Ideal S192x128 .bf16) (x2 : FVec Ideal S1x128 .f32)
    (r : Fin 16000) (q : Fin 128) :
    k0_pay1 (F := Ideal) x0 x1 x2 (ix2 r q) = (∑ k : Fin 192, x0 (ix2 r k) * x1 (ix2 k q)) + x2 (ix2 (0 : Fin 1) q) := by
  unfold k0_pay1
  simp only [shapeCast_self]
  refine (addf_apply _ _ _).trans ?_
  refine congrArg₂ (· + ·) ?_ ?_
  · exact MatmulRows.matmul_zero_apply dot_S16000x192_S192x128_S16000x128_1_0_0_1_n_n none rfl rfl rfl rfl
      (fun _ _ => rfl) (fun _ _ => rfl) x0 x1 (ix2 r q)
  · exact broadcastTo_1b_ab_apply x2 broadcasts_S1x128_S16000x128 r q

/-- The stored row of column sums: entry (0, 0, q) is the sum over the block's rows of the linear layer's entry. -/
theorem sum_row_apply (x0 : FVec Ideal S16000x192 .bf16) (x1 : FVec Ideal S192x128 .bf16) (x2 : FVec Ideal S1x128 .f32)
    (q : Fin 128) :
    k0_pay2 (F := Ideal) x0 x1 x2 (ix3 (0 : Fin 1) (0 : Fin 1) q)
      = ∑ r : Fin 16000, ((∑ k : Fin 192, x0 (ix2 r k) * x1 (ix2 k q)) + x2 (ix2 (0 : Fin 1) q)) := by
  unfold k0_pay2
  dsimp only
  refine (Keepdims3.shapeCast_ac_a1c_apply _ shapeCasts_S1x128_S1x1x128 (0 : Fin 1) (0 : Fin 1) q).trans ?_
  refine (VectorAsMatrix.row_apply _ shapeCasts_S128_S1x128 (0 : Fin 1) q).trans ?_
  refine (ReduceAt.col_sum_apply _ _ reduces_S16000x128_S128 _ _ q).trans ?_
  exact Finset.sum_congr rfl fun r _ => lin_block_apply x0 x1 x2 r q

/-- The stored row of column sums of squares: entry (0, 0, q) is the sum over the block's rows of the squared entry. -/
theorem sq_row_apply (x0 : FVec Ideal S16000x192 .bf16) (x1 : FVec Ideal S192x128 .bf16) (x2 : FVec Ideal S1x128 .f32)
    (q : Fin 128) :
    k0_pay3 (F := Ideal) x0 x1 x2 (ix3 (0 : Fin 1) (0 : Fin 1) q)
      = ∑ r : Fin 16000, ((∑ k : Fin 192, x0 (ix2 r k) * x1 (ix2 k q)) + x2 (ix2 (0 : Fin 1) q))
          * ((∑ k : Fin 192, x0 (ix2 r k) * x1 (ix2 k q)) + x2 (ix2 (0 : Fin 1) q)) := by
  unfold k0_pay3
  dsimp only
  refine (Keepdims3.shapeCast_ac_a1c_apply _ shapeCasts_S1x128_S1x1x128 (0 : Fin 1) (0 : Fin 1) q).trans ?_
  refine (VectorAsMatrix.row_apply _ shapeCasts_S128_S1x128 (0 : Fin 1) q).trans ?_
  refine (ReduceAt.col_sum_apply _ _ reduces_S16000x128_S128 _ _ q).trans ?_
  refine Finset.sum_congr rfl fun r _ => ?_
  refine (mulf_apply _ _ _).trans ?_
  rw [lin_block_apply x0 x1 x2 r q]

/-! ## The index maps over the grid -/

/-- Decided over the 50 points: the block of z moves down one block of rows per point and stays at column block 0,
    the weights' and the bias's block stays at (0, 0), and each output's block at point t is (t, 0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-! ## The input blocks as parts of the arrays -/

section
variable (V : (c : Dev nD) → (b : Ref sig .tc) → Buf (Elt Ideal) ((c : Thread nD τ).loc b))

/-- The block of z at point t is rows 16000·t … 16000·t + 15999 of z. -/
theorem z_block_apply (c : Dev nD) (t : Fin cfg0.N) (x : S16000x192.Idx) (k : S800000x192.Idx)
    (hk0 : (k 0).val = t.val * 16000 + (x 0).val) (hk1 : (k 1).val = (x 1).val) :
    (iblk0 (F := Ideal) V c 0 t : FVec Ideal S16000x192 .bf16) x = (V c main_v20 : S800000x192.Idx → EReal) k := by
  obtain ⟨e0, e1, -⟩ := index_facts t
  unfold iblk0
  rw [View.read_apply]
  show (V c main_v20 : S800000x192.Idx → EReal) _ = (V c main_v20 : S800000x192.Idx → EReal) k
  congr 1
  funext a
  apply Fin.ext
  match a with
  | ⟨0, _⟩ => show win0_0.index t (0 : Fin 2) * 16000 + 1 * (x 0).val = (k 0).val; rw [e0, hk0]; omega
  | ⟨1, _⟩ => show win0_0.index t (1 : Fin 2) * 192 + 1 * (x 1).val = (k 1).val; rw [e1, hk1]; omega

/-- The weights' block at every point is the whole weight matrix. -/
theorem w_block_apply (c : Dev nD) (t : Fin cfg0.N) (x : S192x128.Idx) :
    (iblk0 (F := Ideal) V c 1 t : FVec Ideal S192x128 .bf16) x = (V c main_v24 : S192x128.Idx → EReal) x := by
  obtain ⟨-, -, e0, e1, -⟩ := index_facts t
  unfold iblk0
  rw [View.read_apply]
  show (V c main_v24 : S192x128.Idx → EReal) _ = (V c main_v24 : S192x128.Idx → EReal) x
  congr 1
  funext a
  apply Fin.ext
  match a with
  | ⟨0, _⟩ => show win0_1.index t (0 : Fin 2) * 192 + 1 * (x 0).val = (x 0).val; rw [e0]; omega
  | ⟨1, _⟩ => show win0_1.index t (1 : Fin 2) * 128 + 1 * (x 1).val = (x 1).val; rw [e1]; omega

/-- The bias's block at every point is the whole bias row. -/
theorem b_block_apply (c : Dev nD) (t : Fin cfg0.N) (x : S1x128.Idx) :
    (iblk0 (F := Ideal) V c 2 t : FVec Ideal S1x128 .f32) x = (V c main_v26 : S1x128.Idx → EReal) x := by
  obtain ⟨-, -, -, -, e0, e1, -⟩ := index_facts t
  unfold iblk0
  rw [View.read_apply]
  show (V c main_v26 : S1x128.Idx → EReal) _ = (V c main_v26 : S1x128.Idx → EReal) x
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 128 + 1 * (x 1).val = (x 1).val; rw [e1]; omega

end

/-! ## What each point writes back, and the arrays after the grid -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The stored row of column sums at any index of the one-row block: only the column matters. -/
theorem sum_row_point (x0 : FVec Ideal S16000x192 .bf16) (x1 : FVec Ideal S192x128 .bf16) (x2 : FVec Ideal S1x128 .f32)
    (j : S1x1x128.Idx) (q : Fin 128) (hq : (j 2).val = q.val) :
    k0_pay2 (F := Ideal) x0 x1 x2 j
      = ∑ r : Fin 16000, ((∑ k : Fin 192, x0 (ix2 r k) * x1 (ix2 k q)) + x2 (ix2 (0 : Fin 1) q)) := by
  obtain ⟨u0, u1, q', rfl⟩ : ∃ (u0 : Fin 1) (u1 : Fin 1) (q' : Fin 128), j = ix3 u0 u1 q' := ⟨j 0, j 1, j 2, eq_ix3 j⟩
  obtain rfl : u0 = 0 := Subsingleton.elim _ _
  obtain rfl : u1 = 0 := Subsingleton.elim _ _
  obtain rfl : q' = q := Fin.ext hq
  exact sum_row_apply x0 x1 x2 q'

/-- The stored row of column sums of squares at any index of the one-row block. -/
theorem sq_row_point (x0 : FVec Ideal S16000x192 .bf16) (x1 : FVec Ideal S192x128 .bf16) (x2 : FVec Ideal S1x128 .f32)
    (j : S1x1x128.Idx) (q : Fin 128) (hq : (j 2).val = q.val) :
    k0_pay3 (F := Ideal) x0 x1 x2 j
      = ∑ r : Fin 16000, ((∑ k : Fin 192, x0 (ix2 r k) * x1 (ix2 k q)) + x2 (ix2 (0 : Fin 1) q))
          * ((∑ k : Fin 192, x0 (ix2 r k) * x1 (ix2 k q)) + x2 (ix2 (0 : Fin 1) q)) := by
  obtain ⟨u0, u1, q', rfl⟩ : ∃ (u0 : Fin 1) (u1 : Fin 1) (q' : Fin 128), j = ix3 u0 u1 q' := ⟨j 0, j 1, j 2, eq_ix3 j⟩
  obtain rfl : u0 = 0 := Subsingleton.elim _ _
  obtain rfl : u1 = 0 := Subsingleton.elim _ _
  obtain rfl : q' = q := Fin.ext hq
  exact sq_row_apply x0 x1 x2 q'

section
variable (V : (c : Dev nD) → (b : Ref sig .tc) → Buf (Elt Ideal) ((c : Thread nD τ).loc b))

/-- The array of the blocks' column sums: entry (t, ·, q) is block t's sum of column q of z·W + b. -/
def sumsArr (c : Dev nD) : S50x1x128.Idx → EReal := fun i =>
  Cert.Spec.partSum (fun e k => (V c main_v20 : S800000x192.Idx → EReal) (ix2 e k))
    (fun k q => (V c main_v24 : S192x128.Idx → EReal) (ix2 k q)) (fun q => (V c main_v26 : S1x128.Idx → EReal) (ix2 (0 : Fin 1) q))
    ⟨(i 0).val, (i 0).isLt⟩ ⟨(i 2).val, (i 2).isLt⟩

/-- The array of the blocks' column sums of squares. -/
def squaresArr (c : Dev nD) : S50x1x128.Idx → EReal := fun i =>
  Cert.Spec.partSq (fun e k => (V c main_v20 : S800000x192.Idx → EReal) (ix2 e k))
    (fun k q => (V c main_v24 : S192x128.Idx → EReal) (ix2 k q)) (fun q => (V c main_v26 : S1x128.Idx → EReal) (ix2 (0 : Fin 1) q))
    ⟨(i 0).val, (i 0).isLt⟩ ⟨(i 2).val, (i 2).isLt⟩

theorem sumsArr_apply (c : Dev nD) (i : S50x1x128.Idx) (t : Fin 50) (q : Fin 128) (h0 : (i 0).val = t.val) (h2 : (i 2).val = q.val) :
    sumsArr V c i = Cert.Spec.partSum (fun e k => (V c main_v20 : S800000x192.Idx → EReal) (ix2 e k))
      (fun k q => (V c main_v24 : S192x128.Idx → EReal) (ix2 k q)) (fun q => (V c main_v26 : S1x128.Idx → EReal) (ix2 (0 : Fin 1) q)) t q := by
  unfold sumsArr
  have e0 : (⟨(i 0).val, (i 0).isLt⟩ : Fin 50) = t := Fin.ext h0
  have e2 : (⟨(i 2).val, (i 2).isLt⟩ : Fin 128) = q := Fin.ext h2
  rw [e0, e2]

theorem squaresArr_apply (c : Dev nD) (i : S50x1x128.Idx) (t : Fin 50) (q : Fin 128) (h0 : (i 0).val = t.val) (h2 : (i 2).val = q.val) :
    squaresArr V c i = Cert.Spec.partSq (fun e k => (V c main_v20 : S800000x192.Idx → EReal) (ix2 e k))
      (fun k q => (V c main_v24 : S192x128.Idx → EReal) (ix2 k q)) (fun q => (V c main_v26 : S1x128.Idx → EReal) (ix2 (0 : Fin 1) q)) t q := by
  unfold squaresArr
  have e0 : (⟨(i 0).val, (i 0).isLt⟩ : Fin 50) = t := Fin.ext h0
  have e2 : (⟨(i 2).val, (i 2).isLt⟩ : Fin 128) = q := Fin.ext h2
  rw [e0, e2]

/-- An element of point t's block of the first output sits in row t of the array, at its own column. -/
theorem sums_block_emb (t : Fin cfg0.N) (j : S1x1x128.Idx) :
    ((((cfg0.win 3).blk t).view.emb j) 0).val = t.val ∧ ((((cfg0.win 3).blk t).view.emb j) 2).val = (j 2).val := by
  obtain ⟨-, -, -, -, -, -, e0, -, e2, -⟩ := index_facts t
  have hj0 : (j 0).val < 1 := (j 0).isLt
  constructor
  · show win0_3.index t (0 : Fin 3) * 1 + 1 * (j 0).val = t.val
    rw [e0]; omega
  · show win0_3.index t (2 : Fin 3) * 128 + 1 * (j 2).val = (j 2).val
    rw [e2]; omega

/-- The same for the second output. -/
theorem squares_block_emb (t : Fin cfg0.N) (j : S1x1x128.Idx) :
    ((((cfg0.win 4).blk t).view.emb j) 0).val = t.val ∧ ((((cfg0.win 4).blk t).view.emb j) 2).val = (j 2).val := by
  obtain ⟨-, -, -, -, -, -, -, -, -, e0, -, e2⟩ := index_facts t
  have hj0 : (j 0).val < 1 := (j 0).isLt
  constructor
  · show win0_4.index t (0 : Fin 3) * 1 + 1 * (j 0).val = t.val
    rw [e0]; omega
  · show win0_4.index t (2 : Fin 3) * 128 + 1 * (j 2).val = (j 2).val
    rw [e2]; omega

/-- What point t writes back to the first output is block t of the array of column sums. -/
theorem sums_flushed (c : Dev nD) (t : Fin cfg0.N) :
    (dat0 (F := Ideal) V c).flushed 3 t = ((cfg0.win 3).blk t).view.read (Elt Ideal) (sumsArr V c) := by
  have ht : t.val < 50 := Nat.lt_of_lt_of_eq t.isLt (show cfg0.N = 50 from N_0)
  show (cfg0.win 3).cut (grid0.coords t) ((dat0 (F := Ideal) V c).after 3 t) = _
  rw [after0_3]
  unfold out0_3
  rw [View.canon_unit_zero zeros3]
  simp only [View.ld_unit_zero (S := S16000x192) zeros2, View.ld_unit_zero (S := S192x128) zeros2, View.ld_unit_zero (S := S1x128) zeros2]
  funext j
  obtain ⟨h0, h2⟩ := sums_block_emb t j
  have hj2 : (j 2).val < 128 := (j 2).isLt
  refine (sum_row_point _ _ _ j ⟨(j 2).val, hj2⟩ rfl).trans ?_
  refine Eq.trans ?_ (sumsArr_apply V c _ ⟨t.val, ht⟩ ⟨(j 2).val, hj2⟩ h0 h2).symm
  unfold Cert.Spec.partSum Cert.Spec.lin
  refine Finset.sum_congr rfl fun r _ => ?_
  refine congrArg₂ (· + ·) (Finset.sum_congr rfl fun k _ => congrArg₂ (· * ·) ?_ ?_) ?_
  · exact z_block_apply V c t (ix2 r k) (ix2 (Cert.Spec.rowOf ⟨t.val, ht⟩ r) k) rfl rfl
  · exact w_block_apply V c t _
  · exact b_block_apply V c t _

end

section
variable (V : (c : Dev nD) → (b : Ref sig .tc) → Buf (Elt Ideal) ((c : Thread nD τ).loc b))

/-- What point t writes back to the second output is block t of the array of column sums of squares. -/
theorem squares_flushed (c : Dev nD) (t : Fin cfg0.N) :
    (dat0 (F := Ideal) V c).flushed 4 t = ((cfg0.win 4).blk t).view.read (Elt Ideal) (squaresArr V c) := by
  have ht : t.val < 50 := Nat.lt_of_lt_of_eq t.isLt (show cfg0.N = 50 from N_0)
  show (cfg0.win 4).cut (grid0.coords t) ((dat0 (F := Ideal) V c).after 4 t) = _
  rw [after0_4]
  unfold out0_4
  rw [View.canon_unit_zero zeros3]
  simp only [View.ld_unit_zero (S := S16000x192) zeros2, View.ld_unit_zero (S := S192x128) zeros2, View.ld_unit_zero (S := S1x128) zeros2]
  funext j
  obtain ⟨h0, h2⟩ := squares_block_emb t j
  have hj2 : (j 2).val < 128 := (j 2).isLt
  refine (sq_row_point _ _ _ j ⟨(j 2).val, hj2⟩ rfl).trans ?_
  refine Eq.trans ?_ (squaresArr_apply V c _ ⟨t.val, ht⟩ ⟨(j 2).val, hj2⟩ h0 h2).symm
  unfold Cert.Spec.partSq Cert.Spec.lin
  have hz : ∀ (r : Fin 16000) (k : Fin 192), (iblk0 (F := Ideal) V c 0 t : FVec Ideal S16000x192 .bf16) (ix2 r k)
      = (V c main_v20 : S800000x192.Idx → EReal) (ix2 (Cert.Spec.rowOf ⟨t.val, ht⟩ r) k) :=
    fun r k => z_block_apply V c t (ix2 r k) (ix2 (Cert.Spec.rowOf ⟨t.val, ht⟩ r) k) rfl rfl
  refine Finset.sum_congr rfl fun r _ => ?_
  refine congrArg₂ (· * ·) ?_ ?_
  · refine congrArg₂ (· + ·) (Finset.sum_congr rfl fun k _ => congrArg₂ (· * ·) (hz r k) ?_) ?_
    · exact w_block_apply V c t _
    · exact b_block_apply V c t _
  · refine congrArg₂ (· + ·) (Finset.sum_congr rfl fun k _ => congrArg₂ (· * ·) (hz r k) ?_) ?_
    · exact w_block_apply V c t _
    · exact b_block_apply V c t _

/-- An index of the first output is in point t's block iff each coordinate is in the block's range on its axis. -/
theorem mem_sums_block (t : Fin cfg0.N) (i : S50x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v31_0).slice (win0_3.rect t)).set ↔ _
  rw [View.set_slice_whole, Rect.mem_set_unit]
  exact Iff.rfl

/-- The same for the second output. -/
theorem mem_squares_block (t : Fin cfg0.N) (i : S50x1x128.Idx) :
    i ∈ ((cfg0.win 4).blk t).view.set ↔ ∀ a : Fin 3, win0_4.index t a * S1x1x128.size a ≤ (i a).val ∧ (i a).val < win0_4.index t a * S1x1x128.size a + S1x1x128.size a := by
  show i ∈ ((View.whole main_v31_1).slice (win0_4.rect t)).set ↔ _
  rw [View.set_slice_whole, Rect.mem_set_unit]
  exact Iff.rfl

/-- The 50 one-row blocks cover the first output: index i lies in the block of the point its row names. -/
theorem sums_cover (i : S50x1x128.Idx) :
    ∃ t : Fin cfg0.N, (cfg0.win 3).flush t = true ∧ i ∈ ((cfg0.win 3).blk t).view.set := by
  have hi0 : (i 0).val < 50 := (i 0).isLt
  have hi1 : (i 1).val < 1 := (i 1).isLt
  have hi2 : (i 2).val < 128 := (i 2).isLt
  obtain ⟨t, ht⟩ : ∃ t : Fin cfg0.N, t.val = (i 0).val :=
    ⟨⟨(i 0).val, Nat.lt_of_lt_of_eq hi0 (show 50 = cfg0.N from N_0.symm)⟩, rfl⟩
  refine ⟨t, flush0_3 t, ?_⟩
  rw [mem_sums_block]
  obtain ⟨-, -, -, -, -, -, e0, e1, e2, -⟩ := index_facts t
  intro a
  match a with
  | ⟨0, _⟩ =>
    show win0_3.index t (0 : Fin 3) * 1 ≤ (i 0).val ∧ (i 0).val < win0_3.index t (0 : Fin 3) * 1 + 1
    rw [e0]; omega
  | ⟨1, _⟩ =>
    show win0_3.index t (1 : Fin 3) * 1 ≤ (i 1).val ∧ (i 1).val < win0_3.index t (1 : Fin 3) * 1 + 1
    rw [e1]; omega
  | ⟨2, _⟩ =>
    show win0_3.index t (2 : Fin 3) * 128 ≤ (i 2).val ∧ (i 2).val < win0_3.index t (2 : Fin 3) * 128 + 128
    rw [e2]; omega

/-- The 50 one-row blocks cover the second output. -/
theorem squares_cover (i : S50x1x128.Idx) :
    ∃ t : Fin cfg0.N, (cfg0.win 4).flush t = true ∧ i ∈ ((cfg0.win 4).blk t).view.set := by
  have hi0 : (i 0).val < 50 := (i 0).isLt
  have hi1 : (i 1).val < 1 := (i 1).isLt
  have hi2 : (i 2).val < 128 := (i 2).isLt
  obtain ⟨t, ht⟩ : ∃ t : Fin cfg0.N, t.val = (i 0).val :=
    ⟨⟨(i 0).val, Nat.lt_of_lt_of_eq hi0 (show 50 = cfg0.N from N_0.symm)⟩, rfl⟩
  refine ⟨t, flush0_4 t, ?_⟩
  rw [mem_squares_block]
  obtain ⟨-, -, -, -, -, -, -, -, -, e0, e1, e2⟩ := index_facts t
  intro a
  match a with
  | ⟨0, _⟩ =>
    show win0_4.index t (0 : Fin 3) * 1 ≤ (i 0).val ∧ (i 0).val < win0_4.index t (0 : Fin 3) * 1 + 1
    rw [e0]; omega
  | ⟨1, _⟩ =>
    show win0_4.index t (1 : Fin 3) * 1 ≤ (i 1).val ∧ (i 1).val < win0_4.index t (1 : Fin 3) * 1 + 1
    rw [e1]; omega
  | ⟨2, _⟩ =>
    show win0_4.index t (2 : Fin 3) * 128 ≤ (i 2).val ∧ (i 2).val < win0_4.index t (2 : Fin 3) * 128 + 128
    rw [e2]; omega

/-- The first output after the whole grid is the array of the blocks' column sums. -/
theorem sums_final (c : Dev nD) : (dat0 (F := Ideal) V c).arrAt 3 cfg0.N = sumsArr V c :=
  (dat0 (F := Ideal) V c).arrAt_eq_of_cover 3 (sumsArr V c) (fun t _ => sums_flushed V c t) sums_cover

/-- The second output after the whole grid is the array of the blocks' column sums of squares. -/
theorem squares_final (c : Dev nD) : (dat0 (F := Ideal) V c).arrAt 4 cfg0.N = squaresArr V c :=
  (dat0 (F := Ideal) V c).arrAt_eq_of_cover 4 (squaresArr V c) (fun t _ => squares_flushed V c t) squares_cover

end

/-- THE FIRST OUTPUT, entry (t, 0, q): block t's sum over its 16000 rows of column q of z·W + b. -/
theorem sums_at (V : (c : Dev nD) → (b : Ref sig .tc) → Buf (Elt Ideal) ((c : Thread nD τ).loc b)) (c : Dev nD) (t : Fin 50) (q : Fin 128) :
    ((dat0 (F := Ideal) V c).arrAt 3 cfg0.N : S50x1x128.Idx → EReal) (ix3 t (0 : Fin 1) q)
      = Cert.Spec.partSum (fun e k => (V c main_v20 : S800000x192.Idx → EReal) (ix2 e k))
          (fun k q => (V c main_v24 : S192x128.Idx → EReal) (ix2 k q)) (fun q => (V c main_v26 : S1x128.Idx → EReal) (ix2 (0 : Fin 1) q)) t q :=
  (congrFun (sums_final V c) (ix3 t (0 : Fin 1) q)).trans (sumsArr_apply V c _ t q rfl rfl)

/-- THE SECOND OUTPUT, entry (t, 0, q): block t's sum over its 16000 rows of the square of column q of z·W + b. -/
theorem squares_at (V : (c : Dev nD) → (b : Ref sig .tc) → Buf (Elt Ideal) ((c : Thread nD τ).loc b)) (c : Dev nD) (t : Fin 50) (q : Fin 128) :
    ((dat0 (F := Ideal) V c).arrAt 4 cfg0.N : S50x1x128.Idx → EReal) (ix3 t (0 : Fin 1) q)
      = Cert.Spec.partSq (fun e k => (V c main_v20 : S800000x192.Idx → EReal) (ix2 e k))
          (fun k q => (V c main_v24 : S192x128.Idx → EReal) (ix2 k q)) (fun q => (V c main_v26 : S1x128.Idx → EReal) (ix2 (0 : Fin 1) q)) t q :=
  (congrFun (squares_final V c) (ix3 t (0 : Fin 1) q)).trans (squaresArr_apply V c _ t q rfl rfl)

end Cert.KernelIdeal.StatsValue

end
-- ==== Proof.SpecWith.lean ====
/-
  The kernel's message with the column means and variances given as two rows of 128 numbers (what the message call
  is handed), rather than computed: the kernel's own message is this one at its own means and variances.
-/
import proofs.«117771_j63462436766119_2_alg».proof.Proof.Spec

noncomputable section

namespace Cert.Spec

open Idealize.ShloMosaic
open scoped BigOperators

section
variable (Z : Fin 800000 → Fin 192 → EReal) (W : Fin 192 → Fin 128 → EReal) (B G H M V : Fin 128 → EReal)

/-- A column normalised by a given mean M and variance V. -/
def normWith (e : Fin 800000) (q : Fin 128) : EReal :=
  (lin Z W B e q - M q) * Ideal.rsqrt (V q + bnEps) * G q + H q
/-- The message at given means and variances. -/
def msgWith (e : Fin 800000) (j : Fin 64) : EReal :=
  Ideal.logistic (normWith Z W B G H M V e (hi j)) * softplus (normWith Z W B G H M V e (lo j))
end

theorem msgK_eq_msgWith (Z : Fin 800000 → Fin 192 → EReal) (W : Fin 192 → Fin 128 → EReal) (B G H : Fin 128 → EReal)
    (e : Fin 800000) (j : Fin 64) :
    msgK Z W B G H e j = msgWith Z W B G H (meanK Z W B) (varK Z W B) e j := rfl

end Cert.Spec

end
-- ==== Proof.IdealMessageValue.lean ====
/-
  What the message call leaves in its output array, entry by entry.

  Row e, column j (of 800000 rows, 64 columns) of the output holds
      logistic(n(e, 64 + j)) · softplus(n(e, j)),
  where, for a joint column q of the 128,
      n(e, q) = ((Σ_k z(e, k) · W(k, q) + b(q)) − mean(q)) · (var(q) + ε)^(-1/2) · scale(q) + shift(q),
  z the edge matrix, W the weights, and b, mean, var, scale, shift the five rows the call is handed, all as the
  call finds them; softplus x = max(x, 0) + log(1 + e^(−|x|)).

  A grid point t works on rows 6400·t … 6400·t + 6399: first the value it stores at row r, column j of its block, as
  a formula of its seven input blocks; then the blocks read as rows of the arrays; then the 125 blocks put together.
-/
import proofs.«117771_j63462436766119_2_alg».proof.Proof.IdealMessage
import proofs.«117771_j63462436766119_2_alg».proof.Proof.SpecWith
import proofs.«117771_j63462436766119_2_alg».proof.Proof.LibMatmulRows
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

set_option maxRecDepth 16384

noncomputable section

namespace Cert.KernelIdeal.MessageValue

open Idealize.ShloMosaic Idealize.ShloMosaic.TcCoe Idealize.SL.Sem
open Idealize.ShloMosaic.ValueIdx
open Idealize.ShloMosaic.Pipeline (Dat)
open Cert.KernelIdeal Cert.KernelIdeal.Gen Cert.KernelIdeal.Regions
open scoped BigOperators

/-! ## One block: the stored value at row r, column j -/

/-- A block's normalised joint column q at row r, from the seven input blocks. -/
def blockNorm (x0 : FVec Ideal S6400x192 .bf16) (x1 : FVec Ideal S192x128 .bf16) (x2 x3 x4 x5 x6 : FVec Ideal S1x128 .f32)
    (r : Fin 6400) (q : Fin 128) : EReal :=
  ((∑ k : Fin 192, x0 (ix2 r k) * x1 (ix2 k q)) + x2 (ix2 (0 : Fin 1) q) - x3 (ix2 (0 : Fin 1) q))
    * Ideal.rsqrt (x4 (ix2 (0 : Fin 1) q) + Cert.Spec.bnEps) * x5 (ix2 (0 : Fin 1) q) + x6 (ix2 (0 : Fin 1) q)

/-- The block's product z·W into the zero accumulator, at (r, q): the plain sum over the 192 inner positions. -/
theorem product_apply (x0 : FVec Ideal S6400x192 .bf16) (x1 : FVec Ideal S192x128 .bf16) (r : Fin 6400) (q : Fin 128) :
    matmul dot_S6400x192_S192x128_S6400x128_1_0_0_1_n_n none x0 x1 (constant (F := Ideal) S6400x128 .f32 0x00000000#32) (ix2 r q)
      = ∑ k : Fin 192, x0 (ix2 r k) * x1 (ix2 k q) :=
  MatmulRows.matmul_zero_apply dot_S6400x192_S192x128_S6400x128_1_0_0_1_n_n none rfl rfl rfl rfl
    (fun _ _ => rfl) (fun _ _ => rfl) x0 x1 (ix2 r q)

/-- The body's normalised block [6400,128] read at (r, q). -/
theorem norm_apply (x0 : FVec Ideal S6400x192 .bf16) (x1 : FVec Ideal S192x128 .bf16) (x2 x3 x4 x5 x6 : FVec Ideal S1x128 .f32)
    (r : Fin 6400) (q : Fin 128) :
    k1_pay2 (F := Ideal) x0 x1 x2 x4 x3 x5 x6 (ix2 r q) = blockNorm x0 x1 x2 x3 x4 x5 x6 r q := by
  unfold k1_pay2 blockNorm
  simp only [shapeCast_self]
  simp only [addf_apply, mulf_apply, subf_apply, broadcastTo_1b_ab_apply]
  rw [product_apply]
  rfl

/-! ### The non-arithmetic pointwise operations at an index -/

section Pointwise
variable {s : Shape} {φ : FTy}
theorem logistic_apply (v : FVec Ideal s φ) (i : s.Idx) : logistic v i = Ideal.logistic (v i) := rfl
theorem log1p_apply (v : FVec Ideal s φ) (i : s.Idx) : log1p v i = Ideal.log1p (v i) := rfl
theorem exp_apply (v : FVec Ideal s φ) (i : s.Idx) : exp v i = Ideal.exp (v i) := rfl
theorem absf_apply (v : FVec Ideal s φ) (i : s.Idx) : absf v i = max (v i) (-(v i)) := rfl
end Pointwise

/-- The body's softplus on one number: the comparison "x ≠ x" never holds on the extended reals, so the select takes
    its second branch, max(x, 0) + log(1 + e^(0 − |x − 0|)). -/
theorem softplus_select (a : EReal) :
    Scalar.select (Ideal.cmp .one (a - 0) (a - 0)) (a + 0) (max a 0 + Ideal.log1p (Ideal.exp (0 - max (a - 0) (-(a - 0)))))
      = Cert.Spec.softplus a := by
  have h : Ideal.cmp .one (a - 0) (a - 0) = 0#1 := by simp [Ideal.cmp]
  rw [h, select_zero, sub_zero, zero_sub]
  rfl

/-- The block's message at row r, column j: the logistic of the normalised filter column times the softplus of the
    normalised core column. -/
def blockMsg (x0 : FVec Ideal S6400x192 .bf16) (x1 : FVec Ideal S192x128 .bf16) (x2 x3 x4 x5 x6 : FVec Ideal S1x128 .f32)
    (r : Fin 6400) (j : Fin 64) : EReal :=
  Ideal.logistic (blockNorm x0 x1 x2 x3 x4 x5 x6 r (Cert.Spec.hi j))
    * Cert.Spec.softplus (blockNorm x0 x1 x2 x3 x4 x5 x6 r (Cert.Spec.lo j))

/-- Columns 0…63 of the normalised block: the core columns. -/
theorem core_apply (x0 : FVec Ideal S6400x192 .bf16) (x1 : FVec Ideal S192x128 .bf16) (x2 x3 x4 x5 x6 : FVec Ideal S1x128 .f32)
    (r : Fin 6400) (j : Fin 64) :
    k1_pay3 (F := Ideal) x0 x1 x2 x4 x3 x5 x6 (ix2 r j) = blockNorm x0 x1 x2 x3 x4 x5 x6 r (Cert.Spec.lo j) := by
  unfold k1_pay3
  exact (slice2_axis1_apply 0 _ _ r j (Cert.Spec.lo j) (Nat.zero_add _).symm).trans (norm_apply x0 x1 x2 x3 x4 x5 x6 r _)

/-- Columns 64…127 of the normalised block: the filter columns. -/
theorem filter_apply (x0 : FVec Ideal S6400x192 .bf16) (x1 : FVec Ideal S192x128 .bf16) (x2 x3 x4 x5 x6 : FVec Ideal S1x128 .f32)
    (r : Fin 6400) (j : Fin 64) :
    k1_pay4 (F := Ideal) x0 x1 x2 x4 x3 x5 x6 (ix2 r j) = blockNorm x0 x1 x2 x3 x4 x5 x6 r (Cert.Spec.hi j) := by
  unfold k1_pay4
  exact (slice2_axis1_apply 64 _ _ r j (Cert.Spec.hi j) rfl).trans (norm_apply x0 x1 x2 x3 x4 x5 x6 r _)

/-- The stored value at row r, column j of the block. -/
theorem stored_apply (x0 : FVec Ideal S6400x192 .bf16) (x1 : FVec Ideal S192x128 .bf16) (x2 x3 x4 x5 x6 : FVec Ideal S1x128 .f32)
    (r : Fin 6400) (j : Fin 64) :
    k1_pay1 (F := Ideal) (k1_pay4 (F := Ideal) x0 x1 x2 x4 x3 x5 x6) (k1_pay5 (F := Ideal) x0 x1 x2 x4 x3 x5 x6)
        (k1_pay7 (F := Ideal) x0 x1 x2 x4 x3 x5 x6) (k1_pay8 (F := Ideal) x0 x1 x2 x4 x3 x5 x6)
        (k1_pay9 (F := Ideal) x0 x1 x2 x4 x3 x5 x6) (ix2 r j)
      = blockMsg x0 x1 x2 x3 x4 x5 x6 r j := by
  have hc := core_apply x0 x1 x2 x3 x4 x5 x6 r j
  have hf := filter_apply x0 x1 x2 x3 x4 x5 x6 r j
  unfold k1_pay1 k1_pay5 k1_pay7 k1_pay8 k1_pay9 k1_pay6 blockMsg
  simp only [mulf_apply, addf_apply, subf_apply, maximumf_apply, select_apply, cmpf_apply, broadcast_apply,
    logistic_apply, log1p_apply, exp_apply, absf_apply, Ideal.cmpf_def, Ideal.ofBits_def, Ideal.ofBits_zero_f32]
  rw [hc, hf, softplus_select]

/-! ## The blocks as rows of the arrays -/

/-- The message of the block whose row r is row e of the edge matrix, and whose six other inputs are the whole weight
    matrix and the five rows: the message at (e, j) at those means and variances. -/
theorem blockMsg_eq (x0 : FVec Ideal S6400x192 .bf16) (x1 : FVec Ideal S192x128 .bf16) (x2 x3 x4 x5 x6 : FVec Ideal S1x128 .f32)
    (Z : Fin 800000 → Fin 192 → EReal) (W : Fin 192 → Fin 128 → EReal) (B G H M Vr : Fin 128 → EReal)
    (e : Fin 800000) (r : Fin 6400)
    (h0 : ∀ k, x0 (ix2 r k) = Z e k) (h1 : ∀ k q, x1 (ix2 k q) = W k q)
    (h2 : ∀ q, x2 (ix2 (0 : Fin 1) q) = B q) (h3 : ∀ q, x3 (ix2 (0 : Fin 1) q) = M q) (h4 : ∀ q, x4 (ix2 (0 : Fin 1) q) = Vr q)
    (h5 : ∀ q, x5 (ix2 (0 : Fin 1) q) = G q) (h6 : ∀ q, x6 (ix2 (0 : Fin 1) q) = H q) (j : Fin 64) :
    blockMsg x0 x1 x2 x3 x4 x5 x6 r j = Cert.Spec.msgWith Z W B G H M Vr e j := by
  unfold blockMsg blockNorm Cert.Spec.msgWith Cert.Spec.normWith Cert.Spec.lin
  simp only [h0, h1, h2, h3, h4, h5, h6]

/-- The index maps over the 125 grid points: the edge matrix and the output move one block of rows per point, the
    six other windows stay at block (0, 0). -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row 6400·t + r, for a point t of the 125 and a row r of a block, is a row of the 800000. -/
theorem row_lt (t : Fin cfg1.N) (r : Fin 6400) : t.val * 6400 + r.val < 800000 := by
  have ht : t.val < 125 := t.isLt
  have hr := r.isLt
  omega

section
variable (V : (c : Dev nD) → (b : Ref sig .tc) → Buf (Elt Ideal) ((c : Thread nD τ).loc b))

/-- The edge matrix's block at point t holds rows 6400·t … 6400·t + 6399 of the matrix. -/
theorem edges_block_apply (c : Dev nD) (t : Fin cfg1.N) (r : Fin 6400) (k : Fin 192) :
    (iblk1 (F := Ideal) V c 0 t : FVec Ideal S6400x192 .bf16) (ix2 r k)
      = (V c main_v20 : S800000x192.Idx → EReal) (ix2 ⟨t.val * 6400 + r.val, row_lt t r⟩ k) := by
  obtain ⟨e0, e1, -⟩ := index_facts t
  unfold iblk1
  rw [View.read_apply]
  show V c main_v20 _ = V c main_v20 _
  congr 1
  funext a
  apply Fin.ext
  match a with
  | ⟨0, _⟩ => show win1_0.index t (0 : Fin 2) * 6400 + 1 * r.val = t.val * 6400 + r.val; rw [e0]; omega
  | ⟨1, _⟩ => show win1_0.index t (1 : Fin 2) * 192 + 1 * k.val = k.val; rw [e1]; omega
/-- The weights' block at every point is the whole weight matrix. -/
theorem weights_block_apply (c : Dev nD) (t : Fin cfg1.N) (k : Fin 192) (q : Fin 128) :
    (iblk1 (F := Ideal) V c 1 t : FVec Ideal S192x128 .bf16) (ix2 k q)
      = (V c main_v24 : S192x128.Idx → EReal) (ix2 k q) := by
  obtain ⟨e0, e1⟩ : win1_1.index t (0 : Fin 2) = 0 ∧ win1_1.index t (1 : Fin 2) = 0 :=
    ⟨(index_facts t).2.2.1, (index_facts t).2.2.2.1⟩
  unfold iblk1
  rw [View.read_apply]
  show V c main_v24 _ = V c main_v24 _
  congr 1
  funext a
  apply Fin.ext
  match a with
  | ⟨0, _⟩ => show win1_1.index t (0 : Fin 2) * 192 + 1 * k.val = k.val; rw [e0]; omega
  | ⟨1, _⟩ => show win1_1.index t (1 : Fin 2) * 128 + 1 * q.val = q.val; rw [e1]; omega

/-- The bias row's block at every point is the whole row. -/
theorem bias_block_apply (c : Dev nD) (t : Fin cfg1.N) (q : Fin 128) :
    (iblk1 (F := Ideal) V c 2 t : FVec Ideal S1x128 .f32) (ix2 (0 : Fin 1) q)
      = (V c main_v26 : S1x128.Idx → EReal) (ix2 (0 : Fin 1) q) := by
  obtain ⟨e0, e1⟩ : win1_2.index t (0 : Fin 2) = 0 ∧ win1_2.index t (1 : Fin 2) = 0 := ⟨(index_facts t).2.2.2.2.1, (index_facts t).2.2.2.2.2.1⟩
  unfold iblk1
  rw [View.read_apply]
  show V c main_v26 _ = V c main_v26 _
  congr 1
  funext a
  apply Fin.ext
  match a with
  | ⟨0, _⟩ => show win1_2.index t (0 : Fin 2) * 1 + 1 * 0 = 0; rw [e0]
  | ⟨1, _⟩ => show win1_2.index t (1 : Fin 2) * 128 + 1 * q.val = q.val; rw [e1]; omega

/-- The mean row's block at every point is the whole row. -/
theorem mean_block_apply (c : Dev nD) (t : Fin cfg1.N) (q : Fin 128) :
    (iblk1 (F := Ideal) V c 3 t : FVec Ideal S1x128 .f32) (ix2 (0 : Fin 1) q)
      = (V c main_v35 : S1x128.Idx → EReal) (ix2 (0 : Fin 1) q) := by
  obtain ⟨e0, e1⟩ : win1_3.index t (0 : Fin 2) = 0 ∧ win1_3.index t (1 : Fin 2) = 0 := ⟨(index_facts t).2.2.2.2.2.2.1, (index_facts t).2.2.2.2.2.2.2.1⟩
  unfold iblk1
  rw [View.read_apply]
  show V c main_v35 _ = V c main_v35 _
  congr 1
  funext a
  apply Fin.ext
  match a with
  | ⟨0, _⟩ => show win1_3.index t (0 : Fin 2) * 1 + 1 * 0 = 0; rw [e0]
  | ⟨1, _⟩ => show win1_3.index t (1 : Fin 2) * 128 + 1 * q.val = q.val; rw [e1]; omega

/-- The variance row's block at every point is the whole row. -/
theorem variance_block_apply (c : Dev nD) (t : Fin cfg1.N) (q : Fin 128) :
    (iblk1 (F := Ideal) V c 4 t : FVec Ideal S1x128 .f32) (ix2 (0 : Fin 1) q)
      = (V c main_v41 : S1x128.Idx → EReal) (ix2 (0 : Fin 1) q) := by
  obtain ⟨e0, e1⟩ : win1_4.index t (0 : Fin 2) = 0 ∧ win1_4.index t (1 : Fin 2) = 0 := ⟨(index_facts t).2.2.2.2.2.2.2.2.1, (index_facts t).2.2.2.2.2.2.2.2.2.1⟩
  unfold iblk1
  rw [View.read_apply]
  show V c main_v41 _ = V c main_v41 _
  congr 1
  funext a
  apply Fin.ext
  match a with
  | ⟨0, _⟩ => show win1_4.index t (0 : Fin 2) * 1 + 1 * 0 = 0; rw [e0]
  | ⟨1, _⟩ => show win1_4.index t (1 : Fin 2) * 128 + 1 * q.val = q.val; rw [e1]; omega

/-- The scale row's block at every point is the whole row. -/
theorem scale_block_apply (c : Dev nD) (t : Fin cfg1.N) (q : Fin 128) :
    (iblk1 (F := Ideal) V c 5 t : FVec Ideal S1x128 .f32) (ix2 (0 : Fin 1) q)
      = (V c main_v28 : S1x128.Idx → EReal) (ix2 (0 : Fin 1) q) := by
  obtain ⟨e0, e1⟩ : win1_5.index t (0 : Fin 2) = 0 ∧ win1_5.index t (1 : Fin 2) = 0 := ⟨(index_facts t).2.2.2.2.2.2.2.2.2.2.1, (index_facts t).2.2.2.2.2.2.2.2.2.2.2.1⟩
  unfold iblk1
  rw [View.read_apply]
  show V c main_v28 _ = V c main_v28 _
  congr 1
  funext a
  apply Fin.ext
  match a with
  | ⟨0, _⟩ => show win1_5.index t (0 : Fin 2) * 1 + 1 * 0 = 0; rw [e0]
  | ⟨1, _⟩ => show win1_5.index t (1 : Fin 2) * 128 + 1 * q.val = q.val; rw [e1]; omega

/-- The shift row's block at every point is the whole row. -/
theorem shift_block_apply (c : Dev nD) (t : Fin cfg1.N) (q : Fin 128) :
    (iblk1 (F := Ideal) V c 6 t : FVec Ideal S1x128 .f32) (ix2 (0 : Fin 1) q)
      = (V c main_v30 : S1x128.Idx → EReal) (ix2 (0 : Fin 1) q) := by
  obtain ⟨e0, e1⟩ : win1_6.index t (0 : Fin 2) = 0 ∧ win1_6.index t (1 : Fin 2) = 0 := ⟨(index_facts t).2.2.2.2.2.2.2.2.2.2.2.2.1, (index_facts t).2.2.2.2.2.2.2.2.2.2.2.2.2.1⟩
  unfold iblk1
  rw [View.read_apply]
  show V c main_v30 _ = V c main_v30 _
  congr 1
  funext a
  apply Fin.ext
  match a with
  | ⟨0, _⟩ => show win1_6.index t (0 : Fin 2) * 1 + 1 * 0 = 0; rw [e0]
  | ⟨1, _⟩ => show win1_6.index t (1 : Fin 2) * 128 + 1 * q.val = q.val; rw [e1]; omega

/-! ## The 125 blocks put together -/

/-- What the output array ends holding: at row e, column j, the message at the arrays the call finds. -/
def msgArray (c : Dev nD) : S800000x64.Idx → EReal := fun i =>
  Cert.Spec.msgWith (fun e k => (V c main_v20 : S800000x192.Idx → EReal) (ix2 e k))
    (fun k q => (V c main_v24 : S192x128.Idx → EReal) (ix2 k q))
    (fun q => (V c main_v26 : S1x128.Idx → EReal) (ix2 (0 : Fin 1) q))
    (fun q => (V c main_v28 : S1x128.Idx → EReal) (ix2 (0 : Fin 1) q))
    (fun q => (V c main_v30 : S1x128.Idx → EReal) (ix2 (0 : Fin 1) q))
    (fun q => (V c main_v35 : S1x128.Idx → EReal) (ix2 (0 : Fin 1) q))
    (fun q => (V c main_v41 : S1x128.Idx → EReal) (ix2 (0 : Fin 1) q))
    ⟨(i 0).val, idx2_lt0 i⟩ ⟨(i 1).val, idx2_lt1 i⟩

theorem zero_offsets : (![0, 0] : Fin 2 → Nat) = fun _ => 0 := funext fun a => by fin_cases a <;> rfl

/-- What point t writes back is block t of that array: row r of the output block is row 6400·t + r of the array,
    and the edge block's row r is the same row of the edge matrix. -/
theorem flushed_eq (c : Dev nD) (t : Fin cfg1.N) :
    (dat1 (F := Ideal) V c).flushed 7 t = ((cfg1.win 7).blk t).view.read (Elt Ideal) (msgArray V c) := by
  show (cfg1.win 7).cut (grid1.coords t) ((dat1 (F := Ideal) V c).after 7 t) = _
  rw [after1_7]
  unfold out1_7
  rw [View.canon_unit_zero zero_offsets]
  simp only [View.ld_unit_zero (S := S6400x192) zero_offsets, View.ld_unit_zero (S := S192x128) zero_offsets,
    View.ld_unit_zero (S := S1x128) zero_offsets]
  funext y
  obtain ⟨r, j, rfl⟩ : ∃ (r : Fin 6400) (j : Fin 64), y = ix2 r j := ⟨y 0, y 1, eq_ix2 y⟩
  refine (stored_apply (iblk1 V c 0 t) (iblk1 V c 1 t) (iblk1 V c 2 t) (iblk1 V c 3 t) (iblk1 V c 4 t) (iblk1 V c 5 t)
    (iblk1 V c 6 t) r j).trans ?_
  refine (blockMsg_eq _ _ _ _ _ _ _
    (fun e k => (V c main_v20 : S800000x192.Idx → EReal) (ix2 e k))
    (fun k q => (V c main_v24 : S192x128.Idx → EReal) (ix2 k q))
    (fun q => (V c main_v26 : S1x128.Idx → EReal) (ix2 (0 : Fin 1) q))
    (fun q => (V c main_v28 : S1x128.Idx → EReal) (ix2 (0 : Fin 1) q))
    (fun q => (V c main_v30 : S1x128.Idx → EReal) (ix2 (0 : Fin 1) q))
    (fun q => (V c main_v35 : S1x128.Idx → EReal) (ix2 (0 : Fin 1) q))
    (fun q => (V c main_v41 : S1x128.Idx → EReal) (ix2 (0 : Fin 1) q))
    ⟨t.val * 6400 + r.val, row_lt t r⟩ r
    (edges_block_apply V c t r) (weights_block_apply V c t) (bias_block_apply V c t) (mean_block_apply V c t)
    (variance_block_apply V c t) (scale_block_apply V c t) (shift_block_apply V c t) j).trans ?_
  show _ = msgArray V c (((cfg1.win 7).blk t).view.emb (ix2 r j))
  obtain ⟨-, -, -, -, -, -, -, -, -, -, -, -, -, -, e0, e1⟩ := index_facts t
  have he : (⟨t.val * 6400 + r.val, row_lt t r⟩ : Fin 800000)
      = ⟨((((cfg1.win 7).blk t).view.emb (ix2 r j) : S800000x64.Idx) 0).val, idx2_lt0 _⟩ :=
    Fin.ext (by show t.val * 6400 + r.val = win1_7.index t (0 : Fin 2) * 6400 + 1 * r.val; rw [e0]; omega)
  have hj : j = ⟨((((cfg1.win 7).blk t).view.emb (ix2 r j) : S800000x64.Idx) 1).val, idx2_lt1 _⟩ :=
    Fin.ext (by show j.val = win1_7.index t (1 : Fin 2) * 64 + 1 * j.val; rw [e1]; omega)
  unfold msgArray
  exact congrArg₂ _ he hj

/-- An index of the output array is in point t's block iff each coordinate is in the block's range on its axis. -/
theorem mem_block (t : Fin cfg1.N) (i : S800000x64.Idx) :
    i ∈ ((cfg1.win 7).blk t).view.set
      ↔ ∀ a : Fin 2, win1_7.index t a * S6400x64.size a ≤ (i a).val
          ∧ (i a).val < win1_7.index t a * S6400x64.size a + S6400x64.size a := by
  show i ∈ ((View.whole main_v42).slice (win1_7.rect t)).set ↔ _
  rw [View.set_slice_whole, Rect.mem_set_unit]
  exact Iff.rfl

/-- Every index of the output array is in some point's block: row e is in the block of point e / 6400. -/
theorem covered (i : S800000x64.Idx) :
    ∃ t : Fin cfg1.N, (cfg1.win 7).flush t = true ∧ i ∈ ((cfg1.win 7).blk t).view.set := by
  have hi0 : (i 0).val < 800000 := idx2_lt0 i
  have hi1 : (i 1).val < 64 := idx2_lt1 i
  have hN : cfg1.N = 125 := N_1
  have ht : (i 0).val / 6400 < cfg1.N := by rw [hN]; omega
  obtain ⟨-, -, -, -, -, -, -, -, -, -, -, -, -, -, e0, e1⟩ := index_facts ⟨(i 0).val / 6400, ht⟩
  refine ⟨⟨(i 0).val / 6400, ht⟩, flush1_7 _, ?_⟩
  rw [mem_block]
  intro a
  match a with
  | ⟨0, _⟩ =>
    show win1_7.index ⟨(i 0).val / 6400, ht⟩ (0 : Fin 2) * 6400 ≤ (i 0).val
      ∧ (i 0).val < win1_7.index ⟨(i 0).val / 6400, ht⟩ (0 : Fin 2) * 6400 + 6400
    rw [e0]
    show (i 0).val / 6400 * 6400 ≤ (i 0).val ∧ (i 0).val < (i 0).val / 6400 * 6400 + 6400
    omega
  | ⟨1, _⟩ =>
    show win1_7.index ⟨(i 0).val / 6400, ht⟩ (1 : Fin 2) * 64 ≤ (i 1).val
      ∧ (i 1).val < win1_7.index ⟨(i 0).val / 6400, ht⟩ (1 : Fin 2) * 64 + 64
    rw [e1]
    omega

/-- The output array after the whole grid. -/
theorem message_array (c : Dev nD) : (dat1 (F := Ideal) V c).arrAt 7 cfg1.N = msgArray V c :=
  (dat1 (F := Ideal) V c).arrAt_eq_of_cover 7 (msgArray V c) (fun t _ => flushed_eq V c t) covered

/-- THE MESSAGE CALL'S OUTPUT, entry by entry: row e, column j holds the message at (e, j) of the edge matrix, the
    weights, the bias, scale and shift rows, and the mean and variance rows, as the call finds them. -/
theorem message_at (c : Dev nD) (e : Fin 800000) (j : Fin 64) :
    ((dat1 (F := Ideal) V c).arrAt 7 cfg1.N : S800000x64.Idx → EReal) (ix2 e j)
      = Cert.Spec.msgWith (fun e k => (V c main_v20 : S800000x192.Idx → EReal) (ix2 e k))
          (fun k q => (V c main_v24 : S192x128.Idx → EReal) (ix2 k q))
          (fun q => (V c main_v26 : S1x128.Idx → EReal) (ix2 (0 : Fin 1) q))
          (fun q => (V c main_v28 : S1x128.Idx → EReal) (ix2 (0 : Fin 1) q))
          (fun q => (V c main_v30 : S1x128.Idx → EReal) (ix2 (0 : Fin 1) q))
          (fun q => (V c main_v35 : S1x128.Idx → EReal) (ix2 (0 : Fin 1) q))
          (fun q => (V c main_v41 : S1x128.Idx → EReal) (ix2 (0 : Fin 1) q)) e j := by
  rw [message_array]
  rfl
end

end Cert.KernelIdeal.MessageValue

end
-- ==== Proof.LibRealSum.lean ====
/-
  Finite sums of real numbers taken inside the extended reals.

  The extended reals do not distribute (∞ · (1 + (-1)) is not ∞ + (-∞)), so a factor cannot in general be moved
  across a sum there. When every summand and the factor are real numbers it can: the sum of the reals' images is the
  image of the real sum, and the real numbers are a field. The lemmas here are that statement in the shape a
  contraction with folded scales needs: Σ_k (a_k · s) · (b_k · t) = (Σ_k a_k · b_k) · (t · s).
-/
import Idealize.ShloMosaic.PureOps.Ideal

noncomputable section

namespace Cert.Lib.RealSum

/-- A finite sum of real numbers, taken in the extended reals, is the real sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Σ_k (a_k · s) · (b_k · t) = (Σ_k a_k · b_k) · (t · s) for real numbers a_k, b_k, s, t, read in the extended reals:
    a scale on each operand of a contraction is one scale on the contraction. -/
theorem sum_rescale_real {n : ℕ} (a b : Fin n → ℝ) (s t : ℝ) :
    ∑ k, (((a k : ℝ) : EReal) * (s : EReal)) * (((b k : ℝ) : EReal) * (t : EReal))
      = (∑ k, ((a k : ℝ) : EReal) * ((b k : ℝ) : EReal)) * ((t : EReal) * (s : EReal)) := by
  simp only [← EReal.coe_mul]
  rw [coe_sum, coe_sum, ← EReal.coe_mul, Finset.sum_mul]
  exact congrArg _ (Finset.sum_congr rfl fun k _ => by ring)

/-- The same for extended reals each known to be a real number. -/
theorem sum_rescale {n : ℕ} (q w : Fin n → EReal) (s t : EReal)
    (hq : ∀ k, ∃ r : ℝ, q k = (r : EReal)) (hw : ∀ k, ∃ r : ℝ, w k = (r : EReal))
    (hs : ∃ r : ℝ, s = (r : EReal)) (ht : ∃ r : ℝ, t = (r : EReal)) :
    ∑ k, (q k * s) * (w k * t) = (∑ k, q k * w k) * (t * s) := by
  choose a ha using hq
  choose b hb using hw
  obtain ⟨s', rfl⟩ := hs
  obtain ⟨t', rfl⟩ := ht
  simp only [ha, hb]
  exact sum_rescale_real a b s' t'

end Cert.Lib.RealSum

end
-- ==== Proof.LibSumIndex.lean ====
/-
  Finite sums re-indexed, in any additive commutative monoid (so on the extended reals with no finiteness):

  * `sum_blocks`: a sum over `Fin N` with `N = J * B` is the double sum over its `J` consecutive blocks of length
    `B`, position `a * B + b` — what joins a sum over one long axis (a flattened `x.reshape(n, -1)`, or all the rows of
    an array) to the same sum taken block by block (a grid walking the axis, or the axis split in two);
  * `sum_idx4`, `sum_idx1`: a sum over the index set of a rank-4 (rank-1) shape is the iterated sum over its
    coordinates, with the index rebuilt by `ix4` (`ix1`) — the companions of the library's `sum_idx2`.
-/
import Idealize.ShloMosaic.Lib.ValueIdx

noncomputable section

open scoped BigOperators

namespace Cert.LibSumIndex

open Idealize.ShloMosaic Idealize.ShloMosaic.ValueIdx

/-- A sum over the first `J * B` indices is the sum over its `J` consecutive blocks of length `B`. -/
theorem sum_blocks {M : Type*} [AddCommMonoid M] (J B N : ℕ) (hN : J * B = N) (f : Fin N → M) :
    ∑ k, f k = ∑ a : Fin J, ∑ b : Fin B, f ⟨a.val * B + b.val, by
      subst hN
      calc a.val * B + b.val < a.val * B + B := Nat.add_lt_add_left b.isLt _
        _ = (a.val + 1) * B := (Nat.succ_mul _ _).symm
        _ ≤ J * B := Nat.mul_le_mul_right _ a.isLt⟩ := by
  subst hN
  rw [← Equiv.sum_comp finProdFinEquiv f, Fintype.sum_prod_type]
  refine Finset.sum_congr rfl fun a _ => Finset.sum_congr rfl fun b _ => congrArg f (Fin.ext ?_)
  show b.val + B * a.val = a.val * B + b.val
  rw [Nat.mul_comm, Nat.add_comm]

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    ⟨fun i => i 0, fun a => ix1 a, fun i => (eq_ix1 i).symm, fun _ => rfl⟩
  rw [← Equiv.sum_comp e.symm f]
  rfl

end Cert.LibSumIndex

end
-- ==== Proof.SpecLaw.lean ====
/-
  The kernel's message equals the reference's message, as functions on the extended reals.

  The two sides differ in two places only. The kernel adds each column's sum and sum of squares block by block
  (50 blocks of 16000 rows); a finite sum in a commutative monoid does not depend on the grouping, so these are the
  sums over all 800000 rows. And the kernel reads the variance off the two sums as max(E[x²] − E[x]², 0), where the
  reference takes the mean of (x − E[x])². Over the real numbers, with μ = (Σ x)/N,
      Σ (x − μ)² = Σ x² − 2 μ Σ x + N μ² = Σ x² − N μ²,
  so (Σ x²)/N − μ² = (Σ (x − μ)²)/N, and the right side is a mean of squares, hence not negative, so the max with 0
  is its left argument.

  This identity uses distributivity and cancellation, which the extended reals do not have (∞ − ∞ is not 0), so it
  is needed that every entry of z, of the weights and of the bias is a real number: then every z·W + b is a real
  number and both variances are images of real numbers. The scale and the shift are never moved, so they may be any
  extended reals.
-/
import proofs.«117771_j63462436766119_2_alg».proof.Proof.Spec
import proofs.«117771_j63462436766119_2_alg».proof.Proof.LibRealSum
import proofs.«117771_j63462436766119_2_alg».proof.Proof.LibSumIndex
import Idealize.ShloMosaic.Lib.IdealHost

noncomputable section

namespace Cert.Spec

open Idealize.ShloMosaic
open scoped BigOperators

/-! ## The edge count, and division by it -/

/-- The edge count's float word denotes the real number 800000. -/
theorem nEdges_eq : nEdges = ((800000 : ℝ) : EReal) := by
  unfold nEdges
  simp [Ideal.ofBits, Ideal.ieee, -EReal.coe_mul]; norm_num

/-- A real number (added to zero) divided by the edge count is the real quotient. -/
theorem div_nEdges (s : ℝ) : Ideal.div (0 + (s : EReal)) nEdges = ((s * (1 / 800000) : ℝ) : EReal) := by
  rw [zero_add, nEdges_eq, Ideal.div_coe (by norm_num), ← EReal.coe_mul]

/-! ## The variance identity over the real numbers -/

/-- With μ the mean, the mean of squares minus μ² is the mean squared deviation. -/
theorem real_var_identity (x : Fin 800000 → ℝ) (μ : ℝ) (hμ : μ = (∑ e, x e) * (1 / 800000)) :
    (∑ e, x e * x e) * (1 / 800000) - μ * μ = (∑ e, (x e - μ) * (x e - μ)) * (1 / 800000) := by
  have h1 : ∑ e, (x e - μ) * (x e - μ)
      = (∑ e, x e * x e) - 2 * μ * (∑ e, x e) + 800000 * (μ * μ) := by
    have hexp : ∀ e, (x e - μ) * (x e - μ) = x e * x e - 2 * μ * x e + μ * μ := fun e => by ring
    simp only [hexp]
    rw [Finset.sum_add_distrib, Finset.sum_sub_distrib, ← Finset.mul_sum, Finset.sum_const,
      Finset.card_univ, Fintype.card_fin, nsmul_eq_mul]
    norm_num
  have h2 : ∑ e, x e = 800000 * μ := by rw [hμ]; ring
  rw [h1, h2]; ring

/-! ## One column of real numbers: its mean and its two variances -/

/-- The mean of a column of real numbers. -/
theorem col_mean (c : Fin 800000 → EReal) (x : Fin 800000 → ℝ) (hc : ∀ e, c e = ((x e : ℝ) : EReal)) :
    Ideal.div (0 + ∑ e, c e) nEdges = (((∑ e, x e) * (1 / 800000) : ℝ) : EReal) := by
  simp only [hc]
  rw [Cert.Lib.RealSum.coe_sum, div_nEdges]

/-- The reference's variance of a column of real numbers about a real number μ. -/
theorem col_var_ref (c : Fin 800000 → EReal) (x : Fin 800000 → ℝ) (hc : ∀ e, c e = ((x e : ℝ) : EReal)) (μ : ℝ) :
    Ideal.div (0 + ∑ e, (c e - (μ : EReal)) * (c e - (μ : EReal))) nEdges
      = (((∑ e, (x e - μ) * (x e - μ)) * (1 / 800000) : ℝ) : EReal) := by
  simp only [hc, ← EReal.coe_sub, ← EReal.coe_mul]
  rw [Cert.Lib.RealSum.coe_sum, div_nEdges]

/-- The kernel's variance of a column of real numbers, μ being the column's mean: the same real number. -/
theorem col_var_ker (c : Fin 800000 → EReal) (x : Fin 800000 → ℝ) (hc : ∀ e, c e = ((x e : ℝ) : EReal)) (μ : ℝ)
    (hμ : μ = (∑ e, x e) * (1 / 800000)) :
    max (Ideal.div (0 + ∑ e, c e * c e) nEdges - (μ : EReal) * (μ : EReal)) 0
      = (((∑ e, (x e - μ) * (x e - μ)) * (1 / 800000) : ℝ) : EReal) := by
  simp only [hc, ← EReal.coe_mul]
  rw [Cert.Lib.RealSum.coe_sum, div_nEdges, ← EReal.coe_sub, real_var_identity x μ hμ]
  exact max_eq_left (EReal.coe_nonneg.mpr
    (mul_nonneg (Finset.sum_nonneg fun e _ => mul_self_nonneg _) (by norm_num)))

/-! ## The kernel's block sums are sums over all rows -/

/-- A sum taken block by block over the 50 blocks of 16000 rows is the sum over the 800000 rows. -/
theorem sum_rows {M : Type*} [AddCommMonoid M] (f : Fin 800000 → M) :
    ∑ t : Fin 50, ∑ r : Fin 16000, f (rowOf t r) = ∑ e, f e :=
  (Cert.LibSumIndex.sum_blocks 50 16000 800000 rfl f).symm

section Kernel
variable (Z : Fin 800000 → Fin 192 → EReal) (W : Fin 192 → Fin 128 → EReal) (B : Fin 128 → EReal)

theorem meanK_eq (q : Fin 128) : meanK Z W B q = Ideal.div (0 + ∑ e, lin Z W B e q) nEdges := by
  unfold meanK partSum
  exact congrArg (fun s => Ideal.div (0 + s) nEdges) (sum_rows fun e => lin Z W B e q)

theorem varK_eq (q : Fin 128) :
    varK Z W B q
      = max (Ideal.div (0 + ∑ e, lin Z W B e q * lin Z W B e q) nEdges - meanK Z W B q * meanK Z W B q) 0 := by
  unfold varK partSq
  exact congrArg (fun s => max (Ideal.div (0 + s) nEdges - meanK Z W B q * meanK Z W B q) 0)
    (sum_rows fun e => lin Z W B e q * lin Z W B e q)

/-- Every entry of z·W + b is a real number when the entries of z, W and b are. -/
theorem lin_real (hZ : ∀ e k, ∃ r : ℝ, Z e k = (r : EReal)) (hW : ∀ k q, ∃ r : ℝ, W k q = (r : EReal))
    (hB : ∀ q, ∃ r : ℝ, B q = (r : EReal)) :
    ∃ x : Fin 800000 → Fin 128 → ℝ, ∀ e q, lin Z W B e q = ((x e q : ℝ) : EReal) := by
  choose z hz using hZ
  choose w hw using hW
  choose b hb using hB
  refine ⟨fun e q => (∑ k, z e k * w k q) + b q, fun e q => ?_⟩
  unfold lin
  simp only [hz, hw, hb, ← EReal.coe_mul]
  rw [Cert.Lib.RealSum.coe_sum, ← EReal.coe_add]

/-- A joint column of real numbers that agrees with a column of one group has that column's mean and variance. -/
theorem stats_eq (Wl : Fin 192 → Fin 64 → EReal) (bl : Fin 64 → EReal) (q : Fin 128) (j : Fin 64)
    (h : ∀ e, lin Z W B e q = linR Z Wl bl e j) (x : Fin 800000 → ℝ)
    (hx : ∀ e, lin Z W B e q = ((x e : ℝ) : EReal)) :
    meanK Z W B q = meanR Z Wl bl j ∧ varK Z W B q = varR Z Wl bl j := by
  have hxR : ∀ e, linR Z Wl bl e j = ((x e : ℝ) : EReal) := fun e => (h e).symm.trans (hx e)
  have hmK : meanK Z W B q = (((∑ e, x e) * (1 / 800000) : ℝ) : EReal) :=
    (meanK_eq Z W B q).trans (col_mean (fun e => lin Z W B e q) x hx)
  have hmR : meanR Z Wl bl j = (((∑ e, x e) * (1 / 800000) : ℝ) : EReal) := by
    unfold meanR
    exact col_mean (fun e => linR Z Wl bl e j) x hxR
  refine ⟨hmK.trans hmR.symm, ?_⟩
  have hvK : varK Z W B q
      = (((∑ e, (x e - (∑ e, x e) * (1 / 800000)) * (x e - (∑ e, x e) * (1 / 800000))) * (1 / 800000) : ℝ) : EReal) := by
    rw [varK_eq, hmK]
    exact col_var_ker (fun e => lin Z W B e q) x hx _ rfl
  have hvR : varR Z Wl bl j
      = (((∑ e, (x e - (∑ e, x e) * (1 / 800000)) * (x e - (∑ e, x e) * (1 / 800000))) * (1 / 800000) : ℝ) : EReal) := by
    unfold varR
    rw [hmR]
    exact col_var_ref (fun e => linR Z Wl bl e j) x hxR _
  exact hvK.trans hvR.symm

/-- Hence the normalised joint column is the group's normalised column, for any scale and shift. -/
theorem normK_eq_normR (G H : Fin 128 → EReal) (Wl : Fin 192 → Fin 64 → EReal) (bl gl hl : Fin 64 → EReal)
    (q : Fin 128) (j : Fin 64) (h : ∀ e, lin Z W B e q = linR Z Wl bl e j) (x : Fin 800000 → ℝ)
    (hx : ∀ e, lin Z W B e q = ((x e : ℝ) : EReal)) (hG : G q = gl j) (hH : H q = hl j) (e : Fin 800000) :
    normK Z W B G H e q = normR Z Wl bl gl hl e j := by
  obtain ⟨hm, hv⟩ := stats_eq Z W B Wl bl q j h x hx
  unfold normK normR
  rw [h e, hm, hv, hG, hH]

end Kernel

/-! ## The messages -/

theorem msgK_eq_msgR
    (Z : Fin 800000 → Fin 192 → EReal) (W : Fin 192 → Fin 128 → EReal) (B G H : Fin 128 → EReal)
    (Wc : Fin 192 → Fin 64 → EReal) (bc gc hc : Fin 64 → EReal) (Wf : Fin 192 → Fin 64 → EReal) (bf gf hf : Fin 64 → EReal)
    (hZ : ∀ e k, ∃ r : ℝ, Z e k = (r : EReal)) (hW : ∀ k q, ∃ r : ℝ, W k q = (r : EReal)) (hB : ∀ q, ∃ r : ℝ, B q = (r : EReal))
    (hWc : ∀ k j, W k (lo j) = Wc k j) (hWf : ∀ k j, W k (hi j) = Wf k j)
    (hbc : ∀ j, B (lo j) = bc j) (hbf : ∀ j, B (hi j) = bf j)
    (hgc : ∀ j, G (lo j) = gc j) (hgf : ∀ j, G (hi j) = gf j)
    (hhc : ∀ j, H (lo j) = hc j) (hhf : ∀ j, H (hi j) = hf j)
    (e : Fin 800000) (j : Fin 64) :
    msgK Z W B G H e j = msgR Z Wc bc gc hc Wf bf gf hf e j := by
  obtain ⟨x, hx⟩ := lin_real Z W B hZ hW hB
  have hlo : ∀ e, lin Z W B e (lo j) = linR Z Wc bc e j := fun e => by
    unfold lin linR
    simp only [hWc, hbc]
  have hhi : ∀ e, lin Z W B e (hi j) = linR Z Wf bf e j := fun e => by
    unfold lin linR
    simp only [hWf, hbf]
  have hnlo := normK_eq_normR Z W B G H Wc bc gc hc (lo j) j hlo (fun e => x e (lo j)) (fun e => hx e (lo j))
    (hgc j) (hhc j) e
  have hnhi := normK_eq_normR Z W B G H Wf bf gf hf (hi j) j hhi (fun e => x e (hi j)) (fun e => hx e (hi j))
    (hgf j) (hhf j) e
  unfold msgK msgR Ideal.logistic
  rw [hnhi, hnlo]

end Cert.Spec

end
-- ==== Proof.RefRead.lean ====
/-
  The reference program's message array, read at an index.

  For an edge e and a column j the reference's message is
      1 / (1 + e^(−f)) · softplus(c),
  where c and f are the core and the filter group's normalised linear layers at (e, j): with z the edge matrix,
  x = z·Wᵀ + b one group's linear layer, the column mean m = (0 + Σ_e x(e, j)) / n, the column variance
  v = (0 + Σ_e (x(e, j) − m)²) / n, the normalised value is ((x(e, j) − m) · (v + ε)^(-1/2)) · γ(j) + β(j).
  The edge matrix z is kept as it is; n and ε stay the two float words the program spells.
-/
import proofs.«117771_j63462436766119_2_alg».proof.Proof.Gen.ReferenceIdeal.Read
import proofs.«117771_j63462436766119_2_alg».proof.Proof.Spec
import Idealize.ShloMosaic.Lib.ValueIdx
import Idealize.ShloMosaic.PureOps.Ideal.Laws
import Idealize.ShloMosaic.Lib.IdealHost

noncomputable section

namespace Cert.RefRead

open Cert.ReferenceIdeal Cert.ReferenceIdeal.Read Idealize.ShloMosaic Idealize.ShloMosaic.ValueIdx
open scoped BigOperators

/-- The two float words of the program, under the names the formulas use. -/
theorem nEdges_eq : Ideal.ofBits .f32 0x49435000#32 = Cert.Spec.nEdges := by rw [Cert.Spec.nEdges]
theorem bnEps_eq : Ideal.ofBits .f32 0x3727C5AC#32 = Cert.Spec.bnEps := by rw [Cert.Spec.bnEps]

/-! ### The core group -/

/-- The linear layer: row e of z times column j of the transposed weight, plus the bias. -/
theorem lin_core (x0 : (⟨S50000x64, .f32⟩ : BufTy).Contents (Elt Ideal)) (x1 : (⟨S800000x64, .f32⟩ : BufTy).Contents (Elt Ideal)) (x6 : (⟨S64x192, .f32⟩ : BufTy).Contents (Elt Ideal)) (x7 : (⟨S64, .f32⟩ : BufTy).Contents (Elt Ideal)) (x10 : (⟨S800000x2, .i32⟩ : BufTy).Contents (Elt Ideal)) (e : Fin 800000) (j : Fin 64) :
    val_main_v23 (F := Ideal) x0 x1 x6 x7 x10 (ix2 e j) = Cert.Spec.linR (fun e k => val_main_v18 (F := Ideal) x0 x1 x10 (ix2 e k)) (fun k j => x6 (ix2 j k)) (fun j => x7 (ix1 j)) e j := by
  rw [val_main_v23_apply, val_main_v20_apply, val_main_v22_apply, val_main_v21_apply]
  unfold Cert.Spec.linR
  refine congrArg₂ (· + ·) (Finset.sum_congr rfl fun k _ => ?_) ?_
  · rw [val_main_v19_apply]
    refine congrArg₂ (· * ·) ?_ ?_
    · exact congrArg (val_main_v18 (F := Ideal) x0 x1 x10) (funext fun a => match a with | ⟨0, _⟩ => rfl | ⟨1, _⟩ => rfl)
    · exact congrArg x6 (funext fun a => match a with | ⟨0, _⟩ => rfl | ⟨1, _⟩ => rfl)
  · exact congrArg x7 (funext fun a => match a with | ⟨0, _⟩ => rfl)

/-- The column mean: the rows' sum from zero, over the edge count. -/
theorem mean_core (x0 : (⟨S50000x64, .f32⟩ : BufTy).Contents (Elt Ideal)) (x1 : (⟨S800000x64, .f32⟩ : BufTy).Contents (Elt Ideal)) (x6 : (⟨S64x192, .f32⟩ : BufTy).Contents (Elt Ideal)) (x7 : (⟨S64, .f32⟩ : BufTy).Contents (Elt Ideal)) (x10 : (⟨S800000x2, .i32⟩ : BufTy).Contents (Elt Ideal)) (j : Fin 64) :
    val_main_v26 (F := Ideal) x0 x1 x6 x7 x10 (ix1 j) = Cert.Spec.meanR (fun e k => val_main_v18 (F := Ideal) x0 x1 x10 (ix2 e k)) (fun k j => x6 (ix2 j k)) (fun j => x7 (ix1 j)) j := by
  rw [val_main_v26_apply, val_main_v24_apply, val_main_v25_apply, val_main_cst_3_apply, val_main_cst_apply]
  unfold Cert.Spec.meanR
  simp only [Ideal.hostDivf_def, Ideal.ofBits_def, Ideal.ofBits_zero_f32, nEdges_eq]
  refine congrArg (Ideal.div · Cert.Spec.nEdges) (congrArg (0 + ·) (Finset.sum_congr rfl fun k _ => ?_))
  rw [← lin_core]
  exact congrArg (val_main_v23 (F := Ideal) x0 x1 x6 x7 x10) (funext fun a => match a with | ⟨0, _⟩ => rfl | ⟨1, _⟩ => rfl)

/-- The column mean, as the two broadcasts of it hold it at (e, j). -/
theorem mean_rows_core (x0 : (⟨S50000x64, .f32⟩ : BufTy).Contents (Elt Ideal)) (x1 : (⟨S800000x64, .f32⟩ : BufTy).Contents (Elt Ideal)) (x6 : (⟨S64x192, .f32⟩ : BufTy).Contents (Elt Ideal)) (x7 : (⟨S64, .f32⟩ : BufTy).Contents (Elt Ideal)) (x10 : (⟨S800000x2, .i32⟩ : BufTy).Contents (Elt Ideal)) (e : Fin 800000) (j : Fin 64) :
    val_main_v28 (F := Ideal) x0 x1 x6 x7 x10 (ix2 e j) = Cert.Spec.meanR (fun e k => val_main_v18 (F := Ideal) x0 x1 x10 (ix2 e k)) (fun k j => x6 (ix2 j k)) (fun j => x7 (ix1 j)) j
    ∧ val_main_v35 (F := Ideal) x0 x1 x6 x7 x10 (ix2 e j) = Cert.Spec.meanR (fun e k => val_main_v18 (F := Ideal) x0 x1 x10 (ix2 e k)) (fun k j => x6 (ix2 j k)) (fun j => x7 (ix1 j)) j := by
  constructor
  · rw [val_main_v28_apply, val_main_v27_apply, ← mean_core]
    exact congrArg (val_main_v26 (F := Ideal) x0 x1 x6 x7 x10) (funext fun a => match a with | ⟨0, _⟩ => rfl)
  · rw [val_main_v35_apply, val_main_v34_apply, ← mean_core]
    exact congrArg (val_main_v26 (F := Ideal) x0 x1 x6 x7 x10) (funext fun a => match a with | ⟨0, _⟩ => rfl)

/-- The column variance: the rows' sum of squared deviations from zero, over the edge count. -/
theorem var_core (x0 : (⟨S50000x64, .f32⟩ : BufTy).Contents (Elt Ideal)) (x1 : (⟨S800000x64, .f32⟩ : BufTy).Contents (Elt Ideal)) (x6 : (⟨S64x192, .f32⟩ : BufTy).Contents (Elt Ideal)) (x7 : (⟨S64, .f32⟩ : BufTy).Contents (Elt Ideal)) (x10 : (⟨S800000x2, .i32⟩ : BufTy).Contents (Elt Ideal)) (j : Fin 64) :
    val_main_v33 (F := Ideal) x0 x1 x6 x7 x10 (ix1 j) = Cert.Spec.varR (fun e k => val_main_v18 (F := Ideal) x0 x1 x10 (ix2 e k)) (fun k j => x6 (ix2 j k)) (fun j => x7 (ix1 j)) j := by
  rw [val_main_v33_apply, val_main_v31_apply, val_main_v32_apply, val_main_cst_5_apply, val_main_cst_4_apply]
  unfold Cert.Spec.varR
  simp only [Ideal.hostDivf_def, Ideal.ofBits_def, Ideal.ofBits_zero_f32, nEdges_eq]
  refine congrArg (Ideal.div · Cert.Spec.nEdges) (congrArg (0 + ·) (Finset.sum_congr rfl fun k _ => ?_))
  have hi : idx_main_v31 (ix1 j) k = ix2 k j := (funext fun a => match a with | ⟨0, _⟩ => rfl | ⟨1, _⟩ => rfl)
  rw [hi, val_main_v30_apply, val_main_v29_apply, lin_core, (mean_rows_core x0 x1 x6 x7 x10 k j).1]
  rfl

/-- The normalised value: ((x − mean) · (var + ε)^(-1/2)) · scale + shift. -/
theorem norm_core (x0 : (⟨S50000x64, .f32⟩ : BufTy).Contents (Elt Ideal)) (x1 : (⟨S800000x64, .f32⟩ : BufTy).Contents (Elt Ideal)) (x6 : (⟨S64x192, .f32⟩ : BufTy).Contents (Elt Ideal)) (x7 x8 x9 : (⟨S64, .f32⟩ : BufTy).Contents (Elt Ideal)) (x10 : (⟨S800000x2, .i32⟩ : BufTy).Contents (Elt Ideal)) (e : Fin 800000) (j : Fin 64) :
    val_main_v48 (F := Ideal) x0 x1 x6 x7 x8 x9 x10 (ix2 e j) = Cert.Spec.normR (fun e k => val_main_v18 (F := Ideal) x0 x1 x10 (ix2 e k)) (fun k j => x6 (ix2 j k)) (fun j => x7 (ix1 j)) (fun j => x8 (ix1 j)) (fun j => x9 (ix1 j)) e j := by
  have h41 : val_main_v41 (F := Ideal) x0 x1 x6 x7 x10 (ix2 e j)
      = Ideal.rsqrt (Cert.Spec.varR (fun e k => val_main_v18 (F := Ideal) x0 x1 x10 (ix2 e k)) (fun k j => x6 (ix2 j k)) (fun j => x7 (ix1 j)) j + Cert.Spec.bnEps) := by
    rw [val_main_v41_apply, val_main_v40_apply]
    have hi : idx_main_v40 (idx_main_v41 (ix2 e j)) = ix1 j := (funext fun a => match a with | ⟨0, _⟩ => rfl)
    rw [hi, val_main_v39_apply, val_main_v38_apply, var_core, val_main_v37_apply, val_main_cst_6_apply]
    simp only [Ideal.hostUnary_rsqrt_def, Ideal.ofBits_def, Ideal.addf_def, bnEps_eq]
  have h44 : val_main_v44 (F := Ideal) x8 (ix2 e j) = x8 (ix1 j) := by
    rw [val_main_v44_apply, val_main_v43_apply]
    exact congrArg x8 (funext fun a => match a with | ⟨0, _⟩ => rfl)
  have h47 : val_main_v47 (F := Ideal) x9 (ix2 e j) = x9 (ix1 j) := by
    rw [val_main_v47_apply, val_main_v46_apply]
    exact congrArg x9 (funext fun a => match a with | ⟨0, _⟩ => rfl)
  rw [val_main_v48_apply, val_main_v45_apply, val_main_v42_apply, val_main_v36_apply, lin_core,
    (mean_rows_core x0 x1 x6 x7 x10 e j).2, h41, h44, h47]
  rfl

/-! ### The filter group -/

/-- The linear layer: row e of z times column j of the transposed weight, plus the bias. -/
theorem lin_filter (x0 : (⟨S50000x64, .f32⟩ : BufTy).Contents (Elt Ideal)) (x1 : (⟨S800000x64, .f32⟩ : BufTy).Contents (Elt Ideal)) (x2 : (⟨S64x192, .f32⟩ : BufTy).Contents (Elt Ideal)) (x3 : (⟨S64, .f32⟩ : BufTy).Contents (Elt Ideal)) (x10 : (⟨S800000x2, .i32⟩ : BufTy).Contents (Elt Ideal)) (e : Fin 800000) (j : Fin 64) :
    val_main_v54 (F := Ideal) x0 x1 x2 x3 x10 (ix2 e j) = Cert.Spec.linR (fun e k => val_main_v18 (F := Ideal) x0 x1 x10 (ix2 e k)) (fun k j => x2 (ix2 j k)) (fun j => x3 (ix1 j)) e j := by
  rw [val_main_v54_apply, val_main_v51_apply, val_main_v53_apply, val_main_v52_apply]
  unfold Cert.Spec.linR
  refine congrArg₂ (· + ·) (Finset.sum_congr rfl fun k _ => ?_) ?_
  · rw [val_main_v50_apply]
    refine congrArg₂ (· * ·) ?_ ?_
    · exact congrArg (val_main_v18 (F := Ideal) x0 x1 x10) (funext fun a => match a with | ⟨0, _⟩ => rfl | ⟨1, _⟩ => rfl)
    · exact congrArg x2 (funext fun a => match a with | ⟨0, _⟩ => rfl | ⟨1, _⟩ => rfl)
  · exact congrArg x3 (funext fun a => match a with | ⟨0, _⟩ => rfl)

/-- The column mean: the rows' sum from zero, over the edge count. -/
theorem mean_filter (x0 : (⟨S50000x64, .f32⟩ : BufTy).Contents (Elt Ideal)) (x1 : (⟨S800000x64, .f32⟩ : BufTy).Contents (Elt Ideal)) (x2 : (⟨S64x192, .f32⟩ : BufTy).Contents (Elt Ideal)) (x3 : (⟨S64, .f32⟩ : BufTy).Contents (Elt Ideal)) (x10 : (⟨S800000x2, .i32⟩ : BufTy).Contents (Elt Ideal)) (j : Fin 64) :
    val_main_v57 (F := Ideal) x0 x1 x2 x3 x10 (ix1 j) = Cert.Spec.meanR (fun e k => val_main_v18 (F := Ideal) x0 x1 x10 (ix2 e k)) (fun k j => x2 (ix2 j k)) (fun j => x3 (ix1 j)) j := by
  rw [val_main_v57_apply, val_main_v55_apply, val_main_v56_apply, val_main_cst_8_apply, val_main_cst_7_apply]
  unfold Cert.Spec.meanR
  simp only [Ideal.hostDivf_def, Ideal.ofBits_def, Ideal.ofBits_zero_f32, nEdges_eq]
  refine congrArg (Ideal.div · Cert.Spec.nEdges) (congrArg (0 + ·) (Finset.sum_congr rfl fun k _ => ?_))
  rw [← lin_filter]
  exact congrArg (val_main_v54 (F := Ideal) x0 x1 x2 x3 x10) (funext fun a => match a with | ⟨0, _⟩ => rfl | ⟨1, _⟩ => rfl)

/-- The column mean, as the two broadcasts of it hold it at (e, j). -/
theorem mean_rows_filter (x0 : (⟨S50000x64, .f32⟩ : BufTy).Contents (Elt Ideal)) (x1 : (⟨S800000x64, .f32⟩ : BufTy).Contents (Elt Ideal)) (x2 : (⟨S64x192, .f32⟩ : BufTy).Contents (Elt Ideal)) (x3 : (⟨S64, .f32⟩ : BufTy).Contents (Elt Ideal)) (x10 : (⟨S800000x2, .i32⟩ : BufTy).Contents (Elt Ideal)) (e : Fin 800000) (j : Fin 64) :
    val_main_v59 (F := Ideal) x0 x1 x2 x3 x10 (ix2 e j) = Cert.Spec.meanR (fun e k => val_main_v18 (F := Ideal) x0 x1 x10 (ix2 e k)) (fun k j => x2 (ix2 j k)) (fun j => x3 (ix1 j)) j
    ∧ val_main_v66 (F := Ideal) x0 x1 x2 x3 x10 (ix2 e j) = Cert.Spec.meanR (fun e k => val_main_v18 (F := Ideal) x0 x1 x10 (ix2 e k)) (fun k j => x2 (ix2 j k)) (fun j => x3 (ix1 j)) j := by
  constructor
  · rw [val_main_v59_apply, val_main_v58_apply, ← mean_filter]
    exact congrArg (val_main_v57 (F := Ideal) x0 x1 x2 x3 x10) (funext fun a => match a with | ⟨0, _⟩ => rfl)
  · rw [val_main_v66_apply, val_main_v65_apply, ← mean_filter]
    exact congrArg (val_main_v57 (F := Ideal) x0 x1 x2 x3 x10) (funext fun a => match a with | ⟨0, _⟩ => rfl)

/-- The column variance: the rows' sum of squared deviations from zero, over the edge count. -/
theorem var_filter (x0 : (⟨S50000x64, .f32⟩ : BufTy).Contents (Elt Ideal)) (x1 : (⟨S800000x64, .f32⟩ : BufTy).Contents (Elt Ideal)) (x2 : (⟨S64x192, .f32⟩ : BufTy).Contents (Elt Ideal)) (x3 : (⟨S64, .f32⟩ : BufTy).Contents (Elt Ideal)) (x10 : (⟨S800000x2, .i32⟩ : BufTy).Contents (Elt Ideal)) (j : Fin 64) :
    val_main_v64 (F := Ideal) x0 x1 x2 x3 x10 (ix1 j) = Cert.Spec.varR (fun e k => val_main_v18 (F := Ideal) x0 x1 x10 (ix2 e k)) (fun k j => x2 (ix2 j k)) (fun j => x3 (ix1 j)) j := by
  rw [val_main_v64_apply, val_main_v62_apply, val_main_v63_apply, val_main_cst_10_apply, val_main_cst_9_apply]
  unfold Cert.Spec.varR
  simp only [Ideal.hostDivf_def, Ideal.ofBits_def, Ideal.ofBits_zero_f32, nEdges_eq]
  refine congrArg (Ideal.div · Cert.Spec.nEdges) (congrArg (0 + ·) (Finset.sum_congr rfl fun k _ => ?_))
  have hi : idx_main_v62 (ix1 j) k = ix2 k j := (funext fun a => match a with | ⟨0, _⟩ => rfl | ⟨1, _⟩ => rfl)
  rw [hi, val_main_v61_apply, val_main_v60_apply, lin_filter, (mean_rows_filter x0 x1 x2 x3 x10 k j).1]
  rfl

/-- The normalised value: ((x − mean) · (var + ε)^(-1/2)) · scale + shift. -/
theorem norm_filter (x0 : (⟨S50000x64, .f32⟩ : BufTy).Contents (Elt Ideal)) (x1 : (⟨S800000x64, .f32⟩ : BufTy).Contents (Elt Ideal)) (x2 : (⟨S64x192, .f32⟩ : BufTy).Contents (Elt Ideal)) (x3 x4 x5 : (⟨S64, .f32⟩ : BufTy).Contents (Elt Ideal)) (x10 : (⟨S800000x2, .i32⟩ : BufTy).Contents (Elt Ideal)) (e : Fin 800000) (j : Fin 64) :
    val_main_v79 (F := Ideal) x0 x1 x2 x3 x4 x5 x10 (ix2 e j) = Cert.Spec.normR (fun e k => val_main_v18 (F := Ideal) x0 x1 x10 (ix2 e k)) (fun k j => x2 (ix2 j k)) (fun j => x3 (ix1 j)) (fun j => x4 (ix1 j)) (fun j => x5 (ix1 j)) e j := by
  have h41 : val_main_v72 (F := Ideal) x0 x1 x2 x3 x10 (ix2 e j)
      = Ideal.rsqrt (Cert.Spec.varR (fun e k => val_main_v18 (F := Ideal) x0 x1 x10 (ix2 e k)) (fun k j => x2 (ix2 j k)) (fun j => x3 (ix1 j)) j + Cert.Spec.bnEps) := by
    rw [val_main_v72_apply, val_main_v71_apply]
    have hi : idx_main_v71 (idx_main_v72 (ix2 e j)) = ix1 j := (funext fun a => match a with | ⟨0, _⟩ => rfl)
    rw [hi, val_main_v70_apply, val_main_v69_apply, var_filter, val_main_v68_apply, val_main_cst_11_apply]
    simp only [Ideal.hostUnary_rsqrt_def, Ideal.ofBits_def, Ideal.addf_def, bnEps_eq]
  have h44 : val_main_v75 (F := Ideal) x4 (ix2 e j) = x4 (ix1 j) := by
    rw [val_main_v75_apply, val_main_v74_apply]
    exact congrArg x4 (funext fun a => match a with | ⟨0, _⟩ => rfl)
  have h47 : val_main_v78 (F := Ideal) x5 (ix2 e j) = x5 (ix1 j) := by
    rw [val_main_v78_apply, val_main_v77_apply]
    exact congrArg x5 (funext fun a => match a with | ⟨0, _⟩ => rfl)
  rw [val_main_v79_apply, val_main_v76_apply, val_main_v73_apply, val_main_v67_apply, lin_filter,
    (mean_rows_filter x0 x1 x2 x3 x10 e j).2, h41, h44, h47]
  rfl

/-! ### The two activations -/

/-- The stable softplus as the program spells it: a select on a comparison of x − 0 with itself that never holds,
    then max(x, 0) + log(1 + e^(−|x − 0|)). -/
theorem softplus_read (x : EReal) :
    Scalar.select (Ideal.cmp .une (x - 0) (x - 0)) (x + 0)
        (max x 0 + Ideal.log1p (Ideal.exp (-(max (x - 0) (-(x - 0))))))
      = Cert.Spec.softplus x := by
  have h : Ideal.cmp .une (x - 0) (x - 0) = 0#1 := by simp [Ideal.cmp]
  rw [h, select_zero, sub_zero]
  rfl

/-- The core group's activation at any index. -/
theorem softplus_core (x0 : (⟨S50000x64, .f32⟩ : BufTy).Contents (Elt Ideal)) (x1 : (⟨S800000x64, .f32⟩ : BufTy).Contents (Elt Ideal)) (x6 : (⟨S64x192, .f32⟩ : BufTy).Contents (Elt Ideal)) (x7 x8 x9 : (⟨S64, .f32⟩ : BufTy).Contents (Elt Ideal)) (x10 : (⟨S800000x2, .i32⟩ : BufTy).Contents (Elt Ideal)) (i : S800000x64.Idx) :
    val_main_v49 (F := Ideal) x0 x1 x6 x7 x8 x9 x10 i = Cert.Spec.softplus (val_main_v48 (F := Ideal) x0 x1 x6 x7 x8 x9 x10 i) := by
  rw [val_main_v49_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply]
  generalize val_main_v48 (F := Ideal) x0 x1 x6 x7 x8 x9 x10 i = x
  simp only [Ideal.ofBits_def, Ideal.ofBits_zero_f32]
  exact softplus_read x

/-- The filter group's activation at any index: 1 / (1 + e^(−x)). -/
theorem gate_filter (x0 : (⟨S50000x64, .f32⟩ : BufTy).Contents (Elt Ideal)) (x1 : (⟨S800000x64, .f32⟩ : BufTy).Contents (Elt Ideal)) (x2 : (⟨S64x192, .f32⟩ : BufTy).Contents (Elt Ideal)) (x3 x4 x5 : (⟨S64, .f32⟩ : BufTy).Contents (Elt Ideal)) (x10 : (⟨S800000x2, .i32⟩ : BufTy).Contents (Elt Ideal)) (i : S800000x64.Idx) :
    val_main_v85 (F := Ideal) x0 x1 x2 x3 x4 x5 x10 i
      = Ideal.div 1 (1 + Ideal.exp (-(val_main_v79 (F := Ideal) x0 x1 x2 x3 x4 x5 x10 i))) := by
  rw [val_main_v85_apply, val_main_v84_apply, val_main_v83_apply, val_main_v82_apply, val_main_v81_apply,
    val_main_v80_apply, val_main_cst_12_apply, val_main_cst_13_apply]
  generalize val_main_v79 (F := Ideal) x0 x1 x2 x3 x4 x5 x10 i = x
  simp only [Ideal.ofBits_def, Ideal.ofBits_one_f32]
  rfl

/-! ### The message -/

theorem ref_msg (x0 : (⟨S50000x64, .f32⟩ : BufTy).Contents (Elt Ideal)) (x1 : (⟨S800000x64, .f32⟩ : BufTy).Contents (Elt Ideal))
    (x2 : (⟨S64x192, .f32⟩ : BufTy).Contents (Elt Ideal)) (x3 x4 x5 : (⟨S64, .f32⟩ : BufTy).Contents (Elt Ideal))
    (x6 : (⟨S64x192, .f32⟩ : BufTy).Contents (Elt Ideal)) (x7 x8 x9 : (⟨S64, .f32⟩ : BufTy).Contents (Elt Ideal))
    (x10 : (⟨S800000x2, .i32⟩ : BufTy).Contents (Elt Ideal)) (e : Fin 800000) (j : Fin 64) :
    val_main_v86 (F := Ideal) x0 x1 x2 x3 x4 x5 x6 x7 x8 x9 x10 (ix2 e j)
      = Cert.Spec.msgR (fun e k => val_main_v18 (F := Ideal) x0 x1 x10 (ix2 e k))
          (fun k j => x6 (ix2 j k)) (fun j => x7 (ix1 j)) (fun j => x8 (ix1 j)) (fun j => x9 (ix1 j))
          (fun k j => x2 (ix2 j k)) (fun j => x3 (ix1 j)) (fun j => x4 (ix1 j)) (fun j => x5 (ix1 j)) e j := by
  rw [val_main_v86_apply, gate_filter, softplus_core, norm_core, norm_filter]
  rfl

end Cert.RefRead

end
-- ==== Proof.LibFiniteEntry.lean ====
/-
  One "every entry is finite" test of a precondition, read back at an entry.

  A precondition "all float inputs are finite" is, per input, an and-reduction over all axes of the entrywise
  comparison |v| < +∞ (the bound the word 0x7F800000), started from true. When such a reduction is true every
  entry's comparison is true, and an extended real v with max(v, -v) < +∞ is neither +∞ nor -∞: it is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.FiniteEntry

open Idealize.ShloMosaic Idealize.ShloMosaic.ValueIdx

/-- The comparison bound's word denotes +∞. -/
theorem inf_eq : Ideal.ofBits .f32 0x7F800000#32 = ⊤ := by
  simp [Ideal.ofBits, Ideal.ieee]

/-- |v| < +∞ came out true: v is a real number. -/
theorem real_of_abs_lt_inf (v : EReal)
    (h : FloatOps.cmpf (F := Ideal) (φ := .f32) .olt (FloatOps.hostAbsf v) (Ideal.ofBits .f32 0x7F800000#32) = 1#1) :
    ∃ r : ℝ, v = (r : EReal) := by
  have hlt : max v (-v) < ⊤ := by
    by_contra hn
    have h0 : FloatOps.cmpf (F := Ideal) (φ := .f32) .olt (FloatOps.hostAbsf v) (Ideal.ofBits .f32 0x7F800000#32) = 0#1 := by
      show BitVec.ofBool (decide (max v (-v) < Ideal.ofBits .f32 0x7F800000#32)) = 0#1
      rw [inf_eq, decide_eq_false hn]
      rfl
    rw [h0] at h
    exact absurd h (by decide)
  have h1 : v ≠ ⊤ := fun e => by rw [e] at hlt; simp at hlt
  have h2 : v ≠ ⊥ := fun e => by rw [e] at hlt; simp at hlt
  exact ⟨v.toReal, (EReal.coe_toReal h1 h2).symm⟩

/-- A rank-0 array has one index. -/
instance : Subsingleton (⟨0, ![]⟩ : Shape).Idx := ⟨fun a b => funext fun d => d.elim0⟩

/-- The whole test read back: if the and-reduction over all axes of "|a| < +∞" (the bound broadcast from a scalar
    constant) is true, every entry of a is a real number. -/
theorem all_real {s : Shape} {axes : List (Fin s.rank)} (a : FVec Ideal s .f32)
    (hb : (⟨0, ![]⟩ : Shape).BroadcastsInDim s ![]) (hr : s.ReducesTo axes ⟨0, ![]⟩) (hn : 0 < (⟨0, ![]⟩ : Shape).numel)
    (init : IVec ⟨0, ![]⟩ 1)
    (h : Host.reduce IntOp.andi
        (cmpf .olt (Host.absf a) (broadcastInDim s ![] hb (constant (F := Ideal) ⟨0, ![]⟩ .f32 0x7F800000#32))) init hr hn ix0 = 1#1)
    (i : s.Idx) : ∃ r : ℝ, a i = (r : EReal) := by
  have e := Host.reduce_andi_all _ _ _ _ ix0 h i
  rw [cmpf_apply, broadcastInDim_scalar_apply] at e
  exact real_of_abs_lt_inf (a i) e

end Cert.Lib.FiniteEntry

end
-- ==== Proof.IdealFinite.lean ====
/-
  The precondition read back. "Every float input is finite" is, per input, an and-reduction over all axes of the
  entrywise test |v| < +∞, and the ten results are joined by "and". When the whole is true each of the ten is true,
  so every entry of every float input is a real number. Here: the atom features, the edge features, and the two
  groups' weights and biases (the scales and shifts are never needed to be real).
-/
import proofs.«117771_j63462436766119_2_alg».proof.Pre_finite_inputs
import proofs.«117771_j63462436766119_2_alg».proof.Proof.LibFiniteEntry
import Idealize.ShloMosaic.Lib.Affine

noncomputable section

namespace Cert.Finite

open Idealize.ShloMosaic Idealize.ShloMosaic.ValueIdx Cert.Pre_finite_inputs

variable [hPre : Cert.Pre_finite_inputs.Facts]

/-- The "and" of two one-bit tests at the one index of a rank-0 array. -/
theorem and_one {a b : IVec S_ 1} (h : andi a b ix0 = 1#1) : a ix0 = 1#1 ∧ b ix0 = 1#1 :=
  IntOp.andi_eq_one.1 h

theorem reals_of_finite_inputs (x0 : FVec Ideal S50000x64 .f32) (x1 : FVec Ideal S800000x64 .f32) (x2 : FVec Ideal S64x192 .f32)
    (x3 x4 x5 : FVec Ideal S64 .f32) (x6 : FVec Ideal S64x192 .f32) (x7 x8 x9 : FVec Ideal S64 .f32) (x10 : IVec S800000x2 32)
    (h : Cert.Pre_finite_inputs.fn (F := Ideal) x0 x1 x2 x3 x4 x5 x6 x7 x8 x9 x10 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x6 i = (r : EReal)) ∧ (∀ i, ∃ r : ℝ, x7 i = (r : EReal)) := by
  have h0 := congrFun h ix0
  dsimp only [fn, fn_part1, fn_part2] at h0
  obtain ⟨h8, t9⟩ := and_one h0
  obtain ⟨h7, t8⟩ := and_one h8
  obtain ⟨h6, t7⟩ := and_one h7
  obtain ⟨h5, t6⟩ := and_one h6
  obtain ⟨h4, t5⟩ := and_one h5
  obtain ⟨h3, t4⟩ := and_one h4
  obtain ⟨h2, t3⟩ := and_one h3
  obtain ⟨h1, t2⟩ := and_one h2
  obtain ⟨t0, t1⟩ := and_one h1
  exact ⟨Cert.Lib.FiniteEntry.all_real x0 _ _ _ _ t0, Cert.Lib.FiniteEntry.all_real x1 _ _ _ _ t1,
    Cert.Lib.FiniteEntry.all_real x2 _ _ _ _ t2, Cert.Lib.FiniteEntry.all_real x3 _ _ _ _ t3,
    Cert.Lib.FiniteEntry.all_real x6 _ _ _ _ t6, Cert.Lib.FiniteEntry.all_real x7 _ _ _ _ t7⟩

end Cert.Finite

end
-- ==== Proof.IdealValue.lean ====
/-
  The idealized kernel's result is the reference's result of the same argument arrays, under finite inputs.

  Both results are the atom features plus the scatter-add, by destination atom, of a message array; the scatter's
  operand (zeros), its indices (column 1 of the edge index array) and the atom features are the same terms on both
  sides, so only the message arrays are compared, entry by entry. At edge e and column j the kernel's message call
  leaves the gated message at the means and variances it is handed; those are the kernel's own statistics of the
  block sums the statistics call leaves; the joint weight matrix and the joint bias, scale and shift rows are, column
  by column, the reference's per-group arrays; and the edge matrix is the reference's. With every entry of the edge
  matrix, the weights and the biases a real number — which the precondition gives, a gathered or concatenated entry
  being an entry of one of the operands — the kernel's way of taking the variance is the reference's.
-/
import proofs.«117771_j63462436766119_2_alg».proof.Proof.IdealStretches
import proofs.«117771_j63462436766119_2_alg».proof.Proof.IdealStatsValue
import proofs.«117771_j63462436766119_2_alg».proof.Proof.IdealMessageValue
import proofs.«117771_j63462436766119_2_alg».proof.Proof.SpecLaw
import proofs.«117771_j63462436766119_2_alg».proof.Proof.SpecWith
import proofs.«117771_j63462436766119_2_alg».proof.Proof.RefRead
import proofs.«117771_j63462436766119_2_alg».proof.Proof.IdealFinite

set_option maxRecDepth 16384

noncomputable section

namespace Cert.KernelIdeal.Value

open Idealize.ShloMosaic Idealize.ShloMosaic.TcCoe Idealize.ShloMosaic.ValueIdx Idealize.ShloMosaic.Pipeline
open Idealize.SL.Sem
open Cert.KernelIdeal Cert.KernelIdeal.Gen Cert.KernelIdeal.Regions Cert.KernelIdeal.Stretches
open scoped BigOperators

/-- A property that every entry of every piece has, every entry of their concatenation has: a concatenated entry
    is an entry of one of the pieces. -/
theorem concatenate_forall {α : Type} (P : α → Prop) (t : Shape) (a : Fin t.rank) (xs : List ((s : Shape) × (s.Idx → α)))
    (h : Shape.Concatenates (xs.map (·.1)) t a) (hP : ∀ p ∈ xs, ∀ i, P (p.2 i)) (j : t.Idx) :
    P (concatenate t a xs h j) := by
  unfold concatenate
  exact hP _ (List.getElem_mem _) _

section Bridge

/-- The edge matrix, the joint weight matrix and a joint row, by coordinates. -/
def Zf (x0 : S50000x64.Idx → EReal) (x1 : S800000x64.Idx → EReal) (x10 : S800000x2.Idx → BitVec 32) : Fin 800000 → Fin 192 → EReal :=
  fun e k => Cert.ReferenceIdeal.Read.val_main_v18 (F := Ideal) x0 x1 x10 (ix2 e k)
def Wf (x6 x2 : S64x192.Idx → EReal) : Fin 192 → Fin 128 → EReal := fun k q =>
  (truncf (F := Ideal) .bf16 (concatenate S192x128 1
      [⟨S192x64, transpose S192x64 [1, 0] x6 transposes_S64x192_S192x64_1_0⟩,
       ⟨S192x64, transpose S192x64 [1, 0] x2 transposes_S64x192_S192x64_1_0⟩]
      concatenates_S192x64_S192x64_S192x128_d1) bitsLt_bf16_f32 : S192x128.Idx → EReal) (ix2 k q)
def rowf (a b : S64.Idx → EReal) : Fin 128 → EReal := fun q => jointRow a b (ix2 (0 : Fin 1) q)

theorem Zf_real (x0 : S50000x64.Idx → EReal) (x1 : S800000x64.Idx → EReal) (x10 : S800000x2.Idx → BitVec 32)
    (h0 : ∀ i, ∃ r : ℝ, x0 i = (r : EReal)) (h1 : ∀ i, ∃ r : ℝ, x1 i = (r : EReal)) (e : Fin 800000) (k : Fin 192) :
    ∃ r : ℝ, Zf x0 x1 x10 e k = (r : EReal) := by
  unfold Zf Cert.ReferenceIdeal.Read.val_main_v18
  refine concatenate_forall (fun v : EReal => ∃ r : ℝ, v = (r : EReal)) _ _ _ _ ?_ _
  intro p hp i
  simp only [List.mem_cons, List.not_mem_nil, or_false] at hp
  rcases hp with rfl | rfl | rfl
  · exact h0 _
  · exact h0 _
  · exact h1 _

theorem Wf_real (x6 x2 : S64x192.Idx → EReal) (h6 : ∀ i, ∃ r : ℝ, x6 i = (r : EReal)) (h2 : ∀ i, ∃ r : ℝ, x2 i = (r : EReal))
    (k : Fin 192) (q : Fin 128) : ∃ r : ℝ, Wf x6 x2 k q = (r : EReal) := by
  unfold Wf
  show ∃ r : ℝ, concatenate S192x128 1
      [⟨S192x64, transpose S192x64 [1, 0] x6 transposes_S64x192_S192x64_1_0⟩,
       ⟨S192x64, transpose S192x64 [1, 0] x2 transposes_S64x192_S192x64_1_0⟩]
      concatenates_S192x64_S192x64_S192x128_d1 (ix2 k q) = (r : EReal)
  refine concatenate_forall (fun v : EReal => ∃ r : ℝ, v = (r : EReal)) _ _ _ _ ?_ _
  intro p hp i
  simp only [List.mem_cons, List.not_mem_nil, or_false] at hp
  rcases hp with rfl | rfl
  · exact h6 _
  · exact h2 _

theorem rowf_real (a b : S64.Idx → EReal) (ha : ∀ i, ∃ r : ℝ, a i = (r : EReal)) (hb : ∀ i, ∃ r : ℝ, b i = (r : EReal)) (q : Fin 128) :
    ∃ r : ℝ, rowf a b q = (r : EReal) := by
  unfold rowf jointRow
  refine concatenate_forall (fun v : EReal => ∃ r : ℝ, v = (r : EReal)) _ _ _ _ ?_ _
  intro p hp i
  simp only [List.mem_cons, List.not_mem_nil, or_false] at hp
  rcases hp with rfl | rfl
  · exact ha _
  · exact hb _

/-- The kernel's message formula at the first stretch's arrays is the reference's message array at (e, j). -/
theorem msg_bridge (x0 : S50000x64.Idx → EReal) (x1 : S800000x64.Idx → EReal) (x2 : S64x192.Idx → EReal) (x3 x4 x5 : S64.Idx → EReal)
    (x6 : S64x192.Idx → EReal) (x7 x8 x9 : S64.Idx → EReal) (x10 : S800000x2.Idx → BitVec 32)
    (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal))
    (h6 : ∀ i, ∃ r : ℝ, x6 i = (r : EReal)) (h7 : ∀ i, ∃ r : ℝ, x7 i = (r : EReal)) (e : Fin 800000) (j : Fin 64) :
    Cert.Spec.msgK (Zf x0 x1 x10) (Wf x6 x2) (rowf x7 x3) (rowf x8 x4) (rowf x9 x5) e j
      = Cert.ReferenceIdeal.Read.val_main_v86 (F := Ideal) x0 x1 x2 x3 x4 x5 x6 x7 x8 x9 x10 (ix2 e j) := by
  rw [Cert.RefRead.ref_msg]
  exact Cert.Spec.msgK_eq_msgR (Zf x0 x1 x10) (Wf x6 x2) (rowf x7 x3) (rowf x8 x4) (rowf x9 x5)
    (fun k j => x6 (ix2 j k)) (fun j => x7 (ix1 j)) (fun j => x8 (ix1 j)) (fun j => x9 (ix1 j))
    (fun k j => x2 (ix2 j k)) (fun j => x3 (ix1 j)) (fun j => x4 (ix1 j)) (fun j => x5 (ix1 j))
    (Zf_real x0 x1 x10 h0 h1) (Wf_real x6 x2 h6 h2) (rowf_real x7 x3 h7 h3)
    (fun k j => w_lo x6 x2 k j) (fun k j => w_hi x6 x2 k j)
    (fun j => jointRow_lo x7 x3 j) (fun j => jointRow_hi x7 x3 j)
    (fun j => jointRow_lo x8 x4 j) (fun j => jointRow_hi x8 x4 j)
    (fun j => jointRow_lo x9 x5 j) (fun j => jointRow_hi x9 x5 j) e j

end Bridge

section Kernel

variable (m : (ℓ : Loc nD τ sig) → Buf (Elt Ideal) ℓ) (ρ : Dev nD → PrngReg) (c : Dev nD)

/-- The arrays both calls are handed, by coordinates, are the first stretch's. -/
theorem z1 : (fun (e : Fin 800000) (k : Fin 192) => (V1 m ρ c main_v20 : S800000x192.Idx → EReal) (ix2 e k))
    = Zf (m ((c : Thread nD τ).loc main_arg0)) (m ((c : Thread nD τ).loc main_arg1)) (m ((c : Thread nD τ).loc main_arg10)) :=
  funext fun e => funext fun k => congrFun (z_eq m ρ c) (ix2 e k)
theorem w1 : (fun (k : Fin 192) (q : Fin 128) => (V1 m ρ c main_v24 : S192x128.Idx → EReal) (ix2 k q))
    = Wf (m ((c : Thread nD τ).loc main_arg6)) (m ((c : Thread nD τ).loc main_arg2)) :=
  funext fun k => funext fun q => congrFun (w_eq m ρ c) (ix2 k q)
theorem b1 : (fun (q : Fin 128) => (V1 m ρ c main_v26 : S1x128.Idx → EReal) (ix2 (0 : Fin 1) q))
    = rowf (m ((c : Thread nD τ).loc main_arg7)) (m ((c : Thread nD τ).loc main_arg3)) :=
  funext fun q => congrFun (b_eq m ρ c) (ix2 (0 : Fin 1) q)

theorem z3 : (fun (e : Fin 800000) (k : Fin 192) => (V3 m ρ c main_v20 : S800000x192.Idx → EReal) (ix2 e k))
    = Zf (m ((c : Thread nD τ).loc main_arg0)) (m ((c : Thread nD τ).loc main_arg1)) (m ((c : Thread nD τ).loc main_arg10)) :=
  funext fun e => funext fun k => congrFun ((W3_in0 m ρ c 0 rfl (by decide)).trans (z_eq m ρ c)) (ix2 e k)
theorem w3 : (fun (k : Fin 192) (q : Fin 128) => (V3 m ρ c main_v24 : S192x128.Idx → EReal) (ix2 k q))
    = Wf (m ((c : Thread nD τ).loc main_arg6)) (m ((c : Thread nD τ).loc main_arg2)) :=
  funext fun k => funext fun q => congrFun ((W3_in0 m ρ c 1 rfl (by decide)).trans (w_eq m ρ c)) (ix2 k q)
theorem b3 : (fun (q : Fin 128) => (V3 m ρ c main_v26 : S1x128.Idx → EReal) (ix2 (0 : Fin 1) q))
    = rowf (m ((c : Thread nD τ).loc main_arg7)) (m ((c : Thread nD τ).loc main_arg3)) :=
  funext fun q => congrFun ((W3_in0 m ρ c 2 rfl (by decide)).trans (b_eq m ρ c)) (ix2 (0 : Fin 1) q)
theorem g3 : (fun (q : Fin 128) => (V3 m ρ c main_v28 : S1x128.Idx → EReal) (ix2 (0 : Fin 1) q))
    = rowf (m ((c : Thread nD τ).loc main_arg8)) (m ((c : Thread nD τ).loc main_arg4)) :=
  funext fun q => congrFun ((W3_of_W1 m ρ c main_v28 (by decide) (by decide)).trans (g_eq m ρ c)) (ix2 (0 : Fin 1) q)
theorem h3 : (fun (q : Fin 128) => (V3 m ρ c main_v30 : S1x128.Idx → EReal) (ix2 (0 : Fin 1) q))
    = rowf (m ((c : Thread nD τ).loc main_arg9)) (m ((c : Thread nD τ).loc main_arg5)) :=
  funext fun q => congrFun ((W3_of_W1 m ρ c main_v30 (by decide) (by decide)).trans (h_eq m ρ c)) (ix2 (0 : Fin 1) q)

set_option quotPrecheck false in
local notation "Z₀" => Zf (m ((c : Thread nD τ).loc main_arg0)) (m ((c : Thread nD τ).loc main_arg1)) (m ((c : Thread nD τ).loc main_arg10))
set_option quotPrecheck false in
local notation "W₀" => Wf (m ((c : Thread nD τ).loc main_arg6)) (m ((c : Thread nD τ).loc main_arg2))
set_option quotPrecheck false in
local notation "B₀" => rowf (m ((c : Thread nD τ).loc main_arg7)) (m ((c : Thread nD τ).loc main_arg3))
set_option quotPrecheck false in
local notation "G₀" => rowf (m ((c : Thread nD τ).loc main_arg8)) (m ((c : Thread nD τ).loc main_arg4))
set_option quotPrecheck false in
local notation "H₀" => rowf (m ((c : Thread nD τ).loc main_arg9)) (m ((c : Thread nD τ).loc main_arg5))

/-- The statistics call's two arrays hold the blocks' column sums and column sums of squares. -/
theorem sums_in (t : Fin 50) (q : Fin 128) :
    (W2 m ρ c (Proc.devRef .tc main_v31_0) : S50x1x128.Idx → EReal) (ix3 t (0 : Fin 1) q) = Cert.Spec.partSum Z₀ W₀ B₀ t q := by
  refine (congrFun (W2_arr m ρ c 3) (ix3 t (0 : Fin 1) q)).trans ?_
  refine (Cert.KernelIdeal.StatsValue.sums_at (V1 m ρ) c t q).trans ?_
  rw [z1, w1, b1]
theorem squares_in (t : Fin 50) (q : Fin 128) :
    (W2 m ρ c (Proc.devRef .tc main_v31_1) : S50x1x128.Idx → EReal) (ix3 t (0 : Fin 1) q) = Cert.Spec.partSq Z₀ W₀ B₀ t q := by
  refine (congrFun (W2_arr m ρ c 4) (ix3 t (0 : Fin 1) q)).trans ?_
  refine (Cert.KernelIdeal.StatsValue.squares_at (V1 m ρ) c t q).trans ?_
  rw [z1, w1, b1]

/-- The mean and variance rows the message call is handed are the kernel's statistics. -/
theorem mean_in : (fun (q : Fin 128) => (V3 m ρ c main_v35 : S1x128.Idx → EReal) (ix2 (0 : Fin 1) q)) = Cert.Spec.meanK Z₀ W₀ B₀ := by
  funext q
  refine (congrFun (mean_eq m ρ c) (ix2 (0 : Fin 1) q)).trans ?_
  rw [meanRow_at]
  unfold Cert.Spec.meanK
  exact congrArg (fun s => Ideal.div (0 + s) Cert.Spec.nEdges) (Finset.sum_congr rfl fun t _ => sums_in m ρ c t q)
theorem var_in : (fun (q : Fin 128) => (V3 m ρ c main_v41 : S1x128.Idx → EReal) (ix2 (0 : Fin 1) q)) = Cert.Spec.varK Z₀ W₀ B₀ := by
  funext q
  refine (congrFun (var_eq m ρ c) (ix2 (0 : Fin 1) q)).trans ?_
  rw [varRow_at]
  unfold Cert.Spec.varK Cert.Spec.meanK
  exact congrArg₂ (fun a b : EReal => max (Ideal.div (0 + b) Cert.Spec.nEdges
      - Ideal.div (0 + a) Cert.Spec.nEdges * Ideal.div (0 + a) Cert.Spec.nEdges) 0)
    (Finset.sum_congr rfl fun t _ => sums_in m ρ c t q) (Finset.sum_congr rfl fun t _ => squares_in m ρ c t q)

/-- The message array the message call leaves, at (e, j): the kernel's message formula. -/
theorem kernel_msg (e : Fin 800000) (j : Fin 64) :
    (W4 m ρ c (Proc.devRef .tc main_v42) : S800000x64.Idx → EReal) (ix2 e j) = Cert.Spec.msgK Z₀ W₀ B₀ G₀ H₀ e j := by
  refine (congrFun (W4_arr m ρ c 7) (ix2 e j)).trans ?_
  refine (Cert.KernelIdeal.MessageValue.message_at (V3 m ρ) c e j).trans ?_
  rw [z3, w3, b3, g3, h3, mean_in, var_in]
  rfl

/-- THE RESULT: under finite inputs the kernel's result array is the reference's result of the same arguments. -/
theorem kernel_result [hPre : Cert.Pre_finite_inputs.Facts]
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) = fun _ => 1#1) :
    (W5 m ρ c (Proc.devRef .tc main_v46) : S50000x64.Idx → EReal)
      = Cert.ReferenceIdeal.Read.val_main_v90 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) := by
  obtain ⟨h0, h1, h2, h3, h6, h7⟩ := Cert.Finite.reals_of_finite_inputs _ _ _ _ _ _ _ _ _ _ _ hpre
  have hmsg : (W4 m ρ c (Proc.devRef .tc main_v42) : S800000x64.Idx → EReal)
      = Cert.ReferenceIdeal.Read.val_main_v86 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) :=
    funext fun i => by
      obtain ⟨e, j, rfl⟩ : ∃ (e : Fin 800000) (j : Fin 64), i = ix2 e j := ⟨i 0, i 1, eq_ix2 i⟩
      exact (kernel_msg m ρ c e j).trans (msg_bridge _ _ _ _ _ _ _ _ _ _ _ h0 h1 h2 h3 h6 h7 e j)
  rw [out_eq, hmsg, W4_arg m ρ c main_arg0 (by decide) (by decide) (by decide) (by decide),
    W4_of_W1 m ρ c main_v3 (by decide) (by decide) (by decide), dst_eq]
  rfl

end Kernel

end Cert.KernelIdeal.Value

end
-- ==== Proof.lean ====
/-
  A crystal-graph convolution layer: for every edge the destination atom's features, the source atom's features and
  the edge's features side by side (z, 192 numbers), two linear layers of z (a "core" and a "filter" group of 64
  columns each) each followed by a batch normalisation over the 800000 edges, the message
  logistic(filter) · softplus(core), and the messages summed onto their destination atoms and added to the atom
  features.

  The kernel makes two passes over z, in blocks of rows: a first call leaves, per block of 16000 rows, the column
  sums of z·W + b and of its squares for the 128 joint columns; the host adds the 50 blocks' sums, divides by the
  edge count and forms the variance as max(E[x²] − E[x]², 0); a second call, in blocks of 6400 rows, normalises,
  gates and multiplies. The reference computes each group's mean and its variance as the mean squared deviation.
  At the ideal instance the two agree once every float input is finite: sums may be grouped freely, a change of
  float format is the identity, and over the real numbers E[x²] − E[x]² is the mean squared deviation, which is not
  negative.

  The claim's conjuncts: each program runs to the end, faulting nowhere, with its argument arrays unchanged (the
  kernel's two calls each load their input blocks whole and store their output blocks whole, so every grid point
  leaves each output block at one stored piece; the host stretches write no argument); the idealization rewrote no
  operation; and the two idealized programs end with equal results.
-/
import proofs.«117771_j63462436766119_2_alg».proof.Defs
import proofs.«117771_j63462436766119_2_alg».proof.Proof.Gen.Kernel
import proofs.«117771_j63462436766119_2_alg».proof.Proof.Gen.KernelIdeal
import proofs.«117771_j63462436766119_2_alg».proof.Proof.Gen.ReferenceIdeal
import proofs.«117771_j63462436766119_2_alg».proof.Proof.Gen.ReferenceIdeal.Read
import proofs.«117771_j63462436766119_2_alg».proof.Proof.Gen.Pre_finite_inputs
import proofs.«117771_j63462436766119_2_alg».proof.Proof.BitsRun
import proofs.«117771_j63462436766119_2_alg».proof.Proof.IdealValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Regions.frame (F := Bits) m ρ
/-- So does the idealized kernel. -/
theorem frame_kernel_ideal : Cert.frame_KernelIdeal := fun m ρ _ => Cert.KernelIdeal.Regions.frame (F := Ideal) m ρ
/-- The reference is host operations only: its run with the result dropped. -/
theorem frame_reference : Cert.frame_ReferenceIdeal := fun m ρ _ =>
  (θ_run Cert.ReferenceIdeal.defs _ _).mono (fun _ h c => (h c).2) (Cert.ReferenceIdeal.Value.run (F := Ideal) m ρ)
/-- The idealization rewrote no operation. -/
theorem preserves : Cert.preserves_Kernel_KernelIdeal := trivial

open Cert.KernelIdeal Cert.KernelIdeal.Regions in
/-- From memories agreeing on the arguments, finite, both idealized programs end with the same result array. -/
theorem algebraic : Cert.algebraic_KernelIdeal_ReferenceIdeal := by
  intro m ρ m' ρ' hpre hagree
  refine ⟨fun c => W5 m ρ c (Proc.devRef .tc main_v46), ?_, ?_⟩
  · exact (θ_run Cert.KernelIdeal.defs _ _).mono (fun r h c =>
      ⟨h c _ (mem_uc main_v46 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩) (run_all m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v90_eq, e0, e1, e2, e3, e4, e5, e6, e7, e8, e9, e10]
    exact (Cert.KernelIdeal.Value.kernel_result m ρ c (hpre c)).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
